-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x18 : Shape := ⟨3, ![2048, 128, 18]⟩
abbrev S2048x4096 : Shape := ⟨2, ![2048, 4096]⟩
abbrev S18x128x4096 : Shape := ⟨3, ![18, 128, 4096]⟩
abbrev S18x128 : Shape := ⟨2, ![18, 128]⟩
abbrev S128x4096 : Shape := ⟨2, ![128, 4096]⟩
abbrev S128 : Shape := ⟨1, ![128]⟩
abbrev S32x128 : Shape := ⟨2, ![32, 128]⟩
abbrev S32 : Shape := ⟨1, ![32]⟩
abbrev S_ : Shape := ⟨0, ![]⟩

class Facts : Prop where
  bcast_S_S2048x128x18 : S_.BroadcastsInDim S2048x128x18 (![] : Fin 0 → Fin S2048x128x18.rank)
  reducesTo_S2048x128x18_S_d0_1_2 : S2048x128x18.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S18x128x4096 : S_.BroadcastsInDim S18x128x4096 (![] : Fin 0 → Fin S18x128x4096.rank)
  reducesTo_S18x128x4096_S_d0_1_2 : S18x128x4096.ReducesTo [0, 1, 2] S_
  bcast_S_S18x128 : S_.BroadcastsInDim S18x128 (![] : Fin 0 → Fin S18x128.rank)
  reducesTo_S18x128_S_d0_1 : S18x128.ReducesTo [0, 1] S_
  bcast_S_S128x4096 : S_.BroadcastsInDim S128x4096 (![] : Fin 0 → Fin S128x4096.rank)
  reducesTo_S128x4096_S_d0_1 : S128x4096.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S128 .f32) (main_arg8 : FVec F S32x128 .f32) (main_arg9 : FVec F S32 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x128 .f32 := Host.absf main_arg8
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S128x4096 .f32) (main_arg5 : FVec F S128 .f32) (main_arg6 : FVec F S128 .f32) (main_arg7 : FVec F S128 .f32) (main_arg8 : FVec F S32x128 .f32) (main_arg9 : FVec F S32 .f32) (main_v13 : IVec S_ 1) (main_v16 : IVec S18x128 1) : IVec S_ 1 :=
  let main_c_5 : IVec S_ 1 := constantI S_ 1 1#1
  let main_v17 : IVec S_ 1 := (fun x v => Host.reduce IntOp.andi x v reducesTo_S18x128_S_d0_1 h_S_) main_v16 main_c_5
  let main_v18 : IVec S_ 1 := andi main_v13 main_v17
  let main_v19 : FVec F S128x4096 .f32 := Host.absf main_arg4
  let main_cst_6 : FVec F S_ .f32 := constant S_ .f32 0x7F800000#32
  let main_v20 : FVec F S128x4096 .f32 := broadcastInDim S128x4096 ![] bcast_S_S128x4096 main_cst_6
  let main_v21 : IVec S128x4096 1 := cmpf .olt main_v19 main_v20
  let main_c_7 : IVec S_ 1 := constantI S_ 1 1#1
  let main_v22 : IVec S_ 1 := (fun x v => Host.reduce IntOp.andi x v reducesTo_S128x4096_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S2048x128x18 .f32) (main_arg1 : FVec F S2048x4096 .f32) (main_arg2 : FVec F S18x128x4096 .f32) (main_arg3 : FVec F S18x128 .f32) (main_arg4 : FVec F S128x4096 .f32) (main_arg5 : FVec F S128 .f32) (main_arg6 : FVec F S128 .f32) (main_arg7 : FVec F S128 .f32) (main_arg8 : FVec F S32x128 .f32) (main_arg9 : FVec F S32 .f32) : IVec S_ 1 :=
  let main_v0 : FVec F S2048x128x18 .f32 := Host.absf main_arg0
  let main_cst : FVec F S_ .f32 := constant S_ .f32 0x7F800000#32
  let main_v1 : FVec F S2048x128x18 .f32 := broadcastInDim S2048x128x18 ![] bcast_S_S2048x128x18 main_cst
  let main_v2 : IVec S2048x128x18 1 := cmpf .olt main_v0 main_v1
  let main_c : IVec S_ 1 := constantI S_ 1 1#1
  let main_v3 : IVec S_ 1 := (fun x v => Host.reduce IntOp.andi x v reducesTo_S2048x128x18_S_d0_1_2 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S18x128x4096 .f32 := Host.absf main_arg2
  let main_cst_2 : FVec F S_ .f32 := constant S_ .f32 0x7F800000#32
  let main_v10 : FVec F S18x128x4096 .f32 := broadcastInDim S18x128x4096 ![] bcast_S_S18x128x4096 main_cst_2
  let main_v11 : IVec S18x128x4096 1 := cmpf .olt main_v9 main_v10
  let main_c_3 : IVec S_ 1 := constantI S_ 1 1#1
  let main_v12 : IVec S_ 1 := (fun x v => Host.reduce IntOp.andi x v reducesTo_S18x128x4096_S_d0_1_2 h_S_) main_v11 main_c_3
  let main_v13 : IVec S_ 1 := andi main_v8 main_v12
  let main_v14 : FVec F S18x128 .f32 := Host.absf main_arg3
  let main_cst_4 : FVec F S_ .f32 := constant S_ .f32 0x7F800000#32
  let main_v15 : FVec F S18x128 .f32 := broadcastInDim S18x128 ![] bcast_S_S18x128 main_cst_4
  let main_v16 : IVec S18x128 1 := cmpf .olt main_v14 main_v15
  fn_part1 (F := F) main_arg4 main_arg5 main_arg6 main_arg7 main_arg8 main_arg9 main_v13 main_v16
-- ==== Kernel.lean ====
abbrev S2048x128x18 : Shape := ⟨3, ![2048, 128, 18]⟩
abbrev S2048x4096 : Shape := ⟨2, ![2048, 4096]⟩
abbrev S18x128x4096 : Shape := ⟨3, ![18, 128, 4096]⟩
abbrev S18x128 : Shape := ⟨2, ![18, 128]⟩
abbrev S128x4096 : Shape := ⟨2, ![128, 4096]⟩
abbrev S128 : Shape := ⟨1, ![128]⟩
abbrev S32x128 : Shape := ⟨2, ![32, 128]⟩
abbrev S32 : Shape := ⟨1, ![32]⟩
abbrev S18x2048x128 : Shape := ⟨3, ![18, 2048, 128]⟩
abbrev S18x1x128 : Shape := ⟨3, ![18, 1, 128]⟩
abbrev S18x1x1 : Shape := ⟨3, ![18, 1, 1]⟩
abbrev S1x128x4096 : Shape := ⟨3, ![1, 128, 4096]⟩
abbrev S1x1x128 : Shape := ⟨3, ![1, 1, 128]⟩
abbrev S1x256x128 : Shape := ⟨3, ![1, 256, 128]⟩
abbrev S1x1x1 : Shape := ⟨3, ![1, 1, 1]⟩
abbrev S2048x128 : Shape := ⟨2, ![2048, 128]⟩
abbrev S1x1 : Shape := ⟨2, ![1, 1]⟩
abbrev S1x128 : Shape := ⟨2, ![1, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S_ : Shape := ⟨0, ![]⟩
abbrev S2048x32 : Shape := ⟨2, ![2048, 32]⟩
abbrev S1x32 : Shape := ⟨2, ![1, 32]⟩

abbrev nBuf : Space → Nat
  | .hbm => 20
  | .vmem => 19
  | .smem => 0
  | _ => 0

abbrev bufTy : (tb : Table) → Fin (tcTables nBuf tb) → BufTy
  | .hbm, ⟨0, _⟩ => ⟨S2048x128x18, .f32⟩
  | .hbm, ⟨1, _⟩ => ⟨S2048x4096, .f32⟩
  | .hbm, ⟨2, _⟩ => ⟨S18x128x4096, .f32⟩
  | .hbm, ⟨3, _⟩ => ⟨S18x128, .f32⟩
  | .hbm, ⟨4, _⟩ => ⟨S128x4096, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S32x128, .f32⟩
  | .hbm, ⟨9, _⟩ => ⟨S32, .f32⟩
  | .hbm, ⟨10, _⟩ => ⟨S2048x4096, .bf16⟩
  | .hbm, ⟨11, _⟩ => ⟨S18x2048x128, .f32⟩
  | .hbm, ⟨12, _⟩ => ⟨S18x2048x128, .bf16⟩
  | .hbm, ⟨13, _⟩ => ⟨S18x1x128, .f32⟩
  | .hbm, ⟨14, _⟩ => ⟨S18x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048x32, .f32⟩
  | .local _ .vmem, ⟨0, _⟩ => ⟨S2048x4096, .bf16⟩
  | .local _ .vmem, ⟨1, _⟩ => ⟨S1x128x4096, .f32⟩
  | .local _ .vmem, ⟨2, _⟩ => ⟨S1x128x4096, .f32⟩
  | .local _ .vmem, ⟨3, _⟩ => ⟨S1x1x128, .f32⟩
  | .local _ .vmem, ⟨4, _⟩ => ⟨S1x1x128, .f32⟩
  | .local _ .vmem, ⟨5, _⟩ => ⟨S1x256x128, .bf16⟩
  | .local _ .vmem, ⟨6, _⟩ => ⟨S1x256x128, .bf16⟩
  | .local _ .vmem, ⟨7, _⟩ => ⟨S1x1x1, .f32⟩
  | .local _ .vmem, ⟨8, _⟩ => ⟨S1x1x1, .f32⟩
  | .local _ .vmem, ⟨9, _⟩ => ⟨S2048x128, .f32⟩
  | .local _ .vmem, ⟨10, _⟩ => ⟨S1x1, .f32⟩
  | .local _ .vmem, ⟨11, _⟩ => ⟨S2048x4096, .bf16⟩
  | .local _ .vmem, ⟨12, _⟩ => ⟨S128x4096, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S32x128, .f32⟩
  | .local _ .vmem, ⟨17, _⟩ => ⟨S32, .f32⟩
  | .local _ .vmem, ⟨18, _⟩ => ⟨S2048x32, .f32⟩
  | _, _ => ⟨S2048x128x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16

abbrev nD : Nat := 1
abbrev τ : Topo := Topo.v7x

variable {F : FTy → Type} [FloatOps F]

abbrev grid0 : Pipeline.Grid := ⟨2, ![18, 8], ![false, false]⟩

def k0_mult1 (i : grid0.Coords) : BitVec 32 :=
  let arg1 : BitVec 32 := BitVec.ofNat 32 (i 1).val
  let c256_i32 : BitVec 32 := 256#32
  let v17 : BitVec 32 := Scalar.muli arg1 c256_i32
  v17
def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  bitsLt_bf16_f32 : FTy.bits .bf16 < FTy.bits .f32
  transposes_S2048x128x18_S18x2048x128_2_0_1 : S2048x128x18.Transposes [2, 0, 1] S18x2048x128
  shapeCasts_S18x128_S18x1x128 : S18x128.ShapeCasts S18x1x128
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S1x1x128_S128 : S1x1x128.ShapeCasts S128
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x128_S1x256x128_0_0_0 : ∀ a, (![0, 0, 0] : Fin 3 → Nat) a + S1x256x128.size a ≤ S1x256x128.size a
  h_S1x256x128 : 0 < S1x256x128.numel
  shapeCasts_S1x256x128_S1x256x128 : S1x256x128.ShapeCasts S1x256x128
  shapeCasts_S1x256x128_S256x128 : S1x256x128.ShapeCasts S256x128
  reduces_S256x2048_S256 : S256x2048.Reduces [1] S256
  shapeCasts_S256_S256x1 : S256.ShapeCasts S256x1
  broadcasts_S256x1_S256x2048 : S256x1.Broadcasts S256x2048
  iota_S256x2048_d0_w32 : S256x2048.Iotas .tc 32 [0]
  iota_S256x2048_d1_w32 : S256x2048.Iotas .tc 32 [1]
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S18x1x1_S_d0_1_2 : S18x1x1.ReducesTo [0, 1, 2] S_
  h_S_ : 0 < S_.numel
  inb_S128x4096_S128x4096_0_0 : ∀ a, (![0, 0] : Fin 2 → Nat) a + S128x4096.size a ≤ S128x4096.size a
  h_S128x4096 : 0 < S128x4096.numel
  inb_S128_S128_0 : ∀ a, (![0] : Fin 1 → Nat) a + S128.size a ≤ S128.size a
  h_S128 : 0 < S128.numel
  reduces_S2048x128_S128 : S2048x128.Reduces [0] S128
  inb_S32x128_S32x128_0_0 : ∀ a, (![0, 0] : Fin 2 → Nat) a + S32x128.size a ≤ S32x128.size a
  h_S32x128 : 0 < S32x128.numel
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  dot_S2048x4096_S128x4096_S2048x128_1_1_0_0_n_n_wf : DotDims.WF S2048x4096 S128x4096 S2048x128 [1] [1] [0] [0] [] []
  dot_S256x128_S2048x128_S256x2048_1_1_0_0_n_n_wf : DotDims.WF S256x128 S2048x128 S256x2048 [1] [1] [0] [0] [] []
  dot_S2048x128_S32x128_S2048x32_1_1_0_0_n_n_wf : DotDims.WF S2048x128 S32x128 S2048x32 [1] [1] [0] [0] [] []
  hrank0 : 0 < grid0.rank
  k0_mult1_dvd : ∀ i : grid0.Coords, 256 ∣ (k0_mult1 i).toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S18x128x4096.size a
  hwx0_1 : ∀ i : grid0.Coords, EltTy.bits .f32 = 32 ∨ (Rect.block (s := S18x128x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S18x1x128.size a
  hwx0_2 : ∀ i : grid0.Coords, EltTy.bits .f32 = 32 ∨ (Rect.block (s := S18x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S18x2048x128.size a
  hwx0_3 : ∀ i : grid0.Coords, EltTy.bits .bf16 = 32 ∨ (Rect.block (s := S18x2048x128) S1x256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S18x1x1.size a
  hwx0_4 : ∀ i : grid0.Coords, EltTy.bits .f32 = 32 ∨ (Rect.block (s := S18x1x1) S1x1x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S2048x4096.size a
  hwx1_0 : ∀ i : grid1.Coords, EltTy.bits .bf16 = 32 ∨ (Rect.block (s := S2048x4096) S2048x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S128x4096.size a
  hwx1_1 : ∀ i : grid1.Coords, EltTy.bits .f32 = 32 ∨ (Rect.block (s := S128x4096) S128x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x128.size a ≤ S32x128.size a
  hwx1_5 : ∀ i : grid1.Coords, EltTy.bits .f32 = 32 ∨ (Rect.block (s := S32x128) S32x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x32.size a ≤ S2048x32.size a
  hwx1_7 : ∀ i : grid1.Coords, EltTy.bits .f32 = 32 ∨ (Rect.block (s := S2048x32) S2048x32.size (cc1_transform_7 i) (hinb1_7 i)).WholeWords (EltTy.packing .f32)

variable [Facts₀]

def dot_S2048x4096_S128x4096_S2048x128_1_1_0_0_n_n : DotDims S2048x4096 S128x4096 S2048x128 where
  lhsContracting := [1]
  rhsContracting := [1]
  lhsNonContracting := [0]
  rhsNonContracting := [0]
  lhsBatch := []
  rhsBatch := []
  wf := dot_S2048x4096_S128x4096_S2048x128_1_1_0_0_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S2048x128_S32x128_S2048x32_1_1_0_0_n_n : DotDims S2048x128 S32x128 S2048x32 where
  lhsContracting := [1]
  rhsContracting := [1]
  lhsNonContracting := [0]
  rhsNonContracting := [0]
  lhsBatch := []
  rhsBatch := []
  wf := dot_S2048x128_S32x128_S2048x32_1_1_0_0_n_n_wf

abbrev win0_0 : Pipeline.Window sig grid0 :=
  Pipeline.Window.ofSpec (Memref.whole main_v0) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S2048x32.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2048x128x18 : Shape := ⟨3, ![2048, 128, 18]⟩
abbrev S2048x4096 : Shape := ⟨2, ![2048, 4096]⟩
abbrev S18x128x4096 : Shape := ⟨3, ![18, 128, 4096]⟩
abbrev S18x128 : Shape := ⟨2, ![18, 128]⟩
abbrev S128x4096 : Shape := ⟨2, ![128, 4096]⟩
abbrev S128 : Shape := ⟨1, ![128]⟩
abbrev S32x128 : Shape := ⟨2, ![32, 128]⟩
abbrev S32 : Shape := ⟨1, ![32]⟩
abbrev S18x2048x128 : Shape := ⟨3, ![18, 2048, 128]⟩
abbrev S18x128x2048 : Shape := ⟨3, ![18, 128, 2048]⟩
abbrev S18x1x128 : Shape := ⟨3, ![18, 1, 128]⟩
abbrev S18x2048x2048 : Shape := ⟨3, ![18, 2048, 2048]⟩
abbrev S_ : Shape := ⟨0, ![]⟩
abbrev S18x2048 : Shape := ⟨2, ![18, 2048]⟩
abbrev S18x2048x1 : Shape := ⟨3, ![18, 2048, 1]⟩
abbrev S2048 : Shape := ⟨1, ![2048]⟩
abbrev S2048x1 : Shape := ⟨2, ![2048, 1]⟩
abbrev S2048x2 : Shape := ⟨2, ![2048, 2]⟩
abbrev S4096x128 : Shape := ⟨2, ![4096, 128]⟩
abbrev S2048x128 : Shape := ⟨2, ![2048, 128]⟩
abbrev S1x128 : Shape := ⟨2, ![1, 128]⟩
abbrev S128x32 : Shape := ⟨2, ![128, 32]⟩
abbrev S2048x32 : Shape := ⟨2, ![2048, 32]⟩
abbrev S1x32 : Shape := ⟨2, ![1, 32]⟩

abbrev nBuf : Space → Nat
  | .hbm => 103
  | .vmem => 0
  | .smem => 0
  | _ => 0

abbrev bufTy : (tb : Table) → Fin (tcTables nBuf tb) → BufTy
  | .hbm, ⟨0, _⟩ => ⟨S2048x128x18, .f32⟩
  | .hbm, ⟨1, _⟩ => ⟨S2048x4096, .f32⟩
  | .hbm, ⟨2, _⟩ => ⟨S18x128x4096, .f32⟩
  | .hbm, ⟨3, _⟩ => ⟨S18x128, .f32⟩
  | .hbm, ⟨4, _⟩ => ⟨S128x4096, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S32x128, .f32⟩
  | .hbm, ⟨9, _⟩ => ⟨S32, .f32⟩
  | .hbm, ⟨10, _⟩ => ⟨S18x2048x128, .f32⟩
  | .hbm, ⟨11, _⟩ => ⟨S18x128x2048, .f32⟩
  | .hbm, ⟨12, _⟩ => ⟨S18x2048x128, .f32⟩
  | .hbm, ⟨13, _⟩ => ⟨S18x1x128, .f32⟩
  | .hbm, ⟨14, _⟩ => ⟨S18x2048x128, .f32⟩
  | .hbm, ⟨15, _⟩ => ⟨S18x2048x128, .f32⟩
  | .hbm, ⟨16, _⟩ => ⟨S18x2048x2048, .f32⟩
  | .hbm, ⟨17, _⟩ => ⟨S_, .f32⟩
  | .hbm, ⟨18, _⟩ => ⟨S18x2048, .f32⟩
  | .hbm, ⟨19, _⟩ => ⟨S_, .f32⟩
  | .hbm, ⟨20, _⟩ => ⟨S18x2048, .f32⟩
  | .hbm, ⟨21, _⟩ => ⟨S18x2048, .f32⟩
  | .hbm, ⟨22, _⟩ => ⟨S18x2048x1, .f32⟩
  | .hbm, ⟨23, _⟩ => ⟨S18x2048x2048, .f32⟩
  | .hbm, ⟨24, _⟩ => ⟨S18x2048x2048, .f32⟩
  | .hbm, ⟨25, _⟩ => ⟨S18x2048x2048, .f32⟩
  | .hbm, ⟨26, _⟩ => ⟨S_, .f32⟩
  | .hbm, ⟨27, _⟩ => ⟨S18x2048, .f32⟩
  | .hbm, ⟨28, _⟩ => ⟨S18x2048x1, .f32⟩
  | .hbm, ⟨29, _⟩ => ⟨S18x2048x1, .f32⟩
  | .hbm, ⟨30, _⟩ => ⟨S18x2048x2048, .f32⟩
  | .hbm, ⟨31, _⟩ => ⟨S18x2048x2048, .f32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x1, .i32⟩
  | .hbm, ⟨50, _⟩ => ⟨S2048x2, .i32⟩
  | .hbm, ⟨51, _⟩ => ⟨S18x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x128, .f32⟩
  | .hbm, ⟨57, _⟩ => ⟨S2048x128, .f32⟩
  | .hbm, ⟨58, _⟩ => ⟨S1x128, .f32⟩
  | .hbm, ⟨59, _⟩ => ⟨S2048x128, .f32⟩
  | .hbm, ⟨60, _⟩ => ⟨S2048x128, .f32⟩
  | .hbm, ⟨61, _⟩ => ⟨S_, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S2048x128, .f32⟩
  | .hbm, ⟨68, _⟩ => ⟨S2048x128, .f32⟩
  | .hbm, ⟨69, _⟩ => ⟨S2048x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S2048x128, .f32⟩
  | .hbm, ⟨77, _⟩ => ⟨S2048x128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S2048x128, .f32⟩
  | .hbm, ⟨84, _⟩ => ⟨S2048x128, .f32⟩
  | .hbm, ⟨85, _⟩ => ⟨S1x128, .f32⟩
  | .hbm, ⟨86, _⟩ => ⟨S2048x128, .f32⟩
  | .hbm, ⟨87, _⟩ => ⟨S2048x128, .f32⟩
  | .hbm, ⟨88, _⟩ => ⟨S1x128, .f32⟩
  | .hbm, ⟨89, _⟩ => ⟨S2048x128, .f32⟩
  | .hbm, ⟨90, _⟩ => ⟨S2048x128, .f32⟩
  | .hbm, ⟨91, _⟩ => ⟨S_, .f32⟩
  | .hbm, ⟨92, _⟩ => ⟨S2048x128, .f32⟩
  | .hbm, ⟨93, _⟩ => ⟨S2048x128, .i1⟩
  | .hbm, ⟨94, _⟩ => ⟨S_, .f32⟩
  | .hbm, ⟨95, _⟩ => ⟨S2048x128, .f32⟩
  | .hbm, ⟨96, _⟩ => ⟨S2048x128, .f32⟩
  | .hbm, ⟨97, _⟩ => ⟨S2048x128, .f32⟩
  | .hbm, ⟨98, _⟩ => ⟨S128x32, .f32⟩
  | .hbm, ⟨99, _⟩ => ⟨S2048x32, .f32⟩
  | .hbm, ⟨100, _⟩ => ⟨S1x32, .f32⟩
  | .hbm, ⟨101, _⟩ => ⟨S2048x32, .f32⟩
  | .hbm, ⟨102, _⟩ => ⟨S2048x32, .f32⟩
  | _, _ => ⟨S2048x128x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v7 : Ref sig .tc := ⟨.hbm, 31, rfl⟩
abbrev main_call1_v0 : Ref sig .tc := ⟨.hbm, 32, rfl⟩
abbrev main_call1_v1 : Ref sig .tc := ⟨.hbm, 33, rfl⟩
abbrev main_call1_c : Ref sig .tc := ⟨.hbm, 34, rfl⟩
abbrev main_call1_v2 : Ref sig .tc := ⟨.hbm, 35, rfl⟩
abbrev main_call1_v3 : Ref sig .tc := ⟨.hbm, 36, rfl⟩
abbrev main_call1_c_0 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_c_1 : Ref sig .tc := ⟨.hbm, 41, rfl⟩
abbrev main_call1_v7 : Ref sig .tc := ⟨.hbm, 42, rfl⟩
abbrev main_call1_v8 : Ref sig .tc := ⟨.hbm, 43, rfl⟩
abbrev main_call1_c_2 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v8 : Ref sig .tc := ⟨.hbm, 51, rfl⟩
abbrev main_cst : Ref sig .tc := ⟨.hbm, 52, rfl⟩
abbrev main_v9 : Ref sig .tc := ⟨.hbm, 53, rfl⟩
abbrev main_cst_0 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_cst_1 : Ref sig .tc := ⟨.hbm, 61, rfl⟩
abbrev main_v16 : Ref sig .tc := ⟨.hbm, 62, rfl⟩
abbrev main_cst_2 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_3 : Ref sig .tc := ⟨.hbm, 70, rfl⟩
abbrev main_v23 : Ref sig .tc := ⟨.hbm, 71, rfl⟩
abbrev main_cst_4 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_5 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_6 : Ref sig .tc := ⟨.hbm, 91, rfl⟩
abbrev main_v41 : Ref sig .tc := ⟨.hbm, 92, rfl⟩
abbrev main_v42 : Ref sig .tc := ⟨.hbm, 93, rfl⟩
abbrev main_cst_7 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩

abbrev nD : Nat := 1
abbrev τ : Topo := Topo.v7x

variable {F : FTy → Type} [FloatOps F]

class Facts₀ : Prop where
  transposes_S2048x128x18_S18x2048x128_2_0_1 : S2048x128x18.Transposes [2, 0, 1] S18x2048x128
  transposes_S18x128x2048_S18x2048x128_0_2_1 : S18x128x2048.Transposes [0, 2, 1] S18x2048x128
  bcast_S18x128_S18x1x128_0_2 : S18x128.BroadcastsInDim S18x1x128 (![0, 2] : Fin 2 → Fin S18x1x128.rank)
  bcast_S18x1x128_S18x2048x128_0_1_2 : S18x1x128.BroadcastsInDim S18x2048x128 (![0, 1, 2] : Fin 3 → Fin S18x2048x128.rank)
  reducesTo_S18x2048x2048_S18x2048_d2 : S18x2048x2048.ReducesTo [2] S18x2048
  h_S_ : 0 < S_.numel
  bcast_S_S18x2048 : S_.BroadcastsInDim S18x2048 (![] : Fin 0 → Fin S18x2048.rank)
  bcast_S18x2048_S18x2048x1_0_1 : S18x2048.BroadcastsInDim S18x2048x1 (![0, 1] : Fin 2 → Fin S18x2048x1.rank)
  bcast_S18x2048x1_S18x2048x2048_0_1_2 : S18x2048x1.BroadcastsInDim S18x2048x2048 (![0, 1, 2] : Fin 3 → Fin S18x2048x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S18x2048_S_d0_1 : S18x2048.ReducesTo [0, 1] S_
  transposes_S128x4096_S4096x128_1_0 : S128x4096.Transposes [1, 0] S4096x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  reducesTo_S2048x128_S128_d0 : S2048x128.ReducesTo [0] S128
  bcast_S_S128 : S_.BroadcastsInDim S128 (![] : Fin 0 → Fin S128.rank)
  bcast_S_S2048x128 : S_.BroadcastsInDim S2048x128 (![] : Fin 0 → Fin S2048x128.rank)
  transposes_S32x128_S128x32_1_0 : S32x128.Transposes [1, 0] S128x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  dot_S18x128x4096_S2048x4096_S18x128x2048_2_1_01_0_n_n_wf : DotDims.WF S18x128x4096 S2048x4096 S18x128x2048 [2] [1] [0, 1] [0] [] []
  dot_S18x2048x128_S18x2048x128_S18x2048x2048_2_2_1_1_0_0_wf : DotDims.WF S18x2048x128 S18x2048x128 S18x2048x2048 [2] [2] [1] [1] [0] [0]
  gather_S18x2048x2048_S2048x2_S18x2048_0_12_n_n_12_1_1811_wf : GatherDims.WF S18x2048x2048 S2048x2 S18x2048 [0] [1, 2] [] [1, 2] [] 1 ![18, 1, 1]
  dot_S2048x4096_S4096x128_S2048x128_1_0_0_1_n_n_wf : DotDims.WF S2048x4096 S4096x128 S2048x128 [1] [0] [0] [1] [] []
  dot_S2048x128_S128x32_S2048x32_1_0_0_1_n_n_wf : DotDims.WF S2048x128 S128x32 S2048x32 [1] [0] [0] [1] [] []

variable [Facts₀]

def dot_S18x128x4096_S2048x4096_S18x128x2048_2_1_01_0_n_n : DotDims S18x128x4096 S2048x4096 S18x128x2048 where
  lhsContracting := [2]
  rhsContracting := [1]
  lhsNonContracting := [0, 1]
  rhsNonContracting := [0]
  lhsBatch := []
  rhsBatch := []
  wf := dot_S18x128x4096_S2048x4096_S18x128x2048_2_1_01_0_n_n_wf
def dot_S18x2048x128_S18x2048x128_S18x2048x2048_2_2_1_1_0_0 : DotDims S18x2048x128 S18x2048x128 S18x2048x2048 where
  lhsContracting := [2]
  rhsContracting := [2]
  lhsNonContracting := [1]
  rhsNonContracting := [1]
  lhsBatch := [0]
  rhsBatch := [0]
  wf := dot_S18x2048x128_S18x2048x128_S18x2048x2048_2_2_1_1_0_0_wf
def gather_S18x2048x2048_S2048x2_S18x2048_0_12_n_n_12_1_1811 : GatherDims S18x2048x2048 S2048x2 S18x2048 where
  offsetDims := [0]
  collapsedSliceDims := [1, 2]
  operandBatchingDims := []
  startIndicesBatchingDims := []
  startIndexMap := [1, 2]
  indexVectorDim := 1
  sliceSizes := ![18, 1, 1]
  wf := gather_S18x2048x2048_S2048x2_S18x2048_0_12_n_n_12_1_1811_wf
def dot_S2048x4096_S4096x128_S2048x128_1_0_0_1_n_n : DotDims S2048x4096 S4096x128 S2048x128 where
  lhsContracting := [1]
  rhsContracting := [0]
  lhsNonContracting := [0]
  rhsNonContracting := [1]
  lhsBatch := []
  rhsBatch := []
  wf := dot_S2048x4096_S4096x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf

class Facts : Prop extends Facts₀ where

variable [Facts]
-- ==== Proof.K.R0Runs.lean ====
/-
  The loss kernel's grid is 18 time steps by 8 blocks of 256 query rows, the block index innermost. This module holds
  what the three shapes of a grid point share: the two branch conditions of the body in closed form (the first block of
  a time step writes the prediction scratch and zeroes the accumulator; the last block writes the accumulator out), where
  the one output window is idle and where it is written back, the names of the staging and scratch memrefs, the block of
  each input window at a point read off the arrays as the region finds them, and the region invariant spelled over the
  two scratch buffers and the other scoped buffers of the core.
-/
import proofs.«138056_j16037407883274_2_alg».proof.Proof.Gen.Kernel.Launch
import proofs.«138056_j16037407883274_2_alg».proof.Proof.Gen.Kernel.Skeleton
import proofs.«138056_j16037407883274_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the index has not
    moved since the last fetch and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The first conditional of the body: the block index is 0. -/
abbrev cond0_0 (i : grid0.Coords) : Prop := (Scalar.cmpi .ne (Scalar.extui (Scalar.cmpi .eq (BitVec.ofNat 32 (i 1).val) 0#32)) 0#32) = 1#1
/-- It holds at the first block of each time step. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body: the block index is 7. -/
abbrev cond0_1 (i : grid0.Coords) : Prop := k0_cond2 i = 1#1
/-- It holds at the last block of each time step. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the last block's conditional fails the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it holds the window is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S2048x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
/-- The prediction scratch and the accumulator scratch: whole scoped buffers passed beside the windows. -/
abbrev scM0_0 : Memref sig .tc .vmem S2048x128 .f32 := Memref.whole cc0_scratch0
abbrev scM0_1 : Memref sig .tc .vmem S1x1 .f32 := Memref.whole cc0_scratch1
/-- Views through which the contents of the output's staging buffer and of the two scratch buffers are stated. -/
abbrev VO0_4 : View sig .tc .vmem S1x1x1 .f32 := (Memref.whole cc0_stg4_0 : Memref sig .tc .vmem S1x1x1 .f32).view
abbrev VS0_0 : View sig .tc .vmem S2048x128 .f32 := scM0_0.view
abbrev VS0_1 : View sig .tc .vmem S1x1 .f32 := scM0_1.view

/-- The core's scoped buffers that region 0 neither stages nor uses as scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f))

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Gen

end
-- ==== Proof.K.R0RunA.lean ====
/-
  The first block of a time step (block index 0, not 7): the body computes the prediction of every sample from the
  resident inputs and stores it whole into the prediction scratch, zeroes the accumulator scratch, then adds this block's
  sum of diagonal log-softmax entries to it. The output window is idle. What each scratch buffer ends with is recorded as
  the list of pieces the run writes into it.
-/
import proofs.«138056_j16037407883274_2_alg».proof.Proof.K.R0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i)
    (x0 : Vec F S2048x4096 .bf16) (x1 : Vec F S1x128x4096 .f32) (x2 : Vec F S1x1x128 .f32) (x3 : Vec F S1x256x128 .bf16) :
    Σ' (LS0 : List (View.Piece (Elt F) S2048x128 .f32)), { LS1 : List (View.Piece (Elt F) S1x1 .f32) //
      ∀ (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__cpc_kernel i arg2 harg2 arg3 harg3 arg4 harg4 arg5 harg5 arg6 harg6 arg7 harg7 arg8 harg8) K } := by
  refine ⟨?_, ?_, fun xi4 E K => ?run⟩
  case run =>
    simp only [cc0__cpc_kernel_eq_skeleton]; unfold cc0__cpc_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Gen

end
-- ==== Proof.K.R0RunB.lean ====
/-
  A middle block of a time step (block index neither 0 nor 7): the body reads the prediction scratch, which it leaves as
  it found it, and adds this block's sum of diagonal log-softmax entries to the accumulator scratch. The output window is
  idle.
-/
import proofs.«138056_j16037407883274_2_alg».proof.Proof.K.R0RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : ¬cond0_1 i)
    (x0 : Vec F S2048x4096 .bf16) (x1 : Vec F S1x128x4096 .f32) (x2 : Vec F S1x1x128 .f32) (x3 : Vec F S1x256x128 .bf16) (xs0 : Vec F S2048x128 .f32) (xs1 : Vec F S1x1 .f32) :
    { LS1 : List (View.Piece (Elt F) S1x1 .f32) //
      ∀ (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__cpc_kernel i arg2 harg2 arg3 harg3 arg4 harg4 arg5 harg5 arg6 harg6 arg7 harg7 arg8 harg8) K } := by
  refine ⟨?_, fun xi4 E K => ?run⟩
  case run =>
    simp only [cc0__cpc_kernel_eq_skeleton]; unfold cc0__cpc_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg7.read_unread _
      iexact HS0
    iexists _; iexact HS1

end Cert.Kernel.Gen

end
-- ==== Proof.K.R0RunC.lean ====
/-
  The last block of a time step (block index 7, not 0): as a middle block, and then the accumulator scratch, now holding the
  time step's whole sum, is stored into the output window's block.
-/
import proofs.«138056_j16037407883274_2_alg».proof.Proof.K.R0RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i)
    (x0 : Vec F S2048x4096 .bf16) (x1 : Vec F S1x128x4096 .f32) (x2 : Vec F S1x1x128 .f32) (x3 : Vec F S1x256x128 .bf16) (xs0 : Vec F S2048x128 .f32) (xs1 : Vec F S1x1 .f32) :
    Σ' (L4 : List (View.Piece (Elt F) S1x1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__cpc_kernel i arg2 harg2 arg3 harg3 arg4 harg4 arg5 harg5 arg6 harg6 arg7 harg7 arg8 harg8) K } := by
  refine ⟨?_, ?_, fun E K => ?run⟩
  case run =>
    simp only [cc0__cpc_kernel_eq_skeleton]; unfold cc0__cpc_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    iexists _; iexact HS1

end Cert.Kernel.Gen

end
-- ==== Proof.K.R0Frame.lean ====
/-
  Region 0 point by point. After the body at grid position n the prediction scratch holds the prediction of the time step
  n / 8 (written at the step's first block and left alone afterwards), the accumulator scratch holds the sum of the diagonal
  log-softmax entries of the blocks 8·(n / 8) … n, and at a step's last block the output window's staging buffer holds that
  accumulator. This is stated as a recursion over the position (outsAt0), the region invariant carries the two scratch
  buffers at these contents from one point to the next (PhiS), and the body obligation is discharged by the run of the
  point's shape: first, middle or last block of a time step.
-/
import proofs.«138056_j16037407883274_2_alg».proof.Proof.K.R0RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces each shape of point writes cover the buffer they are written into -/

theorem scover0_A_0 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) (y : S2048x128.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S2048x128.size (by sl_kernel_rfl) y
theorem scover0_A_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) (y : S1x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1x1.size (by sl_kernel_rfl) y
theorem scover0_B_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : ¬cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg2 harg2 arg3 harg3 arg4 harg4 arg5 harg5 arg6 harg6 arg7 harg7 arg8 harg8 hc0 hc1 x0 x1 x2 x3 xs0 xs1).1 S1x1.size (by sl_kernel_rfl) y
theorem cover0_C_4 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) (y : S1x1x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1x1x1.size (by sl_kernel_rfl) y
theorem scover0_C_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1x1.size (by sl_kernel_rfl) y

/-! ## What each shape of point leaves: the output's staging buffer, the prediction scratch, the accumulator scratch -/

/-- The three buffers' contents after a point. -/
abbrev Outs0 (F : FTy → Type) [FloatOps F] : Type := Vec F S1x1x1 .f32 × Vec F S2048x128 .f32 × Vec F S1x1 .f32

def sout0_A_0 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) : Vec F S2048x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)
def sout0_A_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) : Vec F S1x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.1)
def sout0_B_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : ¬cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).1)
def out0_C_4 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) : Vec F S1x1x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)
def sout0_C_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.1)

section Region0
variable (V : (c : Dev nD) → (b : Ref sig .tc) → Buf (Elt F) ((c : Thread nD τ).loc b))

/-- A step's first block: the output's buffer is not stored into (a placeholder nothing reads), both scratch buffers are written. -/
def stepA (c : Dev nD) (t : Fin cfg0.N) (h0 : t.val % 8 = 0) : Outs0 F :=
  (VO0_4.read (Elt F) VO0_4.junk,
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t))
/-- A middle block: the prediction scratch as the point before left it, the accumulator advanced. -/
def stepB (c : Dev nD) (t : Fin cfg0.N) (h0 : ¬t.val % 8 = 0) (h7 : ¬t.val % 8 = 7) (prev : Outs0 F) : Outs0 F :=
  (VO0_4.read (Elt F) VO0_4.junk, prev.2.1,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h7 ((hcond0_1 t).mp h)) (iblk0 V c 0 t) (iblk0 V c 1 t) (iblk0 V c 2 t) (iblk0 V c 3 t) prev.2.1 prev.2.2)
/-- A step's last block: as a middle block, and the output's buffer stored. -/
def stepC (c : Dev nD) (t : Fin cfg0.N) (h0 : ¬t.val % 8 = 0) (h7 : t.val % 8 = 7) (prev : Outs0 F) : Outs0 F :=
  (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk0 V c 0 t) (iblk0 V c 1 t) (iblk0 V c 2 t) (iblk0 V c 3 t) prev.2.1 prev.2.2, prev.2.1,
   sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk0 V c 0 t) (iblk0 V c 1 t) (iblk0 V c 2 t) (iblk0 V c 3 t) prev.2.1 prev.2.2)

/-- The three buffers after the body at position n. -/
def outsAt0 (c : Dev nD) : (n : ℕ) → n < cfg0.N → Outs0 F
  | 0, hn => stepA V c ⟨0, hn⟩ (Nat.zero_mod _)
  | n + 1, hn =>
    if h0 : (n + 1) % 8 = 0 then stepA V c ⟨n + 1, hn⟩ h0
    else if h7 : (n + 1) % 8 = 7 then stepC V c ⟨n + 1, hn⟩ h0 h7 (outsAt0 c n (Nat.lt_of_succ_lt hn))
    else stepB V c ⟨n + 1, hn⟩ h0 h7 (outsAt0 c n (Nat.lt_of_succ_lt hn))

theorem outsAt0_A (c : Dev nD) (t : Fin cfg0.N) (h0 : t.val % 8 = 0) : outsAt0 V c t.val t.isLt = stepA V c t h0 := by
  obtain ⟨n, hn⟩ := t
  cases n with
  | zero => rfl
  | succ n => exact dif_pos h0
theorem outsAt0_B (c : Dev nD) (t : Fin cfg0.N) (h0 : ¬t.val % 8 = 0) (h7 : ¬t.val % 8 = 7) :
    outsAt0 V c t.val t.isLt = stepB V c t h0 h7 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h7)
theorem outsAt0_C (c : Dev nD) (t : Fin cfg0.N) (h0 : ¬t.val % 8 = 0) (h7 : t.val % 8 = 7) :
    outsAt0 V c t.val t.isLt = stepC V c t h0 h7 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h7)

/-! ## The region invariant -/

/-- Before the first point the class invariant; afterwards the two scratch buffers at what the point before left, the other
    scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from (by unfold Dat.leavesExact; rw [liveAt0_0 t]), after0_0]
  rw [show (dat0 V c).leavesExact 1 t = owns (c : Thread nD τ) (ms0_1 t) fullShare ((dat0 V c).after 1 t) from (by unfold Dat.leavesExact; rw [liveAt0_1 t]), after0_1]
  rw [show (dat0 V c).leavesExact 2 t = owns (c : Thread nD τ) (ms0_2 t) fullShare ((dat0 V c).after 2 t) from (by unfold Dat.leavesExact; rw [liveAt0_2 t]), after0_2]
  rw [show (dat0 V c).leavesExact 3 t = owns (c : Thread nD τ) (ms0_3 t) fullShare ((dat0 V c).after 3 t) from (by unfold Dat.leavesExact; rw [liveAt0_3 t]), after0_3]
  by_cases h0 : t.val % 8 = 0
  · have h7 : ¬t.val % 8 = 7 := by omega
    have hnc1 : ¬cond0_1 (grid0.coords t) := fun h => h7 ((hcond0_1 t).mp h)
    rw [Dat.leavesExact_idle (dat0 V c) 4 t (idleAt0_4 t hnc1) (noFlush0_4 t hnc1)]
    rw [outsAt0_A V c t h0]
    unfold stepA sout0_A_0 sout0_A_1; (try dsimp only)
    by_cases hz : t.val = 0
    · rw [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_A c _ _ _ _ _ _ _ _ _ _ _ _ _ _ _ ((hcond0_0 t).mpr h0) (fun h => by have := (hcond0_1 t).mp h; omega) (iblk0 V c 0 t) (iblk0 V c 1 t) (iblk0 V c 2 t) (iblk0 V c 3 t)).2.2 ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_A c _ _ _ _ _ _ _ _ _ _ _ _ _ _ _ ((hcond0_0 t).mpr h0) (fun h => by have := (hcond0_1 t).mp h; omega) (iblk0 V c 0 t) (iblk0 V c 1 t) (iblk0 V c 2 t) (iblk0 V c 3 t)).2.2 ((dat0 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h7 : t.val % 8 = 7
    · have hc1 : cond0_1 (grid0.coords t) := (hcond0_1 t).mpr h7
      rw [show (dat0 V c).leavesExact 4 t = owns (c : Thread nD τ) (ms0_4 t) fullShare ((dat0 V c).after 4 t) from (by unfold Dat.leavesExact; rw [liveAt0_4 t hc1]), after0_4]
      rw [outsAt0_C V c t h0 h7]
      unfold stepC out0_C_4 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_C c _ _ _ _ _ _ _ _ _ _ _ _ _ _ _ (fun h => h0 ((hcond0_0 t).mp h)) ((hcond0_1 t).mpr h7) (iblk0 V c 0 t) (iblk0 V c 1 t) (iblk0 V c 2 t) (iblk0 V c 3 t) _ _).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, HS0, ⟨%es1, HS1⟩⟩
      isplitl [HS0 HS1 Hr Hg]
      · isplitl [HS0 HS1 Hr]
        · isplitl [HS0]; · iexact HS0
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · have hnc1 : ¬cond0_1 (grid0.coords t) := fun h => h7 ((hcond0_1 t).mp h)
      rw [Dat.leavesExact_idle (dat0 V c) 4 t (idleAt0_4 t hnc1) (noFlush0_4 t hnc1)]
      rw [outsAt0_B V c t h0 h7]
      unfold stepB sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_B c _ _ _ _ _ _ _ _ _ _ _ _ _ _ _ (fun h => h0 ((hcond0_0 t).mp h)) (fun h => h7 ((hcond0_1 t).mp h)) (iblk0 V c 0 t) (iblk0 V c 1 t) (iblk0 V c 2 t) (iblk0 V c 3 t) _ _).2 ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, ⟨%es1, HS1⟩⟩
      isplitl [HS0 HS1 Hr Hg]
      · isplitl [HS0 HS1 Hr]
        · isplitl [HS0]; · iexact HS0
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class invariant back: the scratch buffers' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

theorem hout0 (c : Dev nD) : (dat0 V c).Φ (Fin.last cfg0.N) ⊢ Pipeline.ΦA spec0 c :=
  Phi_out0 V c _ (by rw [Fin.val_last]; have : cfg0.N = 144 := N_0; omega)

end Region0

end Cert.Kernel.Gen

end
-- ==== Proof.K.R1Frame.lean ====
/-
  The projection-head kernel runs at one grid point on whole blocks: the seven inputs are loaded whole, the result block is
  stored whole. This module runs its body once, records what the store leaves in the result's staging buffer as the pieces
  the run writes, and states the proof data of the pipeline and the body obligation at the contents V the region is
  entered from.
-/
import proofs.«138056_j16037407883274_2_alg».proof.Proof.Gen.Kernel.Launch
import proofs.«138056_j16037407883274_2_alg».proof.Proof.Gen.Kernel.Skeleton
import proofs.«138056_j16037407883274_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x32 .f32 := win1_7.stage (cfg1.slots t 7)
abbrev hs1_7 (t : Fin cfg1.N) : (ms1_7 t).IsWhole := hstage1_7 ((cfg1.slots t 7).cast nbuf1_7)
/-- A view through which the contents of the result's staging buffer are stated. -/
abbrev VO1_7 : View sig .tc .vmem S2048x32 .f32 := (Memref.whole cc1_stg7_0 : Memref sig .tc .vmem S2048x32 .f32).view

set_option maxHeartbeats 4000000 in
noncomputable def kernelRun1 (c : Dev nD) (i : grid1.Coords) (arg1 : Memref sig .tc .vmem S2048x4096 .bf16) (harg1 : arg1.IsWhole) (arg2 : Memref sig .tc .vmem S128x4096 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S32x128 .f32) (harg6 : arg6.IsWhole) (arg7 : Memref sig .tc .vmem S32 .f32) (harg7 : arg7.IsWhole) (arg8 : Memref sig .tc .vmem S2048x32 .f32) (harg8 : arg8.IsWhole)
    (x0 : Vec F S2048x4096 .bf16) (x1 : Vec F S128x4096 .f32) (x2 x3 x4 : Vec F S128 .f32) (x5 : Vec F S32x128 .f32) (x6 : Vec F S32 .f32) :
    { L7 : List (View.Piece (Elt F) S2048x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc1__proj_kernel i arg1 harg1 arg2 harg2 arg3 harg3 arg4 harg4 arg5 harg5 arg6 harg6 arg7 harg7 arg8 harg8) K } := by
  refine ⟨?_, fun E K => ?run⟩
  case run =>
    simp only [cc1__proj_kernel_eq_skeleton]; unfold cc1__proj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The run's pieces for the result tile its block, so they cover it. -/
theorem cover1_7 (c : Dev nD) (i : grid1.Coords) (arg1 : Memref sig .tc .vmem S2048x4096 .bf16) (harg1 : arg1.IsWhole) (arg2 : Memref sig .tc .vmem S128x4096 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S32x128 .f32) (harg6 : arg6.IsWhole) (arg7 : Memref sig .tc .vmem S32 .f32) (harg7 : arg7.IsWhole) (arg8 : Memref sig .tc .vmem S2048x32 .f32) (harg8 : arg8.IsWhole) (x0 : Vec F S2048x4096 .bf16) (x1 : Vec F S128x4096 .f32) (x2 x3 x4 : Vec F S128 .f32) (x5 : Vec F S32x128 .f32) (x6 : Vec F S32 .f32) (y : S2048x32.Idx) :
    ∃ pc ∈ (kernelRun1 c i arg1 harg1 arg2 harg2 arg3 harg3 arg4 harg4 arg5 harg5 arg6 harg6 arg7 harg7 arg8 harg8 x0 x1 x2 x3 x4 x5 x6).1, y ∈ pc.1.set :=
  View.cover_of_tiledL (kernelRun1 c i arg1 harg1 arg2 harg2 arg3 harg3 arg4 harg4 arg5 harg5 arg6 harg6 arg7 harg7 arg8 harg8 x0 x1 x2 x3 x4 x5 x6).1 S2048x32.size (by sl_kernel_rfl) y

/-- What the body leaves in the result's staging buffer: its pieces read back. -/
def out1_7 (c : Dev nD) (i : grid1.Coords) (arg1 : Memref sig .tc .vmem S2048x4096 .bf16) (harg1 : arg1.IsWhole) (arg2 : Memref sig .tc .vmem S128x4096 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S32x128 .f32) (harg6 : arg6.IsWhole) (arg7 : Memref sig .tc .vmem S32 .f32) (harg7 : arg7.IsWhole) (arg8 : Memref sig .tc .vmem S2048x32 .f32) (harg8 : arg8.IsWhole) (x0 : Vec F S2048x4096 .bf16) (x1 : Vec F S128x4096 .f32) (x2 x3 x4 : Vec F S128 .f32) (x5 : Vec F S32x128 .f32) (x6 : Vec F S32 .f32) : Vec F S2048x32 .f32 :=
  VO1_7.read (Elt F) (VO1_7.writes (Elt F) VO1_7.junk (kernelRun1 c i arg1 harg1 arg2 harg2 arg3 harg3 arg4 harg4 arg5 harg5 arg6 harg6 arg7 harg7 arg8 harg8 x0 x1 x2 x3 x4 x5 x6).1)

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- What the result's staging buffer holds after the body at point t. -/
def outAt1 (c : Dev nD) (t : Fin cfg1.N) : Vec F S2048x32 .f32 :=
  out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)

/-- The proof data of pipeline 1 on core c: the arrays as the region finds them; after the body each input's buffer at its
    block and the result's at what the body stored; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outAt1 out1_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1 c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_7 c _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.K.Run.lean ====
/-
  The run of the whole program: four segments — the host operations that cast and re-lay the inputs, the loss kernel's
  region, the host operations that sum the per-step partial sums and divide by the count, the projection kernel's region.
  The contents of every unscoped buffer are followed from the launch memory through the segments (W0 … W4: a host stretch
  applies its operations, a region puts each of its arrays at what the pipeline's write-backs leave and touches nothing else),
  each region is entered from and left at these contents, and the run ends with every unscoped buffer at W4. The argument
  arrays are read back through the fold to their launch contents.
-/
import proofs.«138056_j16037407883274_2_alg».proof.Proof.K.R0Frame
import proofs.«138056_j16037407883274_2_alg».proof.Proof.K.R1Frame
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment changes an argument array -/

/-- The first host stretch writes only the four buffers it computes. -/
theorem hostOps0_keeps (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2⟩))
/-- The second host stretch writes only the four buffers it computes. -/
theorem hostOps1_keeps (c : Dev nD) (b : Ref sig .tc) (hb : b ∉ ([main_cst, main_v5, main_cst_0, main_v6] : List (Ref sig .tc))) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2⟩))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := hostOps1_keeps m ρ c main_arg0 (by decide)
    _ = W1 m ρ c (Proc.devRef .tc main_arg0) := W2_of_ne m ρ c main_arg0 (by decide)
    _ = W0 m ρ c (Proc.devRef .tc main_arg0) := hostOps0_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := hostOps1_keeps m ρ c main_arg1 (by decide)
    _ = W1 m ρ c (Proc.devRef .tc main_arg1) := W2_of_ne m ρ c main_arg1 (by decide)
    _ = W0 m ρ c (Proc.devRef .tc main_arg1) := hostOps0_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := hostOps1_keeps m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := hostOps0_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := hostOps1_keeps m ρ c main_arg3 (by decide)
    _ = W1 m ρ c (Proc.devRef .tc main_arg3) := W2_of_ne m ρ c main_arg3 (by decide)
    _ = W0 m ρ c (Proc.devRef .tc main_arg3) := hostOps0_keeps m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := hostOps1_keeps m ρ c main_arg4 (by decide)
    _ = W1 m ρ c (Proc.devRef .tc main_arg4) := W2_of_ne m ρ c main_arg4 (by decide)
    _ = W0 m ρ c (Proc.devRef .tc main_arg4) := hostOps0_keeps m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := hostOps1_keeps m ρ c main_arg5 (by decide)
    _ = W1 m ρ c (Proc.devRef .tc main_arg5) := W2_of_ne m ρ c main_arg5 (by decide)
    _ = W0 m ρ c (Proc.devRef .tc main_arg5) := hostOps0_keeps m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := hostOps1_keeps m ρ c main_arg6 (by decide)
    _ = W1 m ρ c (Proc.devRef .tc main_arg6) := W2_of_ne m ρ c main_arg6 (by decide)
    _ = W0 m ρ c (Proc.devRef .tc main_arg6) := hostOps0_keeps m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := hostOps1_keeps m ρ c main_arg7 (by decide)
    _ = W1 m ρ c (Proc.devRef .tc main_arg7) := W2_of_ne m ρ c main_arg7 (by decide)
    _ = W0 m ρ c (Proc.devRef .tc main_arg7) := hostOps0_keeps m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 5).trans (((dat1 (V3 m ρ) c).arrAt_in 5 rfl _).trans (A_eq1 (V3 m ρ) c 5))
    _ = W2 m ρ c (Proc.devRef .tc main_arg8) := hostOps1_keeps m ρ c main_arg8 (by decide)
    _ = W1 m ρ c (Proc.devRef .tc main_arg8) := W2_of_ne m ρ c main_arg8 (by decide)
    _ = W0 m ρ c (Proc.devRef .tc main_arg8) := hostOps0_keeps m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 6).trans (((dat1 (V3 m ρ) c).arrAt_in 6 rfl _).trans (A_eq1 (V3 m ρ) c 6))
    _ = W2 m ρ c (Proc.devRef .tc main_arg9) := hostOps1_keeps m ρ c main_arg9 (by decide)
    _ = W1 m ρ c (Proc.devRef .tc main_arg9) := W2_of_ne m ρ c main_arg9 (by decide)
    _ = W0 m ρ c (Proc.devRef .tc main_arg9) := hostOps0_keeps m ρ c main_arg9 (by decide)
    _ = m ((c : Thread nD τ).loc main_arg9) := rfl

/-! ## What the second region is entered with, and what the second host stretch reads -/

theorem W3_main_arg4 (c : Dev nD) : W3 m ρ c (Proc.devRef .tc main_arg4) = m ((c : Thread nD τ).loc main_arg4) :=
  (hostOps1_keeps m ρ c main_arg4 (by decide)).trans ((W2_of_ne m ρ c main_arg4 (by decide)).trans ((hostOps0_keeps m ρ c main_arg4 (by decide)).trans rfl))
theorem W3_main_arg5 (c : Dev nD) : W3 m ρ c (Proc.devRef .tc main_arg5) = m ((c : Thread nD τ).loc main_arg5) :=
  (hostOps1_keeps m ρ c main_arg5 (by decide)).trans ((W2_of_ne m ρ c main_arg5 (by decide)).trans ((hostOps0_keeps m ρ c main_arg5 (by decide)).trans rfl))
theorem W3_main_arg6 (c : Dev nD) : W3 m ρ c (Proc.devRef .tc main_arg6) = m ((c : Thread nD τ).loc main_arg6) :=
  (hostOps1_keeps m ρ c main_arg6 (by decide)).trans ((W2_of_ne m ρ c main_arg6 (by decide)).trans ((hostOps0_keeps m ρ c main_arg6 (by decide)).trans rfl))
theorem W3_main_arg7 (c : Dev nD) : W3 m ρ c (Proc.devRef .tc main_arg7) = m ((c : Thread nD τ).loc main_arg7) :=
  (hostOps1_keeps m ρ c main_arg7 (by decide)).trans ((W2_of_ne m ρ c main_arg7 (by decide)).trans ((hostOps0_keeps m ρ c main_arg7 (by decide)).trans rfl))
theorem W3_main_arg8 (c : Dev nD) : W3 m ρ c (Proc.devRef .tc main_arg8) = m ((c : Thread nD τ).loc main_arg8) :=
  (hostOps1_keeps m ρ c main_arg8 (by decide)).trans ((W2_of_ne m ρ c main_arg8 (by decide)).trans ((hostOps0_keeps m ρ c main_arg8 (by decide)).trans rfl))
theorem W3_main_arg9 (c : Dev nD) : W3 m ρ c (Proc.devRef .tc main_arg9) = m ((c : Thread nD τ).loc main_arg9) :=
  (hostOps1_keeps m ρ c main_arg9 (by decide)).trans ((W2_of_ne m ρ c main_arg9 (by decide)).trans ((hostOps0_keeps m ρ c main_arg9 (by decide)).trans rfl))
/-- The cast copy of the second argument reaches the second region as the first host stretch wrote it: the first region only
    reads it (an input window), the second host stretch does not write it. -/
theorem W3_main_v0 (c : Dev nD) : W3 m ρ c (Proc.devRef .tc main_v0) = W1 m ρ c (Proc.devRef .tc main_v0) :=
  (hostOps1_keeps m ρ c main_v0 (by decide)).trans ((W2_arr m ρ c 0).trans (((dat0 (V1 m ρ) c).arrAt_in 0 rfl _).trans (A_eq0 (V1 m ρ) c 0)))
/-- The first region's result array after the region. -/
theorem W2_main_v4 (c : Dev nD) : W2 m ρ c (Proc.devRef .tc main_v4) = (dat0 (V1 m ρ) c).arrAt 4 cfg0.N := W2_arr m ρ c 4
/-- The second region's result array at the end. -/
theorem W4_main_v7 (c : Dev nD) : W4 m ρ c (Proc.devRef .tc main_v7) = (dat1 (V3 m ρ) c).arrAt 7 cfg1.N := W4_arr m ρ c 7
/-- The loss at the end is what the second host stretch left: the second region does not touch it. -/
theorem W4_main_v6 (c : Dev nD) : W4 m ρ c (Proc.devRef .tc main_v6) = W3 m ρ c (Proc.devRef .tc main_v6) :=
  W4_of_ne m ρ c main_v6 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop(Pipeline.scopedRest (Ix := Unit) (Name := ℕ) (U := UR sig nD τ) (Lvl := ℕ) (Val := Elt F) spec0 c ∗ ∃ r, prngReg c r) ⊢ (pdats m ρ 0 c).Φ 0 := hin0 (V1 m ρ) c
    iintro ⟨Hp, -, Hr⟩
    iapply h1
    isplitl [Hr]; · iexact Hr
    iexact Hp
  hout c := by
    rw [Pipeline.ownSems0_none]
    have h2 : (pdats m ρ 0 c).Φ (Fin.last _) ⊢ iprop(Pipeline.scopedRest (Ix := Unit) (Name := ℕ) (U := UR sig nD τ) (Lvl := ℕ) (Val := Elt F) spec0 c ∗ ∃ r, prngReg c r) := hout0 (V1 m ρ) c
    iintro H
    ihave H' := h2 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of each core holds the last boundary's contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.Kernel.Gen

end
-- ==== Proof.KI.R0Runs.lean ====
/-
  The loss kernel's grid is 18 time steps by 8 blocks of 256 query rows, the block index innermost. This module holds
  what the three shapes of a grid point share: the two branch conditions of the body in closed form (the first block of
  a time step writes the prediction scratch and zeroes the accumulator; the last block writes the accumulator out), where
  the one output window is idle and where it is written back, the names of the staging and scratch memrefs, the block of
  each input window at a point read off the arrays as the region finds them, and the region invariant spelled over the
  two scratch buffers and the other scoped buffers of the core.
-/
import proofs.«138056_j16037407883274_2_alg».proof.Proof.Gen.KernelIdeal.Launch
import proofs.«138056_j16037407883274_2_alg».proof.Proof.Gen.KernelIdeal.Skeleton
import proofs.«138056_j16037407883274_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the index has not
    moved since the last fetch and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The first conditional of the body: the block index is 0. -/
abbrev cond0_0 (i : grid0.Coords) : Prop := (Scalar.cmpi .ne (Scalar.extui (Scalar.cmpi .eq (BitVec.ofNat 32 (i 1).val) 0#32)) 0#32) = 1#1
/-- It holds at the first block of each time step. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body: the block index is 7. -/
abbrev cond0_1 (i : grid0.Coords) : Prop := k0_cond2 i = 1#1
/-- It holds at the last block of each time step. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the last block's conditional fails the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it holds the window is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S2048x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
/-- The prediction scratch and the accumulator scratch: whole scoped buffers passed beside the windows. -/
abbrev scM0_0 : Memref sig .tc .vmem S2048x128 .f32 := Memref.whole cc0_scratch0
abbrev scM0_1 : Memref sig .tc .vmem S1x1 .f32 := Memref.whole cc0_scratch1
/-- Views through which the contents of the output's staging buffer and of the two scratch buffers are stated. -/
abbrev VO0_4 : View sig .tc .vmem S1x1x1 .f32 := (Memref.whole cc0_stg4_0 : Memref sig .tc .vmem S1x1x1 .f32).view
abbrev VS0_0 : View sig .tc .vmem S2048x128 .f32 := scM0_0.view
abbrev VS0_1 : View sig .tc .vmem S1x1 .f32 := scM0_1.view

/-- The core's scoped buffers that region 0 neither stages nor uses as scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f))

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Gen

end
-- ==== Proof.KI.R0RunA.lean ====
/-
  The first block of a time step (block index 0, not 7): the body computes the prediction of every sample from the
  resident inputs and stores it whole into the prediction scratch, zeroes the accumulator scratch, then adds this block's
  sum of diagonal log-softmax entries to it. The output window is idle. What each scratch buffer ends with is recorded as
  the list of pieces the run writes into it.
-/
import proofs.«138056_j16037407883274_2_alg».proof.Proof.KI.R0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i)
    (x0 : Vec F S2048x4096 .bf16) (x1 : Vec F S1x128x4096 .f32) (x2 : Vec F S1x1x128 .f32) (x3 : Vec F S1x256x128 .bf16) :
    Σ' (LS0 : List (View.Piece (Elt F) S2048x128 .f32)), { LS1 : List (View.Piece (Elt F) S1x1 .f32) //
      ∀ (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__cpc_kernel i arg2 harg2 arg3 harg3 arg4 harg4 arg5 harg5 arg6 harg6 arg7 harg7 arg8 harg8) K } := by
  refine ⟨?_, ?_, fun xi4 E K => ?run⟩
  case run =>
    simp only [cc0__cpc_kernel_eq_skeleton]; unfold cc0__cpc_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Gen

end
-- ==== Proof.KI.R0RunB.lean ====
/-
  A middle block of a time step (block index neither 0 nor 7): the body reads the prediction scratch, which it leaves as
  it found it, and adds this block's sum of diagonal log-softmax entries to the accumulator scratch. The output window is
  idle.
-/
import proofs.«138056_j16037407883274_2_alg».proof.Proof.KI.R0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : ¬cond0_1 i)
    (x0 : Vec F S2048x4096 .bf16) (x1 : Vec F S1x128x4096 .f32) (x2 : Vec F S1x1x128 .f32) (x3 : Vec F S1x256x128 .bf16) (xs0 : Vec F S2048x128 .f32) (xs1 : Vec F S1x1 .f32) :
    { LS1 : List (View.Piece (Elt F) S1x1 .f32) //
      ∀ (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__cpc_kernel i arg2 harg2 arg3 harg3 arg4 harg4 arg5 harg5 arg6 harg6 arg7 harg7 arg8 harg8) K } := by
  refine ⟨?_, fun xi4 E K => ?run⟩
  case run =>
    simp only [cc0__cpc_kernel_eq_skeleton]; unfold cc0__cpc_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg7.read_unread _
      iexact HS0
    iexists _; iexact HS1

end Cert.KernelIdeal.Gen

end
-- ==== Proof.KI.R0RunC.lean ====
/-
  The last block of a time step (block index 7, not 0): as a middle block, and then the accumulator scratch, now holding the
  time step's whole sum, is stored into the output window's block.
-/
import proofs.«138056_j16037407883274_2_alg».proof.Proof.KI.R0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i)
    (x0 : Vec F S2048x4096 .bf16) (x1 : Vec F S1x128x4096 .f32) (x2 : Vec F S1x1x128 .f32) (x3 : Vec F S1x256x128 .bf16) (xs0 : Vec F S2048x128 .f32) (xs1 : Vec F S1x1 .f32) :
    Σ' (L4 : List (View.Piece (Elt F) S1x1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__cpc_kernel i arg2 harg2 arg3 harg3 arg4 harg4 arg5 harg5 arg6 harg6 arg7 harg7 arg8 harg8) K } := by
  refine ⟨?_, ?_, fun E K => ?run⟩
  case run =>
    simp only [cc0__cpc_kernel_eq_skeleton]; unfold cc0__cpc_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    iexists _; iexact HS1

end Cert.KernelIdeal.Gen

end
-- ==== Proof.KI.R0Frame.lean ====
/-
  Region 0 point by point. After the body at grid position n the prediction scratch holds the prediction of the time step
  n / 8 (written at the step's first block and left alone afterwards), the accumulator scratch holds the sum of the diagonal
  log-softmax entries of the blocks 8·(n / 8) … n, and at a step's last block the output window's staging buffer holds that
  accumulator. This is stated as a recursion over the position (outsAt0), the region invariant carries the two scratch
  buffers at these contents from one point to the next (PhiS), and the body obligation is discharged by the run of the
  point's shape: first, middle or last block of a time step.
-/
import proofs.«138056_j16037407883274_2_alg».proof.Proof.KI.R0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces each shape of point writes cover the buffer they are written into -/

theorem scover0_A_0 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) (y : S2048x128.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S2048x128.size (by sl_kernel_rfl) y
theorem scover0_A_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) (y : S1x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1x1.size (by sl_kernel_rfl) y
theorem scover0_B_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : ¬cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg2 harg2 arg3 harg3 arg4 harg4 arg5 harg5 arg6 harg6 arg7 harg7 arg8 harg8 hc0 hc1 x0 x1 x2 x3 xs0 xs1).1 S1x1.size (by sl_kernel_rfl) y
theorem cover0_C_4 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) (y : S1x1x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1x1x1.size (by sl_kernel_rfl) y
theorem scover0_C_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1x1.size (by sl_kernel_rfl) y

/-! ## What each shape of point leaves: the output's staging buffer, the prediction scratch, the accumulator scratch -/

/-- The three buffers' contents after a point. -/
abbrev Outs0 (F : FTy → Type) [FloatOps F] : Type := Vec F S1x1x1 .f32 × Vec F S2048x128 .f32 × Vec F S1x1 .f32

def sout0_A_0 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) : Vec F S2048x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)
def sout0_A_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) : Vec F S1x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.1)
def sout0_B_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : ¬cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).1)
def out0_C_4 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) : Vec F S1x1x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)
def sout0_C_1 (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.1)

section Region0
variable (V : (c : Dev nD) → (b : Ref sig .tc) → Buf (Elt F) ((c : Thread nD τ).loc b))

/-- A step's first block: the output's buffer is not stored into (a placeholder nothing reads), both scratch buffers are written. -/
def stepA (c : Dev nD) (t : Fin cfg0.N) (h0 : t.val % 8 = 0) : Outs0 F :=
  (VO0_4.read (Elt F) VO0_4.junk,
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t))
/-- A middle block: the prediction scratch as the point before left it, the accumulator advanced. -/
def stepB (c : Dev nD) (t : Fin cfg0.N) (h0 : ¬t.val % 8 = 0) (h7 : ¬t.val % 8 = 7) (prev : Outs0 F) : Outs0 F :=
  (VO0_4.read (Elt F) VO0_4.junk, prev.2.1,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h7 ((hcond0_1 t).mp h)) (iblk0 V c 0 t) (iblk0 V c 1 t) (iblk0 V c 2 t) (iblk0 V c 3 t) prev.2.1 prev.2.2)
/-- A step's last block: as a middle block, and the output's buffer stored. -/
def stepC (c : Dev nD) (t : Fin cfg0.N) (h0 : ¬t.val % 8 = 0) (h7 : t.val % 8 = 7) (prev : Outs0 F) : Outs0 F :=
  (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk0 V c 0 t) (iblk0 V c 1 t) (iblk0 V c 2 t) (iblk0 V c 3 t) prev.2.1 prev.2.2, prev.2.1,
   sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk0 V c 0 t) (iblk0 V c 1 t) (iblk0 V c 2 t) (iblk0 V c 3 t) prev.2.1 prev.2.2)

/-- The three buffers after the body at position n. -/
def outsAt0 (c : Dev nD) : (n : ℕ) → n < cfg0.N → Outs0 F
  | 0, hn => stepA V c ⟨0, hn⟩ (Nat.zero_mod _)
  | n + 1, hn =>
    if h0 : (n + 1) % 8 = 0 then stepA V c ⟨n + 1, hn⟩ h0
    else if h7 : (n + 1) % 8 = 7 then stepC V c ⟨n + 1, hn⟩ h0 h7 (outsAt0 c n (Nat.lt_of_succ_lt hn))
    else stepB V c ⟨n + 1, hn⟩ h0 h7 (outsAt0 c n (Nat.lt_of_succ_lt hn))

theorem outsAt0_A (c : Dev nD) (t : Fin cfg0.N) (h0 : t.val % 8 = 0) : outsAt0 V c t.val t.isLt = stepA V c t h0 := by
  obtain ⟨n, hn⟩ := t
  cases n with
  | zero => rfl
  | succ n => exact dif_pos h0
theorem outsAt0_B (c : Dev nD) (t : Fin cfg0.N) (h0 : ¬t.val % 8 = 0) (h7 : ¬t.val % 8 = 7) :
    outsAt0 V c t.val t.isLt = stepB V c t h0 h7 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h7)
theorem outsAt0_C (c : Dev nD) (t : Fin cfg0.N) (h0 : ¬t.val % 8 = 0) (h7 : t.val % 8 = 7) :
    outsAt0 V c t.val t.isLt = stepC V c t h0 h7 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h7)

/-! ## The region invariant -/

/-- Before the first point the class invariant; afterwards the two scratch buffers at what the point before left, the other
    scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from (by unfold Dat.leavesExact; rw [liveAt0_0 t]), after0_0]
  rw [show (dat0 V c).leavesExact 1 t = owns (c : Thread nD τ) (ms0_1 t) fullShare ((dat0 V c).after 1 t) from (by unfold Dat.leavesExact; rw [liveAt0_1 t]), after0_1]
  rw [show (dat0 V c).leavesExact 2 t = owns (c : Thread nD τ) (ms0_2 t) fullShare ((dat0 V c).after 2 t) from (by unfold Dat.leavesExact; rw [liveAt0_2 t]), after0_2]
  rw [show (dat0 V c).leavesExact 3 t = owns (c : Thread nD τ) (ms0_3 t) fullShare ((dat0 V c).after 3 t) from (by unfold Dat.leavesExact; rw [liveAt0_3 t]), after0_3]
  by_cases h0 : t.val % 8 = 0
  · have h7 : ¬t.val % 8 = 7 := by omega
    have hnc1 : ¬cond0_1 (grid0.coords t) := fun h => h7 ((hcond0_1 t).mp h)
    rw [Dat.leavesExact_idle (dat0 V c) 4 t (idleAt0_4 t hnc1) (noFlush0_4 t hnc1)]
    rw [outsAt0_A V c t h0]
    unfold stepA sout0_A_0 sout0_A_1; (try dsimp only)
    by_cases hz : t.val = 0
    · rw [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_A c _ _ _ _ _ _ _ _ _ _ _ _ _ _ _ ((hcond0_0 t).mpr h0) (fun h => by have := (hcond0_1 t).mp h; omega) (iblk0 V c 0 t) (iblk0 V c 1 t) (iblk0 V c 2 t) (iblk0 V c 3 t)).2.2 ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_A c _ _ _ _ _ _ _ _ _ _ _ _ _ _ _ ((hcond0_0 t).mpr h0) (fun h => by have := (hcond0_1 t).mp h; omega) (iblk0 V c 0 t) (iblk0 V c 1 t) (iblk0 V c 2 t) (iblk0 V c 3 t)).2.2 ((dat0 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h7 : t.val % 8 = 7
    · have hc1 : cond0_1 (grid0.coords t) := (hcond0_1 t).mpr h7
      rw [show (dat0 V c).leavesExact 4 t = owns (c : Thread nD τ) (ms0_4 t) fullShare ((dat0 V c).after 4 t) from (by unfold Dat.leavesExact; rw [liveAt0_4 t hc1]), after0_4]
      rw [outsAt0_C V c t h0 h7]
      unfold stepC out0_C_4 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_C c _ _ _ _ _ _ _ _ _ _ _ _ _ _ _ (fun h => h0 ((hcond0_0 t).mp h)) ((hcond0_1 t).mpr h7) (iblk0 V c 0 t) (iblk0 V c 1 t) (iblk0 V c 2 t) (iblk0 V c 3 t) _ _).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, HS0, ⟨%es1, HS1⟩⟩
      isplitl [HS0 HS1 Hr Hg]
      · isplitl [HS0 HS1 Hr]
        · isplitl [HS0]; · iexact HS0
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · have hnc1 : ¬cond0_1 (grid0.coords t) := fun h => h7 ((hcond0_1 t).mp h)
      rw [Dat.leavesExact_idle (dat0 V c) 4 t (idleAt0_4 t hnc1) (noFlush0_4 t hnc1)]
      rw [outsAt0_B V c t h0 h7]
      unfold stepB sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_B c _ _ _ _ _ _ _ _ _ _ _ _ _ _ _ (fun h => h0 ((hcond0_0 t).mp h)) (fun h => h7 ((hcond0_1 t).mp h)) (iblk0 V c 0 t) (iblk0 V c 1 t) (iblk0 V c 2 t) (iblk0 V c 3 t) _ _).2 ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, ⟨%es1, HS1⟩⟩
      isplitl [HS0 HS1 Hr Hg]
      · isplitl [HS0 HS1 Hr]
        · isplitl [HS0]; · iexact HS0
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class invariant back: the scratch buffers' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

theorem hout0 (c : Dev nD) : (dat0 V c).Φ (Fin.last cfg0.N) ⊢ Pipeline.ΦA spec0 c :=
  Phi_out0 V c _ (by rw [Fin.val_last]; have : cfg0.N = 144 := N_0; omega)

end Region0

end Cert.KernelIdeal.Gen

end
-- ==== Proof.KI.R1Frame.lean ====
/-
  The projection-head kernel runs at one grid point on whole blocks: the seven inputs are loaded whole, the result block is
  stored whole. This module runs its body once, records what the store leaves in the result's staging buffer as the pieces
  the run writes, and states the proof data of the pipeline and the body obligation at the contents V the region is
  entered from.
-/
import proofs.«138056_j16037407883274_2_alg».proof.Proof.Gen.KernelIdeal.Launch
import proofs.«138056_j16037407883274_2_alg».proof.Proof.Gen.KernelIdeal.Skeleton
import proofs.«138056_j16037407883274_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x32 .f32 := win1_7.stage (cfg1.slots t 7)
abbrev hs1_7 (t : Fin cfg1.N) : (ms1_7 t).IsWhole := hstage1_7 ((cfg1.slots t 7).cast nbuf1_7)
/-- A view through which the contents of the result's staging buffer are stated. -/
abbrev VO1_7 : View sig .tc .vmem S2048x32 .f32 := (Memref.whole cc1_stg7_0 : Memref sig .tc .vmem S2048x32 .f32).view

set_option maxHeartbeats 4000000 in
noncomputable def kernelRun1 (c : Dev nD) (i : grid1.Coords) (arg1 : Memref sig .tc .vmem S2048x4096 .bf16) (harg1 : arg1.IsWhole) (arg2 : Memref sig .tc .vmem S128x4096 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S32x128 .f32) (harg6 : arg6.IsWhole) (arg7 : Memref sig .tc .vmem S32 .f32) (harg7 : arg7.IsWhole) (arg8 : Memref sig .tc .vmem S2048x32 .f32) (harg8 : arg8.IsWhole)
    (x0 : Vec F S2048x4096 .bf16) (x1 : Vec F S128x4096 .f32) (x2 x3 x4 : Vec F S128 .f32) (x5 : Vec F S32x128 .f32) (x6 : Vec F S32 .f32) :
    { L7 : List (View.Piece (Elt F) S2048x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc1__proj_kernel i arg1 harg1 arg2 harg2 arg3 harg3 arg4 harg4 arg5 harg5 arg6 harg6 arg7 harg7 arg8 harg8) K } := by
  refine ⟨?_, fun E K => ?run⟩
  case run =>
    simp only [cc1__proj_kernel_eq_skeleton]; unfold cc1__proj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The run's pieces for the result tile its block, so they cover it. -/
theorem cover1_7 (c : Dev nD) (i : grid1.Coords) (arg1 : Memref sig .tc .vmem S2048x4096 .bf16) (harg1 : arg1.IsWhole) (arg2 : Memref sig .tc .vmem S128x4096 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S32x128 .f32) (harg6 : arg6.IsWhole) (arg7 : Memref sig .tc .vmem S32 .f32) (harg7 : arg7.IsWhole) (arg8 : Memref sig .tc .vmem S2048x32 .f32) (harg8 : arg8.IsWhole) (x0 : Vec F S2048x4096 .bf16) (x1 : Vec F S128x4096 .f32) (x2 x3 x4 : Vec F S128 .f32) (x5 : Vec F S32x128 .f32) (x6 : Vec F S32 .f32) (y : S2048x32.Idx) :
    ∃ pc ∈ (kernelRun1 c i arg1 harg1 arg2 harg2 arg3 harg3 arg4 harg4 arg5 harg5 arg6 harg6 arg7 harg7 arg8 harg8 x0 x1 x2 x3 x4 x5 x6).1, y ∈ pc.1.set :=
  View.cover_of_tiledL (kernelRun1 c i arg1 harg1 arg2 harg2 arg3 harg3 arg4 harg4 arg5 harg5 arg6 harg6 arg7 harg7 arg8 harg8 x0 x1 x2 x3 x4 x5 x6).1 S2048x32.size (by sl_kernel_rfl) y

/-- What the body leaves in the result's staging buffer: its pieces read back. -/
def out1_7 (c : Dev nD) (i : grid1.Coords) (arg1 : Memref sig .tc .vmem S2048x4096 .bf16) (harg1 : arg1.IsWhole) (arg2 : Memref sig .tc .vmem S128x4096 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S32x128 .f32) (harg6 : arg6.IsWhole) (arg7 : Memref sig .tc .vmem S32 .f32) (harg7 : arg7.IsWhole) (arg8 : Memref sig .tc .vmem S2048x32 .f32) (harg8 : arg8.IsWhole) (x0 : Vec F S2048x4096 .bf16) (x1 : Vec F S128x4096 .f32) (x2 x3 x4 : Vec F S128 .f32) (x5 : Vec F S32x128 .f32) (x6 : Vec F S32 .f32) : Vec F S2048x32 .f32 :=
  VO1_7.read (Elt F) (VO1_7.writes (Elt F) VO1_7.junk (kernelRun1 c i arg1 harg1 arg2 harg2 arg3 harg3 arg4 harg4 arg5 harg5 arg6 harg6 arg7 harg7 arg8 harg8 x0 x1 x2 x3 x4 x5 x6).1)

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- What the result's staging buffer holds after the body at point t. -/
def outAt1 (c : Dev nD) (t : Fin cfg1.N) : Vec F S2048x32 .f32 :=
  out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)

/-- The proof data of pipeline 1 on core c: the arrays as the region finds them; after the body each input's buffer at its
    block and the result's at what the body stored; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outAt1 out1_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1 c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_7 c _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.Run.lean ====
/-
  The run of the whole program: four segments — the host operations that cast and re-lay the inputs, the loss kernel's
  region, the host operations that sum the per-step partial sums and divide by the count, the projection kernel's region.
  The contents of every unscoped buffer are followed from the launch memory through the segments (W0 … W4: a host stretch
  applies its operations, a region puts each of its arrays at what the pipeline's write-backs leave and touches nothing else),
  each region is entered from and left at these contents, and the run ends with every unscoped buffer at W4. The argument
  arrays are read back through the fold to their launch contents.
-/
import proofs.«138056_j16037407883274_2_alg».proof.Proof.KI.R0Frame
import proofs.«138056_j16037407883274_2_alg».proof.Proof.KI.R1Frame
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment changes an argument array -/

/-- The first host stretch writes only the four buffers it computes. -/
theorem hostOps0_keeps (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2⟩))
/-- The second host stretch writes only the four buffers it computes. -/
theorem hostOps1_keeps (c : Dev nD) (b : Ref sig .tc) (hb : b ∉ ([main_cst, main_v5, main_cst_0, main_v6] : List (Ref sig .tc))) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2⟩))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := hostOps1_keeps m ρ c main_arg0 (by decide)
    _ = W1 m ρ c (Proc.devRef .tc main_arg0) := W2_of_ne m ρ c main_arg0 (by decide)
    _ = W0 m ρ c (Proc.devRef .tc main_arg0) := hostOps0_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := hostOps1_keeps m ρ c main_arg1 (by decide)
    _ = W1 m ρ c (Proc.devRef .tc main_arg1) := W2_of_ne m ρ c main_arg1 (by decide)
    _ = W0 m ρ c (Proc.devRef .tc main_arg1) := hostOps0_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := hostOps1_keeps m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := hostOps0_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := hostOps1_keeps m ρ c main_arg3 (by decide)
    _ = W1 m ρ c (Proc.devRef .tc main_arg3) := W2_of_ne m ρ c main_arg3 (by decide)
    _ = W0 m ρ c (Proc.devRef .tc main_arg3) := hostOps0_keeps m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := hostOps1_keeps m ρ c main_arg4 (by decide)
    _ = W1 m ρ c (Proc.devRef .tc main_arg4) := W2_of_ne m ρ c main_arg4 (by decide)
    _ = W0 m ρ c (Proc.devRef .tc main_arg4) := hostOps0_keeps m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := hostOps1_keeps m ρ c main_arg5 (by decide)
    _ = W1 m ρ c (Proc.devRef .tc main_arg5) := W2_of_ne m ρ c main_arg5 (by decide)
    _ = W0 m ρ c (Proc.devRef .tc main_arg5) := hostOps0_keeps m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := hostOps1_keeps m ρ c main_arg6 (by decide)
    _ = W1 m ρ c (Proc.devRef .tc main_arg6) := W2_of_ne m ρ c main_arg6 (by decide)
    _ = W0 m ρ c (Proc.devRef .tc main_arg6) := hostOps0_keeps m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := hostOps1_keeps m ρ c main_arg7 (by decide)
    _ = W1 m ρ c (Proc.devRef .tc main_arg7) := W2_of_ne m ρ c main_arg7 (by decide)
    _ = W0 m ρ c (Proc.devRef .tc main_arg7) := hostOps0_keeps m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 5).trans (((dat1 (V3 m ρ) c).arrAt_in 5 rfl _).trans (A_eq1 (V3 m ρ) c 5))
    _ = W2 m ρ c (Proc.devRef .tc main_arg8) := hostOps1_keeps m ρ c main_arg8 (by decide)
    _ = W1 m ρ c (Proc.devRef .tc main_arg8) := W2_of_ne m ρ c main_arg8 (by decide)
    _ = W0 m ρ c (Proc.devRef .tc main_arg8) := hostOps0_keeps m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 6).trans (((dat1 (V3 m ρ) c).arrAt_in 6 rfl _).trans (A_eq1 (V3 m ρ) c 6))
    _ = W2 m ρ c (Proc.devRef .tc main_arg9) := hostOps1_keeps m ρ c main_arg9 (by decide)
    _ = W1 m ρ c (Proc.devRef .tc main_arg9) := W2_of_ne m ρ c main_arg9 (by decide)
    _ = W0 m ρ c (Proc.devRef .tc main_arg9) := hostOps0_keeps m ρ c main_arg9 (by decide)
    _ = m ((c : Thread nD τ).loc main_arg9) := rfl

/-! ## What the second region is entered with, and what the second host stretch reads -/

theorem W3_main_arg4 (c : Dev nD) : W3 m ρ c (Proc.devRef .tc main_arg4) = m ((c : Thread nD τ).loc main_arg4) :=
  (hostOps1_keeps m ρ c main_arg4 (by decide)).trans ((W2_of_ne m ρ c main_arg4 (by decide)).trans ((hostOps0_keeps m ρ c main_arg4 (by decide)).trans rfl))
theorem W3_main_arg5 (c : Dev nD) : W3 m ρ c (Proc.devRef .tc main_arg5) = m ((c : Thread nD τ).loc main_arg5) :=
  (hostOps1_keeps m ρ c main_arg5 (by decide)).trans ((W2_of_ne m ρ c main_arg5 (by decide)).trans ((hostOps0_keeps m ρ c main_arg5 (by decide)).trans rfl))
theorem W3_main_arg6 (c : Dev nD) : W3 m ρ c (Proc.devRef .tc main_arg6) = m ((c : Thread nD τ).loc main_arg6) :=
  (hostOps1_keeps m ρ c main_arg6 (by decide)).trans ((W2_of_ne m ρ c main_arg6 (by decide)).trans ((hostOps0_keeps m ρ c main_arg6 (by decide)).trans rfl))
theorem W3_main_arg7 (c : Dev nD) : W3 m ρ c (Proc.devRef .tc main_arg7) = m ((c : Thread nD τ).loc main_arg7) :=
  (hostOps1_keeps m ρ c main_arg7 (by decide)).trans ((W2_of_ne m ρ c main_arg7 (by decide)).trans ((hostOps0_keeps m ρ c main_arg7 (by decide)).trans rfl))
theorem W3_main_arg8 (c : Dev nD) : W3 m ρ c (Proc.devRef .tc main_arg8) = m ((c : Thread nD τ).loc main_arg8) :=
  (hostOps1_keeps m ρ c main_arg8 (by decide)).trans ((W2_of_ne m ρ c main_arg8 (by decide)).trans ((hostOps0_keeps m ρ c main_arg8 (by decide)).trans rfl))
theorem W3_main_arg9 (c : Dev nD) : W3 m ρ c (Proc.devRef .tc main_arg9) = m ((c : Thread nD τ).loc main_arg9) :=
  (hostOps1_keeps m ρ c main_arg9 (by decide)).trans ((W2_of_ne m ρ c main_arg9 (by decide)).trans ((hostOps0_keeps m ρ c main_arg9 (by decide)).trans rfl))
/-- The cast copy of the second argument reaches the second region as the first host stretch wrote it: the first region only
    reads it (an input window), the second host stretch does not write it. -/
theorem W3_main_v0 (c : Dev nD) : W3 m ρ c (Proc.devRef .tc main_v0) = W1 m ρ c (Proc.devRef .tc main_v0) :=
  (hostOps1_keeps m ρ c main_v0 (by decide)).trans ((W2_arr m ρ c 0).trans (((dat0 (V1 m ρ) c).arrAt_in 0 rfl _).trans (A_eq0 (V1 m ρ) c 0)))
/-- The first region's result array after the region. -/
theorem W2_main_v4 (c : Dev nD) : W2 m ρ c (Proc.devRef .tc main_v4) = (dat0 (V1 m ρ) c).arrAt 4 cfg0.N := W2_arr m ρ c 4
/-- The second region's result array at the end. -/
theorem W4_main_v7 (c : Dev nD) : W4 m ρ c (Proc.devRef .tc main_v7) = (dat1 (V3 m ρ) c).arrAt 7 cfg1.N := W4_arr m ρ c 7
/-- The loss at the end is what the second host stretch left: the second region does not touch it. -/
theorem W4_main_v6 (c : Dev nD) : W4 m ρ c (Proc.devRef .tc main_v6) = W3 m ρ c (Proc.devRef .tc main_v6) :=
  W4_of_ne m ρ c main_v6 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop(Pipeline.scopedRest (Ix := Unit) (Name := ℕ) (U := UR sig nD τ) (Lvl := ℕ) (Val := Elt F) spec0 c ∗ ∃ r, prngReg c r) ⊢ (pdats m ρ 0 c).Φ 0 := hin0 (V1 m ρ) c
    iintro ⟨Hp, -, Hr⟩
    iapply h1
    isplitl [Hr]; · iexact Hr
    iexact Hp
  hout c := by
    rw [Pipeline.ownSems0_none]
    have h2 : (pdats m ρ 0 c).Φ (Fin.last _) ⊢ iprop(Pipeline.scopedRest (Ix := Unit) (Name := ℕ) (U := UR sig nD τ) (Lvl := ℕ) (Val := Elt F) spec0 c ∗ ∃ r, prngReg c r) := hout0 (V1 m ρ) c
    iintro H
    ihave H' := h2 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of each core holds the last boundary's contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.KernelIdeal.Gen

end
-- ==== Proof.CpcSpec.lean ====
/-
  The two results as plain functions of the ten argument arrays, entry by entry, over the extended reals.

  Contrastive loss.  For a time step t the prediction of sample b in channel c is
      pred t b c = Σ_d ct[b,d] · wk[t,c,d] + wb[t,c],
  the score of query sample q against key sample k is
      total t q k = Σ_c z[q,c,t] · pred t k c,
  and row q of the log-softmax of total t, read on the diagonal, is
      diag t q = (total t q q − max_k total t q k) − log Σ_k exp (total t q k − max_k total t q k).
  The loss is the sum of diag over all (t, q) divided by the word of −36864 = −(18 · 2048).

  Projection head.  h = ct · pw1ᵀ + pb1; per channel the batch mean mu and the biased batch variance var;
  hn = ((h − mu) · rsqrt (var + eps)) · gamma + beta; the leaky rectifier with slope word 0x3C23D70A;
  proj = act · pw2ᵀ + pb2.  Every literal is kept as the word both programs print, so none is ever evaluated.
-/
import Idealize.ShloMosaic.PureOps.Ideal
import Idealize.ShloMosaic.Lib.ValueIdx

noncomputable section

open scoped BigOperators
open Idealize.ShloMosaic Idealize.ShloMosaic.ValueIdx

namespace Cert.CpcSpec

/-- Rank-1, rank-2 and rank-3 arrays of extended reals over literal extents. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The words the programs print. -/
abbrev wNegCount : EReal := Ideal.ofBits .f32 0xC7100000#32
abbrev wBatch : EReal := Ideal.ofBits .f32 0x45000000#32
abbrev wEps : EReal := Ideal.ofBits .f32 0x3727C5AC#32
abbrev wSlope : EReal := Ideal.ofBits .f32 0x3C23D70A#32

section Loss

variable (z : A3 2048 128 18) (ct : A2 2048 4096) (wk : A3 18 128 4096) (wb : A2 18 128)

/-- The linear prediction of time step t for sample b, channel c. -/
def pred (t : Fin 18) (b : Fin 2048) (c : Fin 128) : EReal :=
  (∑ d : Fin 4096, ct (ix2 b d) * wk (ix3 t c d)) + wb (ix2 t c)

/-- The score of query q against key k at time step t. -/
def total (t : Fin 18) (q k : Fin 2048) : EReal :=
  ∑ c : Fin 128, z (ix3 q c t) * pred ct wk wb t k c

/-- The largest score of row q, as a fold of max from −∞. -/
def rowMax (t : Fin 18) (q : Fin 2048) : EReal :=
  (Finset.univ : Finset (Fin 2048)).fold max ⊥ (fun k => total z ct wk wb t q k)

/-- The logarithm of the row's sum of shifted exponentials. -/
def lse (t : Fin 18) (q : Fin 2048) : EReal :=
  Ideal.log (∑ k : Fin 2048, Ideal.exp (total z ct wk wb t q k - rowMax z ct wk wb t q))

/-- The diagonal entry of the row's log-softmax. -/
def diag (t : Fin 18) (q : Fin 2048) : EReal :=
  (total z ct wk wb t q q - rowMax z ct wk wb t q) - lse z ct wk wb t q

/-- The loss: the diagonal entries summed over time steps and samples, over the word of −36864. -/
def nce : EReal :=
  Ideal.div (∑ t : Fin 18, ∑ q : Fin 2048, diag z ct wk wb t q) wNegCount

end Loss

section Head

variable (ct : A2 2048 4096) (pw1 : A2 128 4096) (pb1 gamma beta : A1 128) (pw2 : A2 32 128) (pb2 : A1 32)

/-- The first linear layer. -/
def hid (b : Fin 2048) (c : Fin 128) : EReal :=
  (∑ d : Fin 4096, ct (ix2 b d) * pw1 (ix2 c d)) + pb1 (ix1 c)

/-- The batch mean of channel c. -/
def mu (c : Fin 128) : EReal :=
  Ideal.div (∑ b : Fin 2048, hid ct pw1 pb1 b c) wBatch

/-- The biased batch variance of channel c. -/
def var (c : Fin 128) : EReal :=
  Ideal.div (∑ b : Fin 2048, (hid ct pw1 pb1 b c - mu ct pw1 pb1 c) * (hid ct pw1 pb1 b c - mu ct pw1 pb1 c)) wBatch

/-- The normalised, scaled and shifted activation. -/
def hn (b : Fin 2048) (c : Fin 128) : EReal :=
  ((hid ct pw1 pb1 b c - mu ct pw1 pb1 c) * Ideal.rsqrt (var ct pw1 pb1 c + wEps)) * gamma (ix1 c) + beta (ix1 c)

/-- The leaky rectifier: x where x ≥ 0 (the ordered comparison), the slope word times x elsewhere. -/
def act (b : Fin 2048) (c : Fin 128) : EReal :=
  if Ideal.cmp .oge (hn ct pw1 pb1 gamma beta b c) (Ideal.ofBits .f32 0x00000000#32) = 1#1
  then hn ct pw1 pb1 gamma beta b c else wSlope * hn ct pw1 pb1 gamma beta b c

/-- The second linear layer. -/
def proj (b : Fin 2048) (p : Fin 32) : EReal :=
  (∑ c : Fin 128, act ct pw1 pb1 gamma beta b c * pw2 (ix2 p c)) + pb2 (ix1 p)

end Head

end Cert.CpcSpec

end
-- ==== Proof.KI.R0Final.lean ====
/-
  The loss kernel's result array and the host operations after it. The output window of the 18 × 8 grid is a [1, 1, 1]
  block of an [18, 1, 1] array at row (time step); it is written back only at the last of a step's eight blocks, the point
  8·T + 7, with what that point's body stored. Those eighteen blocks tile the array, so it ends holding, at entry T, what the
  last block of step T stored. The host then sums the eighteen entries from the zero word and divides by the word of −36864:
  a sum over the [18, 1, 1] indices is the sum over the first coordinate, the other two being 0.
-/
import proofs.«138056_j16037407883274_2_alg».proof.Proof.KI.Run
import proofs.«138056_j16037407883274_2_alg».proof.Proof.CpcSpec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Gen

open scoped BigOperators
open Idealize.ShloMosaic Idealize.ShloMosaic.TcCoe Idealize.ShloMosaic.Tactic
open Idealize.ShloMosaic.ValueIdx
open Idealize.ShloMosaic.Pipeline (Dat Cfg Window)

section Region0
variable {F : FTy → Type} [FloatOps F]
variable (V : (c : Dev nD) → (b : Ref sig .tc) → Buf (Elt F) ((c : Thread nD τ).loc b))

/-- What the buffers hold after a position does not depend on how the position is written. -/
theorem outsAt0_congr (c : Dev nD) {n n' : ℕ} (e : n = n') (h : n < cfg0.N) (h' : n' < cfg0.N) :
    outsAt0 V c n h = outsAt0 V c n' h' := by subst e; rfl

/-- The output window's block index: the time step, on a [1, 1, 1] block of the [18, 1, 1] array. -/
theorem idx_facts4 : ∀ t : Fin cfg0.N,
    win0_4.index t (0 : Fin 3) = t.val / 8 ∧ win0_4.index t (1 : Fin 3) = 0 ∧ win0_4.index t (2 : Fin 3) = 0 :=
  (by decide +kernel : ∀ t : Fin grid0.N, _)

/-- The last block of time step T is a point of the grid. -/
theorem lastBlock_lt (T : Fin 18) : 8 * T.val + 7 < cfg0.N :=
  lt_of_lt_of_eq (by have := T.isLt; omega : 8 * T.val + 7 < 144) N_0.symm

/-- The [18, 1, 1] array of per-step sums: entry T is what the last block of time step T stored. -/
def lossArr (c : Dev nD) : Buf (Elt F) ((c : Thread nD τ).loc main_v4) :=
  fun (i : S18x1x1.Idx) => (outsAt0 V c (8 * (i 0).val + 7) (lastBlock_lt (i 0))).1 (ix3 0 0 0)

/-- A write-back happens at the last block of a time step and writes that step's entry. -/
theorem flushed0_eq (c : Dev nD) (t : Fin cfg0.N) (hf : (cfg0.win 4).flush t = true) :
    (dat0 V c).flushed 4 t = ((cfg0.win 4).blk t).view.read (Elt F) (lossArr V c) := by
  have h7 : t.val % 8 = 7 := (flush0_4 t).mp hf
  obtain ⟨e0, e1, e2⟩ := idx_facts4 t
  show (cfg0.win 4).cut (grid0.coords t) ((dat0 V c).after 4 t) = _
  rw [after0_4]
  funext y
  have y0 : (y 0).val < 1 := (y 0).isLt
  have y1 : (y 1).val < 1 := (y 1).isLt
  have y2 : (y 2).val < 1 := (y 2).isLt
  have hy : (cfg0.win 4).xinj (grid0.coords t) y = ix3 0 0 0 := by
    funext a
    match a with
    | ⟨0, _⟩ => exact Fin.ext (by show (y 0).val = 0; omega)
    | ⟨1, _⟩ => exact Fin.ext (by show (y 1).val = 0; omega)
    | ⟨2, _⟩ => exact Fin.ext (by show (y 2).val = 0; omega)
  have hn : t.val = 8 * ((((cfg0.win 4).blk t).view.emb y) 0).val + 7 := by
    show t.val = 8 * (win0_4.index t (0 : Fin 3) * 1 + 1 * (y 0).val) + 7
    omega
  show (outsAt0 V c t.val t.isLt).1 ((cfg0.win 4).xinj (grid0.coords t) y) = _
  rw [hy]
  exact congrArg (fun o : Outs0 F => o.1 (ix3 0 0 0)) (outsAt0_congr V c hn t.isLt _)

/-- Every entry is written back by the last block of its time step, so the array ends holding the per-step sums. -/
theorem final0 (c : Dev nD) : (dat0 V c).arrAt 4 cfg0.N = lossArr V c :=
  (dat0 V c).arrAt_eq_of_cover 4 (lossArr V c) (flushed0_eq V c) fun i => by
    have h0 : (i 0 : Nat) < 18 := (i 0).isLt
    have h1 : (i 1 : Nat) < 1 := (i 1).isLt
    have h2 : (i 2 : Nat) < 1 := (i 2).isLt
    have hlt : 8 * (i 0 : Nat) + 7 < cfg0.N := lt_of_lt_of_eq (by omega : 8 * (i 0 : Nat) + 7 < 144) N_0.symm
    obtain ⟨t, ht⟩ : ∃ t : Fin cfg0.N, t.val = 8 * (i 0 : Nat) + 7 := ⟨⟨_, hlt⟩, rfl⟩
    obtain ⟨e0, e1, e2⟩ := idx_facts4 t
    refine ⟨t, (flush0_4 t).mpr (by omega), ?_⟩
    show i ∈ ((View.whole main_v4).slice (win0_4.rect t)).set
    rw [View.set_slice_whole, Rect.mem_set_unit]
    intro a
    match a with
    | ⟨0, _⟩ => show win0_4.index t (0 : Fin 3) * 1 ≤ (i 0 : Nat) ∧ (i 0 : Nat) < win0_4.index t (0 : Fin 3) * 1 + 1; omega
    | ⟨1, _⟩ => show win0_4.index t (1 : Fin 3) * 1 ≤ (i 1 : Nat) ∧ (i 1 : Nat) < win0_4.index t (1 : Fin 3) * 1 + 1; omega
    | ⟨2, _⟩ => show win0_4.index t (2 : Fin 3) * 1 ≤ (i 2 : Nat) ∧ (i 2 : Nat) < win0_4.index t (2 : Fin 3) * 1 + 1; omega

end Region0

/-! ## The total over an [a, 1, 1] column -/

/-- An [a, 1, 1] index is its first coordinate. -/
def idxEquiv_a11 {a : ℕ} : (⟨3, ![a, 1, 1]⟩ : Shape).Idx ≃ Fin a where
  toFun i := i 0
  invFun r := ix3 r (0 : Fin 1) (0 : Fin 1)
  left_inv i := by
    funext b
    match b with
    | ⟨0, _⟩ => rfl
    | ⟨1, _⟩ =>
      have h : (i 1).val < 1 := (i 1).isLt
      exact Fin.ext (by show (0 : ℕ) = (i 1).val; omega)
    | ⟨2, _⟩ =>
      have h : (i 2).val < 1 := (i 2).isLt
      exact Fin.ext (by show (0 : ℕ) = (i 2).val; omega)
  right_inv _ := rfl

/-- So a sum over such indices is the sum over the first coordinate. -/
theorem sum_idx_a11 {M : Type*} [AddCommMonoid M] {a : ℕ} (f : (⟨3, ![a, 1, 1]⟩ : Shape).Idx → M) :
    ∑ i, f i = ∑ r : Fin a, f (ix3 r (0 : Fin 1) (0 : Fin 1)) := by
  rw [← Equiv.sum_comp (idxEquiv_a11 (a := a)).symm f]
  rfl

/-! ## The host operations after the loss kernel -/

/-- Whatever the buffers hold when the loss kernel has finished, the four host operations that follow leave in the
    scalar result the total of the [18, 1, 1] array of per-step sums, from the zero word, over the word of −36864. -/
theorem hostTail_loss (W : Valuation τ sig (Elt Ideal)) :
    (StableHlo.after (hostOps1 (F := Ideal)) W (Proc.devRef .tc main_v6) : S_.Idx → EReal)
      = fun _ => Ideal.div (∑ T : Fin 18, (W (Proc.devRef .tc main_v4) : S18x1x1.Idx → EReal) (ix3 T 0 0)) Cert.CpcSpec.wNegCount := by
  after_results
  funext j
  show Ideal.div (Ideal.hostReduceAdd reducesTo_S18x1x1_S_d0_1_2 (W (Proc.devRef .tc main_v4) : S18x1x1.Idx → EReal)
      (Ideal.ofBits .f32 0x00000000#32) j) (Ideal.ofBits .f32 0xC7100000#32) = _
  rw [Ideal.hostReduceAdd_total reducesTo_S18x1x1_S_d0_1_2 (fun b => b.elim0), Ideal.ofBits_zero_f32, zero_add, sum_idx_a11]

section Tail
variable (m : (ℓ : Loc nD τ sig) → Buf (Elt Ideal) ℓ) (ρ : Dev nD → PrngReg)

/-- The scalar loss after the second host stretch: the total of the result array the loss kernel left, over the word of −36864. -/
theorem loss_tail (c : Dev nD) :
    (W3 m ρ c (Proc.devRef .tc main_v6) : S_.Idx → EReal)
      = fun _ => Ideal.div (∑ T : Fin 18, (W2 m ρ c (Proc.devRef .tc main_v4) : S18x1x1.Idx → EReal) (ix3 T 0 0)) Cert.CpcSpec.wNegCount :=
  hostTail_loss (W2 m ρ c)

/-- The same with the result array read: entry T is what the last block of time step T stored. -/
theorem loss_tail_outs (c : Dev nD) :
    (W3 m ρ c (Proc.devRef .tc main_v6) : S_.Idx → EReal)
      = fun _ => Ideal.div (∑ T : Fin 18, (outsAt0 (V1 m ρ) c (8 * T.val + 7) (lastBlock_lt T)).1 (ix3 0 0 0)) Cert.CpcSpec.wNegCount := by
  rw [loss_tail, W2_main_v4, final0]
  rfl

end Tail

end Cert.KernelIdeal.Gen

end
-- ==== Proof.KI.R0Pieces.lean ====
/-
  What the three shapes of grid point leave, as plain terms of what they load. A step's first block leaves the prediction of
  the loaded inputs in the prediction scratch, and in the accumulator scratch the zero plus the block's sum over that very
  prediction; a later block leaves the accumulator it found plus the block's sum over the prediction scratch it found; the
  last block also leaves the new accumulator in the output's staging buffer.
-/
import proofs.«138056_j16037407883274_2_alg».proof.Proof.KI.R0Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The first block's prediction scratch: the prediction of the loaded inputs. -/
theorem sout0_A_0_eq (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) :
    sout0_A_0 c i arg2 harg2 arg3 harg3 arg4 harg4 arg5 harg5 arg6 harg6 arg7 harg7 arg8 harg8 hc0 hc1 x0 x1 x2 x3 = k0_pay3 x0 x1 x2 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero hz2]
  simp only [View.readAt_eq_ld, harg2.read_unread, harg3.read_unread, harg4.read_unread, harg5.read_unread, harg7.read_unread, harg8.read_unread,
    View.ld_unit_zero (S := S2048x4096) hz2, View.ld_unit_zero (S := S1x128x4096) hz3, View.ld_unit_zero (S := S1x1x128) hz3,
    View.ld_unit_zero (S := S1x256x128) hz3, View.ld_unit_zero (S := S2048x128) hz2, View.ld_unit_zero (S := S1x1) hz2]

/-- The first block's accumulator scratch: the zero plus the block's sum, over the prediction just stored. -/
theorem sout0_A_1_eq (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : cond0_0 i) (hc1 : ¬cond0_1 i) (x0 : Vec F S2048x4096 .bf16) (x1 : Vec F S1x128x4096 .f32) (x2 : Vec F S1x1x128 .f32) (x3 : Vec F S1x256x128 .bf16) :
    sout0_A_1 c i arg2 harg2 arg3 harg3 arg4 harg4 arg5 harg5 arg6 harg6 arg7 harg7 arg8 harg8 hc0 hc1 x0 x1 x2 x3 = k0_pay1 (k0_pay5 i x3 (k0_pay3 x0 x1 x2) k0_pay4) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S2048x128) _ hz2, View.readCov_unit_zero (S := S1x1) _ hz2]
  simp only [View.readAt_eq_ld, harg2.read_unread, harg3.read_unread, harg4.read_unread, harg5.read_unread, harg7.read_unread, harg8.read_unread,
    View.ld_unit_zero (S := S2048x4096) hz2, View.ld_unit_zero (S := S1x128x4096) hz3, View.ld_unit_zero (S := S1x1x128) hz3,
    View.ld_unit_zero (S := S1x256x128) hz3, View.ld_unit_zero (S := S2048x128) hz2, View.ld_unit_zero (S := S1x1) hz2]

/-- A middle block's accumulator scratch: the accumulator found plus the block's sum, over the prediction found. -/
theorem sout0_B_1_eq (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : ¬cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) :
    sout0_B_1 c i arg2 harg2 arg3 harg3 arg4 harg4 arg5 harg5 arg6 harg6 arg7 harg7 arg8 harg8 hc0 hc1 x0 x1 x2 x3 xs0 xs1 = k0_pay1 (k0_pay5 i x3 xs0 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz2]
  simp only [View.readAt_eq_ld, harg2.read_unread, harg3.read_unread, harg4.read_unread, harg5.read_unread, harg7.read_unread, harg8.read_unread,
    View.ld_unit_zero (S := S2048x4096) hz2, View.ld_unit_zero (S := S1x128x4096) hz3, View.ld_unit_zero (S := S1x1x128) hz3,
    View.ld_unit_zero (S := S1x256x128) hz3, View.ld_unit_zero (S := S2048x128) hz2, View.ld_unit_zero (S := S1x1) hz2]

/-- The last block's accumulator scratch: as a middle block's. -/
theorem sout0_C_1_eq (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) :
    sout0_C_1 c i arg2 harg2 arg3 harg3 arg4 harg4 arg5 harg5 arg6 harg6 arg7 harg7 arg8 harg8 hc0 hc1 x0 x1 x2 x3 xs0 xs1 = k0_pay1 (k0_pay5 i x3 xs0 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread, harg8.read_unread,
    View.ld_unit_zero (S := S2048x4096) hz2, View.ld_unit_zero (S := S1x128x4096) hz3, View.ld_unit_zero (S := S1x1x128) hz3,
    View.ld_unit_zero (S := S1x256x128) hz3, View.ld_unit_zero (S := S2048x128) hz2, View.ld_unit_zero (S := S1x1) hz2]

/-- The last block's output: the new accumulator. -/
theorem out0_C_4_eq (c : Dev nD) (i : grid0.Coords) (arg2 : Memref sig .tc .vmem S2048x4096 .bf16) (harg2 : arg2.IsWhole) (arg3 : Memref sig .tc .vmem S1x128x4096 .f32) (harg3 : arg3.IsWhole) (arg4 : Memref sig .tc .vmem S1x1x128 .f32) (harg4 : arg4.IsWhole) (arg5 : Memref sig .tc .vmem S1x256x128 .bf16) (harg5 : arg5.IsWhole) (arg6 : Memref sig .tc .vmem S1x1x1 .f32) (harg6 : arg6.IsWhole) (arg7 : Memref sig .tc .vmem S2048x128 .f32) (harg7 : arg7.IsWhole) (arg8 : Memref sig .tc .vmem S1x1 .f32) (harg8 : arg8.IsWhole) (hc0 : ¬cond0_0 i) (hc1 : cond0_1 i) (x0 : Vec F S2048x4096 .bf16) (x1 : Vec F S1x128x4096 .f32) (x2 : Vec F S1x1x128 .f32) (x3 : Vec F S1x256x128 .bf16) (xs0 : Vec F S2048x128 .f32) (xs1 : Vec F S1x1 .f32) :
    out0_C_4 c i arg2 harg2 arg3 harg3 arg4 harg4 arg5 harg5 arg6 harg6 arg7 harg7 arg8 harg8 hc0 hc1 x0 x1 x2 x3 xs0 xs1 = k0_pay2 (k0_pay1 (k0_pay5 i x3 xs0 xs1)) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg7.read_unread, harg8.read_unread,
    View.ld_unit_zero (S := S2048x4096) hz2, View.ld_unit_zero (S := S1x128x4096) hz3, View.ld_unit_zero (S := S1x1x128) hz3,
    View.ld_unit_zero (S := S1x256x128) hz3, View.ld_unit_zero (S := S2048x128) hz2, View.ld_unit_zero (S := S1x1) hz2]

end Cert.KernelIdeal.Gen

end
-- ==== Proof.KI.R0Blocks.lean ====
/-
  The loss kernel's input blocks, read off the arrays the region finds. The grid is 18 time steps by 8 blocks of 256 query
  rows, the block index innermost, so point t is time step t / 8 and row block t % 8. An element of a window's block at a
  point sits in the window's array, on each axis, at the block index times the block's size plus its own coordinate; the
  block indices are decided once over the 144 points. Hence: the first window holds its whole [2048, 4096] array at every
  point; the second the time step's [128, 4096] slab; the third the time step's row of 128; the fourth rows
  256·(t % 8) … 256·(t % 8) + 255 of the time step's [2048, 128] slab.
-/
import proofs.«138056_j16037407883274_2_alg».proof.Proof.KI.R0Runs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Gen

open Idealize.ShloMosaic Idealize.ShloMosaic.TcCoe Idealize.ShloMosaic.Tactic
open Idealize.ShloMosaic.ValueIdx

variable {F : FTy → Type} [FloatOps F]

section Blocks
variable (V : (c : Dev nD) → (b : Ref sig .tc) → Buf (Elt F) ((c : Thread nD τ).loc b))

/-- The windows' block indices at a point of the 18 × 8 grid, the block coordinate innermost: window 0 never moves,
    windows 1 and 2 follow the time step, window 3 follows the time step and the block of query rows. -/
theorem idx_facts0 : ∀ t : Fin cfg0.N,
    win0_0.index t (0 : Fin 2) = 0 ∧ win0_0.index t (1 : Fin 2) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-- A point's time step is below 18. -/
theorem iblk0_step_lt (t : Fin cfg0.N) : t.val / 8 < 18 := by
  have h : t.val < 144 := lt_of_lt_of_eq t.isLt N_0
  omega

/-- A row of a point's block of 256 query rows is below 2048. -/
theorem iblk0_row_lt (t : Fin cfg0.N) (r : Fin 256) : 256 * (t.val % 8) + r.val < 2048 := by
  have := r.isLt; omega

/-- Window 0's block is the whole array at every point. -/
theorem iblk0_0 (c : Dev nD) (t : Fin cfg0.N) : (iblk0 V c 0 t : S2048x4096.Idx → Elt F .bf16) = V c main_v0 := by
  obtain ⟨e0, e1, -⟩ := idx_facts0 t
  funext y
  show V c main_v0 (((cfg0.win 0).blk t).view.emb y) = V c main_v0 y
  refine congrArg _ (funext fun a => Fin.ext ?_)
  match a with
  | ⟨0, _⟩ => show win0_0.index t (0 : Fin 2) * 2048 + 1 * (y 0).val = (y 0).val; omega
  | ⟨1, _⟩ => show win0_0.index t (1 : Fin 2) * 4096 + 1 * (y 1).val = (y 1).val; omega

/-- Window 1's block is the time step's [128, 4096] slab. -/
theorem iblk0_1 (c : Dev nD) (t : Fin cfg0.N) (cc : Fin 128) (d : Fin 4096) :
    (iblk0 V c 1 t : S1x128x4096.Idx → Elt F .f32) (ix3 0 cc d)
      = (V c main_arg2 : S18x128x4096.Idx → Elt F .f32) (ix3 ⟨t.val / 8, iblk0_step_lt t⟩ cc d) := by
  obtain ⟨-, -, e0, e1, e2, -⟩ := idx_facts0 t
  show V c main_arg2 (((cfg0.win 1).blk t).view.emb (ix3 0 cc d)) = V c main_arg2 _
  refine congrArg _ (funext fun a => Fin.ext ?_)
  match a with
  | ⟨0, _⟩ => show win0_1.index t (0 : Fin 3) * 1 + 1 * 0 = t.val / 8; omega
  | ⟨1, _⟩ => show win0_1.index t (1 : Fin 3) * 128 + 1 * cc.val = cc.val; omega
  | ⟨2, _⟩ => show win0_1.index t (2 : Fin 3) * 4096 + 1 * d.val = d.val; omega

/-- Window 2's block is the time step's row of 128. -/
theorem iblk0_2 (c : Dev nD) (t : Fin cfg0.N) (cc : Fin 128) :
    (iblk0 V c 2 t : S1x1x128.Idx → Elt F .f32) (ix3 0 0 cc)
      = (V c main_v3 : S18x1x128.Idx → Elt F .f32) (ix3 ⟨t.val / 8, iblk0_step_lt t⟩ 0 cc) := by
  obtain ⟨-, -, -, -, -, e0, e1, e2, -⟩ := idx_facts0 t
  show V c main_v3 (((cfg0.win 2).blk t).view.emb (ix3 0 0 cc)) = V c main_v3 _
  refine congrArg _ (funext fun a => Fin.ext ?_)
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 128 + 1 * cc.val = cc.val; omega

/-- Window 3's block is the time step's rows 256·(block) … 256·(block) + 255. -/
theorem iblk0_3 (c : Dev nD) (t : Fin cfg0.N) (r : Fin 256) (cc : Fin 128) :
    (iblk0 V c 3 t : S1x256x128.Idx → Elt F .bf16) (ix3 0 r cc)
      = (V c main_v2 : S18x2048x128.Idx → Elt F .bf16) (ix3 ⟨t.val / 8, iblk0_step_lt t⟩ ⟨256 * (t.val % 8) + r.val, iblk0_row_lt t r⟩ cc) := by
  obtain ⟨-, -, -, -, -, -, -, -, e0, e1, e2⟩ := idx_facts0 t
  show V c main_v2 (((cfg0.win 3).blk t).view.emb (ix3 0 r cc)) = V c main_v2 _
  refine congrArg _ (funext fun a => Fin.ext ?_)
  match a with
  | ⟨0, _⟩ => show win0_3.index t (0 : Fin 3) * 1 + 1 * 0 = t.val / 8; omega
  | ⟨1, _⟩ => show win0_3.index t (1 : Fin 3) * 256 + 1 * r.val = 256 * (t.val % 8) + r.val; omega
  | ⟨2, _⟩ => show win0_3.index t (2 : Fin 3) * 128 + 1 * cc.val = cc.val; omega

end Blocks

end Cert.KernelIdeal.Gen

end
-- ==== Proof.KI.Pay0Value.lean ====
/-
  The payloads of the first kernel region read at an index, over the extended reals: the stored accumulator is the loaded
  one; the prediction block is a [2048,4096] × [128,4096]ᵀ product plus a broadcast bias row; the accumulator starts
  from zero; the final store re-reads the [1,1] accumulator as a [1,1,1] block.
-/
import proofs.«138056_j16037407883274_2_alg».proof.Proof.Gen.KernelIdeal.Skeleton
import proofs.«138056_j16037407883274_2_alg».proof.Proof.CpcSpec
import Idealize.ShloMosaic.Lib.ValueLayout
import Idealize.ShloMosaic.PureOps.Ideal.Laws

noncomputable section

open scoped BigOperators
open Idealize.ShloMosaic Idealize.ShloMosaic.ValueIdx Idealize.SL.Sem

namespace Cert.KernelIdeal.PayValue

open Cert.KernelIdeal Cert.KernelIdeal.Gen

theorem dotPred_lhs0 (i : S2048x128.Idx) (q : dot_S2048x4096_S128x4096_S2048x128_1_1_0_0_n_n.contr.Idx) : (dot_S2048x4096_S128x4096_S2048x128_1_1_0_0_n_n.lhsIdx i q 0).val = (i 0).val := by
  unfold DotDims.lhsIdx
  rw [dif_neg (show ¬(0 : Fin S2048x4096.rank) ∈ dot_S2048x4096_S128x4096_S2048x128_1_1_0_0_n_n.lhsBatch by decide), dif_pos (show (0 : Fin S2048x4096.rank) ∈ dot_S2048x4096_S128x4096_S2048x128_1_1_0_0_n_n.lhsNonContracting by decide)]
  rfl
theorem dotPred_lhs1 (i : S2048x128.Idx) (q : dot_S2048x4096_S128x4096_S2048x128_1_1_0_0_n_n.contr.Idx) : (dot_S2048x4096_S128x4096_S2048x128_1_1_0_0_n_n.lhsIdx i q 1).val = (q ⟨0, by decide⟩).val :=
  dot_S2048x4096_S128x4096_S2048x128_1_1_0_0_n_n.lhsIdx_val_of_single rfl i q
theorem dotPred_rhs0 (i : S2048x128.Idx) (q : dot_S2048x4096_S128x4096_S2048x128_1_1_0_0_n_n.contr.Idx) : (dot_S2048x4096_S128x4096_S2048x128_1_1_0_0_n_n.rhsIdx i q 0).val = (i 1).val := by
  unfold DotDims.rhsIdx
  rw [dif_neg (show ¬(0 : Fin S128x4096.rank) ∈ dot_S2048x4096_S128x4096_S2048x128_1_1_0_0_n_n.rhsBatch by decide), dif_pos (show (0 : Fin S128x4096.rank) ∈ dot_S2048x4096_S128x4096_S2048x128_1_1_0_0_n_n.rhsNonContracting by decide)]
  rfl
theorem dotPred_rhs1 (i : S2048x128.Idx) (q : dot_S2048x4096_S128x4096_S2048x128_1_1_0_0_n_n.contr.Idx) : (dot_S2048x4096_S128x4096_S2048x128_1_1_0_0_n_n.rhsIdx i q 1).val = (q ⟨0, by decide⟩).val :=
  dot_S2048x4096_S128x4096_S2048x128_1_1_0_0_n_n.rhsIdx_val_of_single rfl i q

/-- A [2048,4096] × [128,4096]ᵀ product into the zero accumulator, read at (b, c): the sum over the shared axis. -/
theorem matmulT_pred_apply (x : FVec Ideal S2048x4096 .bf16) (y : FVec Ideal S128x4096 .bf16) (b : Fin 2048) (c : Fin 128) :
    matmul dot_S2048x4096_S128x4096_S2048x128_1_1_0_0_n_n none x y (constant (F := Ideal) S2048x128 .f32 0x00000000#32) (ix2 b c)
      = ∑ d : Fin 4096, x (ix2 b d) * y (ix2 c d) := by
  simp only [matmul]
  rw [Ideal.matmul_constant_zero_apply, ← Equiv.sum_comp (contrEquiv1 dot_S2048x4096_S128x4096_S2048x128_1_1_0_0_n_n 4096 rfl rfl).symm]
  refine Finset.sum_congr rfl fun k _ => ?_
  have hk := contrEquiv1_symm_val dot_S2048x4096_S128x4096_S2048x128_1_1_0_0_n_n 4096 rfl rfl k
  have el : dot_S2048x4096_S128x4096_S2048x128_1_1_0_0_n_n.lhsIdx (ix2 b c) ((contrEquiv1 dot_S2048x4096_S128x4096_S2048x128_1_1_0_0_n_n 4096 rfl rfl).symm k) = ix2 b k :=
    funext fun a => Fin.ext (by
      match a with
      | ⟨0, _⟩ => exact dotPred_lhs0 _ _
      | ⟨1, _⟩ => exact (dotPred_lhs1 _ _).trans hk)
  have er : dot_S2048x4096_S128x4096_S2048x128_1_1_0_0_n_n.rhsIdx (ix2 b c) ((contrEquiv1 dot_S2048x4096_S128x4096_S2048x128_1_1_0_0_n_n 4096 rfl rfl).symm k) = ix2 c k :=
    funext fun a => Fin.ext (by
      match a with
      | ⟨0, _⟩ => exact dotPred_rhs0 _ _
      | ⟨1, _⟩ => exact (dotPred_rhs1 _ _).trans hk)
  rw [el, er]

/-- A [1,1,c] array cast to [c] reads, at k, the operand at (0, 0, k). -/
theorem shapeCast_11c_c_apply {α : Type} {n : ℕ} (x : (⟨3, ![1, 1, n]⟩ : Shape).Idx → α)
    (h : (⟨3, ![1, 1, n]⟩ : Shape).ShapeCasts ⟨1, ![n]⟩) (k : Fin n) :
    shapeCast ⟨1, ![n]⟩ x h (ix1 k) = x (ix3 (0 : Fin 1) (0 : Fin 1) k) :=
  shapeCast_apply x h _ _ (by
    rw [Shape.rowMajor_val_three, Shape.rowMajor_val_one]
    show (0 * 1 + 0) * n + k.val = k.val
    simp)

/-- the prediction block: a [2048,4096]×[128,4096]ᵀ product into a zero accumulator plus a broadcast row -/
theorem pay3_apply (v43 : Vec Ideal S2048x4096 .bf16) (v45 : Vec Ideal S1x128x4096 .f32) (v48 : Vec Ideal S1x1x128 .f32)
    (b : Fin 2048) (c : Fin 128) :
    k0_pay3 (F := Ideal) v43 v45 v48 (ix2 b c)
      = (∑ d : Fin 4096, v43 (ix2 b d) * v45 (ix3 0 c d)) + v48 (ix3 0 0 c) := by
  unfold k0_pay3
  simp only [shapeCast_self]
  rw [addf_apply, matmulT_pred_apply, broadcastTo_1b_ab_apply, shapeCast_a_1a_apply, shapeCast_11c_c_apply]
  refine congrArg (· + _) (Finset.sum_congr rfl fun d _ => ?_)
  rw [truncf_apply, shapeCast_1ab_ab_apply]

/-- the zero the accumulator starts from -/
theorem pay4_apply : k0_pay4 (F := Ideal) (ix2 0 0) = 0 := by
  unfold k0_pay4
  simp only [shapeCast_self]
  exact Ideal.ofBits_zero_f32

theorem pay1_eq (v36 : FVec Ideal S1x1 .f32) : k0_pay1 (F := Ideal) v36 = v36 := by
  unfold k0_pay1
  exact shapeCast_self _ _

theorem pay2_apply (v43 : Vec Ideal S1x1 .f32) : k0_pay2 (F := Ideal) v43 (ix3 0 0 0) = v43 (ix2 0 0) := by
  unfold k0_pay2
  exact shapeCast_ab_1ab_apply _ _ _ _ _

end Cert.KernelIdeal.PayValue

end
-- ==== Proof.KI.Pay5Value.lean ====
/-
  One block of 256 query rows of the contrastive loss, read at the accumulator's one index, over the extended reals.
  The block's scores are T r k = Σ_c q[r,c] · p[k,c] (256 rows against all 2048 keys); per row the body takes the maximum
  M r of the row from −∞, the logarithm L r of the row's sum of exp (T r k − M r), and the entry of the row on the block's
  diagonal, column 256·i₁ + r, picked out as the row's sum of the scores masked to that one column (adding zeros changes
  no extended real). The stored value is the loaded accumulator plus Σ_r ((T r (256·i₁ + r) − M r) − L r).
-/
import proofs.«138056_j16037407883274_2_alg».proof.Proof.Gen.KernelIdeal.Skeleton
import proofs.«138056_j16037407883274_2_alg».proof.Proof.CpcSpec
import Idealize.ShloMosaic.Lib.ValueLayout
import Idealize.ShloMosaic.PureOps.Ideal.Laws

noncomputable section

open scoped BigOperators
open Idealize.ShloMosaic Idealize.ShloMosaic.ValueIdx Idealize.SL.Sem

namespace Cert.KernelIdeal.PayValue

open Cert.KernelIdeal Cert.KernelIdeal.Gen

theorem dotScore_lhs0 (i : S256x2048.Idx) (q : dot_S256x128_S2048x128_S256x2048_1_1_0_0_n_n.contr.Idx) : (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem dotScore_lhs1 (i : S256x2048.Idx) (q : dot_S256x128_S2048x128_S256x2048_1_1_0_0_n_n.contr.Idx) : (dot_S256x128_S2048x128_S256x2048_1_1_0_0_n_n.lhsIdx i q 1).val = (q ⟨0, by decide⟩).val :=
  dot_S256x128_S2048x128_S256x2048_1_1_0_0_n_n.lhsIdx_val_of_single rfl i q
theorem dotScore_rhs0 (i : S256x2048.Idx) (q : dot_S256x128_S2048x128_S256x2048_1_1_0_0_n_n.contr.Idx) : (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem dotScore_rhs1 (i : S256x2048.Idx) (q : dot_S256x128_S2048x128_S256x2048_1_1_0_0_n_n.contr.Idx) : (dot_S256x128_S2048x128_S256x2048_1_1_0_0_n_n.rhsIdx i q 1).val = (q ⟨0, by decide⟩).val :=
  dot_S256x128_S2048x128_S256x2048_1_1_0_0_n_n.rhsIdx_val_of_single rfl i q

/-- A [256,128] × [2048,128]ᵀ product into the zero accumulator, read at (r, k): the sum over the shared axis. -/
theorem matmulT_score_apply (x : FVec Ideal S256x128 .bf16) (y : FVec Ideal S2048x128 .bf16) (r : Fin 256) (k : Fin 2048) :
    matmul dot_S256x128_S2048x128_S256x2048_1_1_0_0_n_n none x y (constant (F := Ideal) S256x2048 .f32 0x00000000#32) (ix2 r k)
      = ∑ c : Fin 128, x (ix2 r c) * y (ix2 k c) := by
  simp only [matmul]
  rw [Ideal.matmul_constant_zero_apply, ← Equiv.sum_comp (contrEquiv1 dot_S256x128_S2048x128_S256x2048_1_1_0_0_n_n 128 rfl rfl).symm]
  refine Finset.sum_congr rfl fun c _ => ?_
  have hc := contrEquiv1_symm_val dot_S256x128_S2048x128_S256x2048_1_1_0_0_n_n 128 rfl rfl c
  have el : dot_S256x128_S2048x128_S256x2048_1_1_0_0_n_n.lhsIdx (ix2 r k) ((contrEquiv1 dot_S256x128_S2048x128_S256x2048_1_1_0_0_n_n 128 rfl rfl).symm c) = ix2 r c :=
    funext fun a => Fin.ext (by
      match a with
      | ⟨0, _⟩ => exact dotScore_lhs0 _ _
      | ⟨1, _⟩ => exact (dotScore_lhs1 _ _).trans hc)
  have er : dot_S256x128_S2048x128_S256x2048_1_1_0_0_n_n.rhsIdx (ix2 r k) ((contrEquiv1 dot_S256x128_S2048x128_S256x2048_1_1_0_0_n_n 128 rfl rfl).symm c) = ix2 k c :=
    funext fun a => Fin.ext (by
      match a with
      | ⟨0, _⟩ => exact dotScore_rhs0 _ _
      | ⟨1, _⟩ => exact (dotScore_rhs1 _ _).trans hc)
  rw [el, er]

/-! ## Keepdims column forms -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## Lane reductions over the second axis of a [256, 2048] block -/

/-- The index a lane reduction over the second axis inserts coordinate k at. -/
theorem lift_row (r : Fin 256) (k : Fin 2048) : reduces_S256x2048_S256.lift (ix1 r) k = ix2 r k :=
  funext fun a => Fin.ext (by
    match a with
    | ⟨0, _⟩ => rfl
    | ⟨1, _⟩ => rfl)

/-- The word of −∞. -/
theorem ofBits_negInf : Ideal.ofBits .f32 0xFF800000#32 = ⊥ := by simp [Ideal.ofBits, Ideal.ieee]

/-- The lane maximum from −∞ at row r is the fold of max over the row. -/
theorem rowMax_apply (v : FVec Ideal S256x2048 .f32) (hφ : FKind.Formats .f32)
    (hacc : (0xFF800000#32 : BitVec 32) = 0xFF800000#32) (r : Fin 256) :
    multiReduction (F := Ideal) .maximumf [1] S256 v 0xFF800000#32 reduces_S256x2048_S256 hφ hacc (ix1 r)
      = (Finset.univ : Finset (Fin 2048)).fold max ⊥ (fun k => v (ix2 r k)) := by
  refine (Ideal.multiReduction_maximumf_single v _ reduces_S256x2048_S256 hφ hacc (ix1 r)).trans ?_
  show (Finset.univ : Finset (Fin 2048)).fold max (Ideal.ofBits .f32 0xFF800000#32) (fun k => v (reduces_S256x2048_S256.lift (ix1 r) k)) = _
  rw [ofBits_negInf]
  exact congrArg (fun f : Fin 2048 → EReal => (Finset.univ : Finset (Fin 2048)).fold max ⊥ f) (funext fun k => congrArg v (lift_row r k))

/-- The lane sum at row r is the sum over the row. -/
theorem rowSum_apply (v : FVec Ideal S256x2048 .f32) (hφ : FKind.Formats .f32)
    (hacc : (0x00000000#32 : BitVec 32) = 0x00000000#32) (r : Fin 256) :
    multiReduction (F := Ideal) .add [1] S256 v 0x00000000#32 reduces_S256x2048_S256 hφ hacc (ix1 r)
      = ∑ k : Fin 2048, v (ix2 r k) := by
  refine (Ideal.multiReduction_add_single v _ reduces_S256x2048_S256 hφ hacc (ix1 r)).trans ?_
  show ∑ k : Fin 2048, v (reduces_S256x2048_S256.lift (ix1 r) k) = _
  exact Finset.sum_congr rfl fun k _ => congrArg v (lift_row r k)

/-! ## The diagonal mask -/

theorem ofNat32_eq_iff {m n : ℕ} (hm : m < 2 ^ 32) (hn : n < 2 ^ 32) : BitVec.ofNat 32 m = BitVec.ofNat 32 n ↔ m = n := by
  constructor
  · intro h
    have h' := congrArg BitVec.toNat h
    simp only [BitVec.toNat_ofNat] at h'
    rwa [Nat.mod_eq_of_lt hm, Nat.mod_eq_of_lt hn] at h'
  · rintro rfl; rfl

/-- Column k equals row r plus the block's offset 256·i₁ exactly on the block's diagonal. -/
theorem diagMask_apply (i1 : ℕ) (hi : i1 < 8) (r : Fin 256) (k : Fin 2048) :
    cmpi .eq (iota .tc S256x2048 32 [1] iota_S256x2048_d1_w32)
        (addi (iota .tc S256x2048 32 [0] iota_S256x2048_d0_w32)
          (broadcast S256x2048 (Scalar.muli (BitVec.ofNat 32 i1) 256#32))) (ix2 r k)
      = if k.val = 256 * i1 + r.val then 1#1 else 0#1 := by
  show IntOp.cmpi .eq (iota .tc S256x2048 32 [1] iota_S256x2048_d1_w32 (ix2 r k))
      (IntOp.addi (iota .tc S256x2048 32 [0] iota_S256x2048_d0_w32 (ix2 r k)) (IntOp.muli (BitVec.ofNat 32 i1) 256#32)) = _
  rw [iota_single_apply, iota_single_apply]
  show BitVec.ofBool (BitVec.ofNat 32 k.val == BitVec.ofNat 32 r.val + BitVec.ofNat 32 i1 * 256#32) = _
  have e : BitVec.ofNat 32 r.val + BitVec.ofNat 32 i1 * 256#32 = BitVec.ofNat 32 (256 * i1 + r.val) := by
    apply BitVec.eq_of_toNat_eq
    simp only [BitVec.toNat_add, BitVec.toNat_mul, BitVec.toNat_ofNat]
    have := r.isLt
    omega
  rw [e]
  have hr := r.isLt
  have hk := k.isLt
  by_cases h : k.val = 256 * i1 + r.val
  · rw [if_pos h, h, beq_self_eq_true]; rfl
  · rw [if_neg h]
    have hne : ¬ BitVec.ofNat 32 k.val = BitVec.ofNat 32 (256 * i1 + r.val) :=
      fun hh => h ((ofNat32_eq_iff (by omega) (by omega)).mp hh)
    rw [beq_eq_false_iff_ne.mpr hne]; rfl

/-- A row's sum of a function masked to one column is the function there. -/
theorem sum_select_single (f : Fin 2048 → EReal) (m : ℕ) (hm : m < 2048) :
    ∑ k : Fin 2048, Scalar.select (if k.val = m then 1#1 else 0#1) (f k) (0 : EReal) = f ⟨m, hm⟩ := by
  rw [Finset.sum_eq_single_of_mem (⟨m, hm⟩ : Fin 2048) (Finset.mem_univ _)]
  · rw [if_pos rfl, select_one]
  · intro k _ hk
    rw [if_neg (fun h => hk (Fin.ext h)), select_zero]

/-! ## The body's arithmetic, by stages -/

/-- A logarithm at an index is the logarithm of the element. -/
theorem log_apply {s : Shape} {φ : FTy} (a : FVec Ideal s φ) (i : s.Idx) : log a i = Ideal.log (a i) := rfl
/-- An exponential at an index is the exponential of the element. -/
theorem exp_apply {s : Shape} {φ : FTy} (a : FVec Ideal s φ) (i : s.Idx) : exp a i = Ideal.exp (a i) := rfl

/-- The block of scores: 256 query rows against all 2048 keys. -/
def scoreVec (v3 : Vec Ideal S1x256x128 .bf16) (v6 : Vec Ideal S2048x128 .f32) : FVec Ideal S256x2048 .f32 :=
  have v4 : FVec Ideal S1x256x128 .bf16 := shapeCast S1x256x128 v3 shapeCasts_S1x256x128_S1x256x128
  have v5 : FVec Ideal S256x128 .bf16 := shapeCast S256x128 v4 shapeCasts_S1x256x128_S256x128
  have v7 : FVec Ideal S2048x128 .bf16 := truncf .bf16 v6 bitsLt_bf16_f32
  have cst : FVec Ideal S256x2048 .f32 := constant S256x2048 .f32 0x00000000#32
  matmul dot_S256x128_S2048x128_S256x2048_1_1_0_0_n_n none v5 v7 cst

/-- From a block of scores and the block's row offset as a word: per row, the entry on the block's diagonal minus the
    row's maximum minus the logarithm of the row's sum of shifted exponentials, as a [256, 1] column. -/
def rowTerm (v8 : FVec Ideal S256x2048 .f32) (w : BitVec 32) : FVec Ideal S256x1 .f32 :=
  have v9 : FVec Ideal S256 .f32 := multiReduction .maximumf [1] S256 v8 0xFF800000#32 reduces_S256x2048_S256 (.inl rfl) rfl
  have v10 : FVec Ideal S256x1 .f32 := shapeCast S256x1 v9 shapeCasts_S256_S256x1
  have v11 : FVec Ideal S256x2048 .f32 := broadcastTo S256x2048 v10 broadcasts_S256x1_S256x2048
  have v12 : FVec Ideal S256x2048 .f32 := subf v8 v11
  have v13 : FVec Ideal S256x2048 .f32 := exp v12
  have v14 : FVec Ideal S256 .f32 := multiReduction .add [1] S256 v13 0x00000000#32 reduces_S256x2048_S256 (.inl rfl) rfl
  have v15 : FVec Ideal S256x1 .f32 := shapeCast S256x1 v14 shapeCasts_S256_S256x1
  have v16 : FVec Ideal S256x1 .f32 := log v15
  have v19 : IVec S256x2048 32 := iota .tc S256x2048 32 [0] iota_S256x2048_d0_w32
  have v20 : IVec S256x2048 32 := iota .tc S256x2048 32 [1] iota_S256x2048_d1_w32
  have v21 : IVec S256x2048 32 := broadcast S256x2048 w
  have v22 : IVec S256x2048 32 := addi v19 v21
  have v23 : IVec S256x2048 1 := cmpi .eq v20 v22
  have cst_7 : Ideal .f32 := Scalar.ofBits .f32 0x00000000#32
  have v24 : FVec Ideal S256x2048 .f32 := broadcast S256x2048 cst_7
  have v25 : FVec Ideal S256x2048 .f32 := select v23 v8 v24
  have v26 : FVec Ideal S256 .f32 := multiReduction .add [1] S256 v25 0x00000000#32 reduces_S256x2048_S256 (.inl rfl) rfl
  have v27 : FVec Ideal S256x1 .f32 := shapeCast S256x1 v26 shapeCasts_S256_S256x1
  have v28 : FVec Ideal S256x1 .f32 := subf v27 v10
  have v29 : FVec Ideal S256x1 .f32 := subf v28 v16
  v29

/-- The payload is the loaded accumulator plus the total of the rows' column. -/
theorem pay5_unfold (i : grid0.Coords) (v3 : Vec Ideal S1x256x128 .bf16) (v6 : Vec Ideal S2048x128 .f32) (v35 : Vec Ideal S1x1 .f32) :
    k0_pay5 (F := Ideal) i v3 v6 v35
      = addf v35 (broadcast S1x1 (extractAt ![0, 0, 0]
          (shapeCast S1x1x1 (multiReduction (F := Ideal) .add [1, 2] S1
            (shapeCast S1x256x1 (rowTerm (scoreVec v3 v6) (Scalar.muli (BitVec.ofNat 32 (i 1).val) 256#32)) shapeCasts_S256x1_S1x256x1)
            0x00000000#32 reduces_S1x256x1_S1 (.inl rfl) rfl) shapeCasts_S1_S1x1x1) inpos_S1x1x1_p0_0_0)) := rfl

/-! ## The block's scores, row maxima and log-sums -/

/-- The block's scores, [256, 2048]: query row r against key k. -/
def blockTotal (v3 : Vec Ideal S1x256x128 .bf16) (v6 : Vec Ideal S2048x128 .f32) (r : Fin 256) (k : Fin 2048) : EReal :=
  ∑ c : Fin 128, v3 (ix3 0 r c) * v6 (ix2 k c)

/-- The largest score of row r, as a fold of max from −∞. -/
def blockRowMax (v3 : Vec Ideal S1x256x128 .bf16) (v6 : Vec Ideal S2048x128 .f32) (r : Fin 256) : EReal :=
  (Finset.univ : Finset (Fin 2048)).fold max ⊥ (fun k => blockTotal v3 v6 r k)

/-- The logarithm of row r's sum of shifted exponentials. -/
def blockLse (v3 : Vec Ideal S1x256x128 .bf16) (v6 : Vec Ideal S2048x128 .f32) (r : Fin 256) : EReal :=
  Ideal.log (∑ k : Fin 2048, Ideal.exp (blockTotal v3 v6 r k - blockRowMax v3 v6 r))

/-- The grid's second coordinate is below 8. -/
theorem grid0_i1_lt (i : grid0.Coords) : (i 1).val < 8 := (i 1).isLt

/-- The diagonal's column of row r of block i₁ is inside the 2048 keys. -/
theorem diag_lt (i : grid0.Coords) (r : Fin 256) : 256 * (i 1).val + r.val < 2048 := by
  have h1 := grid0_i1_lt i
  have h2 := r.isLt
  omega

/-- The score vector read at (r, k). -/
theorem scoreVec_apply (v3 : Vec Ideal S1x256x128 .bf16) (v6 : Vec Ideal S2048x128 .f32) (r : Fin 256) (k : Fin 2048) :
    scoreVec v3 v6 (ix2 r k) = blockTotal v3 v6 r k := by
  unfold scoreVec blockTotal
  rw [matmulT_score_apply]
  refine Finset.sum_congr rfl fun c _ => ?_
  rw [truncf_apply, shapeCast_self, shapeCast_1ab_ab_apply]

/-- The rows' column read at (r, 0), from any block of scores. -/
theorem rowTerm_apply (v8 : FVec Ideal S256x2048 .f32) (i1 : ℕ) (hi : i1 < 8) (r : Fin 256) (u : Fin 1)
    (hlt : 256 * i1 + r.val < 2048) :
    rowTerm v8 (Scalar.muli (BitVec.ofNat 32 i1) 256#32) (ix2 r u)
      = (v8 (ix2 r ⟨256 * i1 + r.val, hlt⟩) - (Finset.univ : Finset (Fin 2048)).fold max ⊥ (fun k => v8 (ix2 r k)))
        - Ideal.log (∑ k : Fin 2048,
            Ideal.exp (v8 (ix2 r k) - (Finset.univ : Finset (Fin 2048)).fold max ⊥ (fun k' => v8 (ix2 r k')))) := by
  unfold rowTerm
  have hz : (Scalar.ofBits (F := Ideal) .f32 0x00000000#32 : EReal) = 0 := Ideal.ofBits_zero_f32
  simp only [subf_apply, log_apply, shapeCast_a_a1_apply]
  rw [rowSum_apply, rowSum_apply]
  simp only [select_apply, diagMask_apply i1 hi, broadcast_apply, hz, exp_apply, subf_apply, broadcastTo_a1_ab_apply,
    shapeCast_a_a1_apply]
  rw [rowMax_apply v8, sum_select_single (fun k => v8 (ix2 r k)) (256 * i1 + r.val) hlt]

/-! ## The total over the [1, 256, 1] column -/

/-- A [1, a, 1] index is its middle coordinate. -/
def idxEquiv_1a1 {a : ℕ} : (⟨3, ![1, a, 1]⟩ : Shape).Idx ≃ Fin a where
  toFun i := i 1
  invFun r := ix3 (0 : Fin 1) r (0 : Fin 1)
  left_inv i := by
    funext b
    match b with
    | ⟨0, _⟩ =>
      have h : (i 0).val < 1 := (i 0).isLt
      exact Fin.ext (by show (0 : ℕ) = (i 0).val; omega)
    | ⟨1, _⟩ => rfl
    | ⟨2, _⟩ =>
      have h : (i 2).val < 1 := (i 2).isLt
      exact Fin.ext (by show (0 : ℕ) = (i 2).val; omega)
  right_inv _ := rfl

/-- So a sum over such indices is the sum over the middle coordinate. -/
theorem sum_idx_1a1 {M : Type*} [AddCommMonoid M] {a : ℕ} (f : (⟨3, ![1, a, 1]⟩ : Shape).Idx → M) :
    ∑ i, f i = ∑ r : Fin a, f (ix3 (0 : Fin 1) r (0 : Fin 1)) := by
  rw [← Equiv.sum_comp (idxEquiv_1a1 (a := a)).symm f]
  rfl

/-- The [256, 1] column recast [1, 256, 1], summed over its last two axes and read out as a scalar: the sum of the
    column's entries. -/
theorem blockSum_apply (w : FVec Ideal S256x1 .f32) (hφ : FKind.Formats .f32)
    (hacc : (0x00000000#32 : BitVec 32) = 0x00000000#32) :
    extractAt ![0, 0, 0] (shapeCast S1x1x1 (multiReduction (F := Ideal) .add [1, 2] S1
        (shapeCast S1x256x1 w shapeCasts_S256x1_S1x256x1) 0x00000000#32 reduces_S1x256x1_S1 hφ hacc)
        shapeCasts_S1_S1x1x1) inpos_S1x1x1_p0_0_0
      = ∑ r : Fin 256, w (ix2 r (0 : Fin 1)) := by
  refine (Ideal.multiReduction_add_total (shapeCast S1x256x1 w shapeCasts_S256x1_S1x256x1) 0x00000000#32
    reduces_S1x256x1_S1 (by decide) hφ hacc _).trans ?_
  rw [sum_idx_1a1]
  exact Finset.sum_congr rfl fun r _ => shapeCast_ab_1ab_apply w _ 0 r 0

/-! ## The payload -/

/-- one block of 256 query rows: the accumulator plus the block's sum of diagonal log-softmax entries -/
theorem pay5_apply (i : grid0.Coords) (v3 : Vec Ideal S1x256x128 .bf16) (v6 : Vec Ideal S2048x128 .f32) (v35 : Vec Ideal S1x1 .f32) :
    k0_pay5 (F := Ideal) i v3 v6 v35 (ix2 0 0)
      = v35 (ix2 0 0) + ∑ r : Fin 256,
          ((blockTotal v3 v6 r ⟨256 * (i 1).val + r.val, diag_lt i r⟩ - blockRowMax v3 v6 r) - blockLse v3 v6 r) := by
  rw [pay5_unfold, addf_apply, broadcast_apply, blockSum_apply]
  refine congrArg (v35 (ix2 0 0) + ·) (Finset.sum_congr rfl fun r _ => ?_)
  rw [rowTerm_apply _ _ (grid0_i1_lt i) r 0 (diag_lt i r)]
  simp only [scoreVec_apply]
  rfl

end Cert.KernelIdeal.PayValue

end
-- ==== Proof.KI.R0Value.lean ====
/-
  Region 0's three buffers at every grid position, against the specification. The grid is 18 time steps by 8 blocks of 256
  query rows, the block innermost, so position n is time step n / 8 and block n % 8. After position n the prediction scratch
  holds pred (n / 8): a step's first block computes it from the step's slabs of the weights and the bias, later blocks leave
  it alone. The accumulator scratch holds the sum over the blocks 0 … n % 8 of the step, and over each block's 256 rows, of
  the diagonal log-softmax entries diag (n / 8) q: a first block starts from zero, a later block adds its own block's sum,
  the block's scores being the specification's because the query block is rows 256·(n % 8) … of the step's queries and the
  scratch holds the step's prediction. At a step's last block the output's buffer holds the new accumulator, eight blocks of
  256 rows being all 2048 rows. Sums are in the extended reals, a commutative monoid under addition: nothing is assumed finite.
-/
import proofs.«138056_j16037407883274_2_alg».proof.Proof.KI.R0Frame
import proofs.«138056_j16037407883274_2_alg».proof.Proof.KI.R0Pieces
import proofs.«138056_j16037407883274_2_alg».proof.Proof.KI.R0Blocks
import proofs.«138056_j16037407883274_2_alg».proof.Proof.KI.Pay0Value
import proofs.«138056_j16037407883274_2_alg».proof.Proof.KI.Pay5Value
import proofs.«138056_j16037407883274_2_alg».proof.Proof.CpcSpec

set_option maxRecDepth 16384

noncomputable section

open scoped BigOperators

namespace Cert.KernelIdeal.Gen

open Idealize.ShloMosaic Idealize.ShloMosaic.TcCoe Idealize.ShloMosaic.ValueIdx Idealize.SL.Sem
open Cert.CpcSpec Cert.KernelIdeal.PayValue

/-! ## One block of query rows against the specification -/

section BlockSpec
variable (z : A3 2048 128 18) (ct : A2 2048 4096) (wk : A3 18 128 4096) (wb : A2 18 128) (ts : Fin 18)
  (v3 : Vec Ideal S1x256x128 .bf16) (xs0 : Vec Ideal S2048x128 .f32) (q : Fin 256 → Fin 2048)
  (h3 : ∀ (r : Fin 256) (cc : Fin 128), v3 (ix3 0 r cc) = z (ix3 (q r) cc ts))
  (hs : ∀ (k : Fin 2048) (cc : Fin 128), xs0 (ix2 k cc) = pred ct wk wb ts k cc)
include h3 hs

/-- With the block's rows the rows q r of the step's queries and the scratch the step's prediction, the block's scores are the
    specification's. -/
theorem blockTotal_eq (r : Fin 256) (k : Fin 2048) : blockTotal v3 xs0 r k = total z ct wk wb ts (q r) k := by
  unfold blockTotal total
  exact Finset.sum_congr rfl fun cc _ => by rw [h3, hs]

/-- So are the rows' maxima … -/
theorem blockRowMax_eq (r : Fin 256) : blockRowMax v3 xs0 r = rowMax z ct wk wb ts (q r) := by
  unfold blockRowMax rowMax
  exact congrArg (fun f : Fin 2048 → EReal => (Finset.univ : Finset (Fin 2048)).fold max ⊥ f)
    (funext fun k => blockTotal_eq z ct wk wb ts v3 xs0 q h3 hs r k)

/-- … the logarithms of the rows' sums of shifted exponentials … -/
theorem blockLse_eq (r : Fin 256) : blockLse v3 xs0 r = lse z ct wk wb ts (q r) := by
  unfold blockLse lse
  rw [blockRowMax_eq z ct wk wb ts v3 xs0 q h3 hs r]
  exact congrArg Ideal.log (Finset.sum_congr rfl fun k _ => by rw [blockTotal_eq z ct wk wb ts v3 xs0 q h3 hs r k])

/-- … and the diagonal entries of the rows' log-softmax. -/
theorem blockDiag_eq (r : Fin 256) (k : Fin 2048) (hk : k = q r) :
    (blockTotal v3 xs0 r k - blockRowMax v3 xs0 r) - blockLse v3 xs0 r = diag z ct wk wb ts (q r) := by
  subst hk
  unfold diag
  rw [blockTotal_eq z ct wk wb ts v3 xs0 q h3 hs, blockRowMax_eq z ct wk wb ts v3 xs0 q h3 hs,
    blockLse_eq z ct wk wb ts v3 xs0 q h3 hs]

end BlockSpec

/-! ## Sums over the blocks of a time step -/

/-- A sum over one index is its term. -/
theorem sum_fin_first {m : ℕ} (hm : m = 0) (f : Fin (m + 1) → EReal) : ∑ j, f j = f ⟨0, Nat.succ_pos m⟩ := by
  subst hm
  exact Fin.sum_univ_one f

/-- A sum over one more index is the sum over the earlier ones plus the last term. -/
theorem sum_fin_next {a b : ℕ} (hab : b = a + 1) (f : Fin (b + 1) → EReal) :
    ∑ j, f j = (∑ j : Fin (a + 1), f ⟨j.val, by have := j.isLt; omega⟩) + f ⟨b, Nat.lt_succ_self b⟩ := by
  subst hab
  exact Fin.sum_univ_castSucc f

/-- Eight blocks of 256 rows are the 2048 rows. -/
theorem sum_blocks {m : ℕ} (hm : m = 7) (f : Fin 2048 → EReal)
    (hb : ∀ (j : Fin (m + 1)) (r : Fin 256), 256 * j.val + r.val < 2048) :
    ∑ j : Fin (m + 1), ∑ r : Fin 256, f ⟨256 * j.val + r.val, hb j r⟩ = ∑ q : Fin 2048, f q := by
  subst hm
  rw [← Fintype.sum_prod_type' (f := fun (j : Fin 8) (r : Fin 256) => f ⟨256 * j.val + r.val, hb j r⟩)]
  rw [← Equiv.sum_comp (finProdFinEquiv (m := 8) (n := 256)) f]
  refine Finset.sum_congr rfl fun x _ => congrArg f (Fin.ext ?_)
  show 256 * x.1.val + x.2.val = x.2.val + 256 * x.1.val
  omega

/-! ## The region's arrays as the specification's arguments -/

section Region0Value
variable (V : (c : Dev nD) → (b : Ref sig .tc) → Buf (Elt Ideal) ((c : Thread nD τ).loc b))

/-- The transposed copy of the queries read back in the argument's layout. -/
abbrev zV (c : Dev nD) : A3 2048 128 18 := fun i => (V c main_v2 : S18x2048x128.Idx → EReal) (ix3 (i 2) (i 0) (i 1))
/-- The context array. -/
abbrev ctV (c : Dev nD) : A2 2048 4096 := (V c main_v0 : S2048x4096.Idx → EReal)
/-- The prediction weights. -/
abbrev wkV (c : Dev nD) : A3 18 128 4096 := (V c main_arg2 : S18x128x4096.Idx → EReal)
/-- The prediction bias, recast from its [18, 1, 128] copy. -/
abbrev wbV (c : Dev nD) : A2 18 128 := fun i => (V c main_v3 : S18x1x128.Idx → EReal) (ix3 (i 0) 0 (i 1))

/-- The grid's second coordinate at point t is the block of query rows t % 8. -/
theorem coords0_1 : ∀ t : Fin cfg0.N, ((grid0.coords t) 1).val = t.val % 8 :=
  (by decide +kernel : ∀ t : Fin grid0.N, ((grid0.coords t) 1).val = t.val % 8)

/-- A position's time step is below 18. -/
theorem step_lt (n : ℕ) (h : n < cfg0.N) : n / 8 < 18 := by
  have h' : n < 144 := lt_of_lt_of_eq h N_0
  omega

/-- A row of one of a position's first n % 8 + 1 blocks is below 2048. -/
theorem acc_lt (n : ℕ) (j : Fin (n % 8 + 1)) (r : Fin 256) : 256 * j.val + r.val < 2048 := by
  have h1 := j.isLt
  have h2 := r.isLt
  have h3 : n % 8 < 8 := Nat.mod_lt n (by decide)
  omega

/-- The prediction block a time step's first block computes is the specification's prediction of the step. -/
theorem pay3_block (c : Dev nD) (t : Fin cfg0.N) (b : Fin 2048) (cc : Fin 128) :
    k0_pay3 (F := Ideal) (iblk0 V c 0 t) (iblk0 V c 1 t) (iblk0 V c 2 t) (ix2 b cc)
      = pred (ctV V c) (wkV V c) (wbV V c) ⟨t.val / 8, iblk0_step_lt t⟩ b cc := by
  refine (pay3_apply (iblk0 V c 0 t) (iblk0 V c 1 t) (iblk0 V c 2 t) b cc).trans ?_
  unfold pred
  refine congrArg₂ (· + ·) (Finset.sum_congr rfl fun d _ => congrArg₂ (· * ·) ?_ ?_) ?_
  · exact congrFun (iblk0_0 V c t) (ix2 b d)
  · exact iblk0_1 V c t cc d
  · exact iblk0_2 V c t cc

/-- A block of 256 query rows against a scratch that holds the step's prediction: the accumulator advances by the block's
    diagonal log-softmax entries. -/
theorem pay5_block (c : Dev nD) (t : Fin cfg0.N) (xs0 : Vec Ideal S2048x128 .f32) (xs1 : Vec Ideal S1x1 .f32)
    (hs : ∀ (k : Fin 2048) (cc : Fin 128),
      xs0 (ix2 k cc) = pred (ctV V c) (wkV V c) (wbV V c) ⟨t.val / 8, iblk0_step_lt t⟩ k cc) :
    k0_pay5 (F := Ideal) (grid0.coords t) (iblk0 V c 3 t) xs0 xs1 (ix2 0 0)
      = xs1 (ix2 0 0) + ∑ r : Fin 256, diag (zV V c) (ctV V c) (wkV V c) (wbV V c) ⟨t.val / 8, iblk0_step_lt t⟩
          ⟨256 * (t.val % 8) + r.val, iblk0_row_lt t r⟩ := by
  refine (pay5_apply (grid0.coords t) (iblk0 V c 3 t) xs0 xs1).trans ?_
  refine congrArg (xs1 (ix2 0 0) + ·) (Finset.sum_congr rfl fun r _ => ?_)
  exact blockDiag_eq (zV V c) (ctV V c) (wkV V c) (wbV V c) ⟨t.val / 8, iblk0_step_lt t⟩ (iblk0 V c 3 t) xs0
    (fun r => ⟨256 * (t.val % 8) + r.val, iblk0_row_lt t r⟩) (fun r cc => iblk0_3 V c t r cc) hs r _
    (Fin.ext (by show 256 * ((grid0.coords t) 1).val + r.val = 256 * (t.val % 8) + r.val; rw [coords0_1]))

/-! ## What each shape of point leaves, against the specification -/

/-- A first block writes the step's prediction into the prediction scratch. -/
theorem stepA_pred (c : Dev nD) (t : Fin cfg0.N) (h0 : t.val % 8 = 0) (b : Fin 2048) (cc : Fin 128) :
    (stepA V c t h0).2.1 (ix2 b cc) = pred (ctV V c) (wkV V c) (wbV V c) ⟨t.val / 8, iblk0_step_lt t⟩ b cc := by
  unfold stepA
  rw [sout0_A_0_eq]
  exact pay3_block V c t b cc

/-- A first block leaves the accumulator at its own block's sum. -/
theorem stepA_acc (c : Dev nD) (t : Fin cfg0.N) (h0 : t.val % 8 = 0) :
    (stepA V c t h0).2.2 (ix2 0 0)
      = ∑ r : Fin 256, diag (zV V c) (ctV V c) (wkV V c) (wbV V c) ⟨t.val / 8, iblk0_step_lt t⟩
          ⟨256 * (t.val % 8) + r.val, iblk0_row_lt t r⟩ := by
  unfold stepA
  rw [sout0_A_1_eq, pay1_eq]
  refine (pay5_block V c t _ _ (fun k cc => pay3_block V c t k cc)).trans ?_
  rw [pay4_apply, zero_add]

/-- A middle block advances the accumulator by its block's sum. -/
theorem stepB_acc (c : Dev nD) (t : Fin cfg0.N) (h0 : ¬t.val % 8 = 0) (h7 : ¬t.val % 8 = 7) (prev : Outs0 Ideal)
    (hs : ∀ (k : Fin 2048) (cc : Fin 128),
      prev.2.1 (ix2 k cc) = pred (ctV V c) (wkV V c) (wbV V c) ⟨t.val / 8, iblk0_step_lt t⟩ k cc) :
    (stepB V c t h0 h7 prev).2.2 (ix2 0 0)
      = prev.2.2 (ix2 0 0) + ∑ r : Fin 256, diag (zV V c) (ctV V c) (wkV V c) (wbV V c) ⟨t.val / 8, iblk0_step_lt t⟩
          ⟨256 * (t.val % 8) + r.val, iblk0_row_lt t r⟩ := by
  unfold stepB
  rw [sout0_B_1_eq, pay1_eq]
  exact pay5_block V c t _ _ hs

/-- So does a last block … -/
theorem stepC_acc (c : Dev nD) (t : Fin cfg0.N) (h0 : ¬t.val % 8 = 0) (h7 : t.val % 8 = 7) (prev : Outs0 Ideal)
    (hs : ∀ (k : Fin 2048) (cc : Fin 128),
      prev.2.1 (ix2 k cc) = pred (ctV V c) (wkV V c) (wbV V c) ⟨t.val / 8, iblk0_step_lt t⟩ k cc) :
    (stepC V c t h0 h7 prev).2.2 (ix2 0 0)
      = prev.2.2 (ix2 0 0) + ∑ r : Fin 256, diag (zV V c) (ctV V c) (wkV V c) (wbV V c) ⟨t.val / 8, iblk0_step_lt t⟩
          ⟨256 * (t.val % 8) + r.val, iblk0_row_lt t r⟩ := by
  unfold stepC
  rw [sout0_C_1_eq, pay1_eq]
  exact pay5_block V c t _ _ hs

/-- … and it stores the new accumulator into the output's buffer. -/
theorem stepC_out (c : Dev nD) (t : Fin cfg0.N) (h0 : ¬t.val % 8 = 0) (h7 : t.val % 8 = 7) (prev : Outs0 Ideal) :
    (stepC V c t h0 h7 prev).1 (ix3 0 0 0) = (stepC V c t h0 h7 prev).2.2 (ix2 0 0) := by
  unfold stepC
  rw [out0_C_4_eq, sout0_C_1_eq]
  exact pay2_apply (k0_pay1 (k0_pay5 (grid0.coords t) (iblk0 V c 3 t) prev.2.1 prev.2.2))

/-! ## The three buffers at every position -/

/-- The prediction scratch after position n holds the prediction of the time step n / 8. -/
theorem predAt (c : Dev nD) : ∀ (n : ℕ) (h : n < cfg0.N) (b : Fin 2048) (cc : Fin 128),
    (outsAt0 V c n h).2.1 (ix2 b cc) = pred (ctV V c) (wkV V c) (wbV V c) ⟨n / 8, step_lt n h⟩ b cc := by
  intro n
  induction n with
  | zero =>
    intro h b cc
    rw [outsAt0_A V c ⟨0, h⟩ (Nat.zero_mod 8)]
    exact stepA_pred V c ⟨0, h⟩ (Nat.zero_mod 8) b cc
  | succ m ih =>
    intro h b cc
    by_cases h0 : (m + 1) % 8 = 0
    · rw [outsAt0_A V c ⟨m + 1, h⟩ h0]
      exact stepA_pred V c ⟨m + 1, h⟩ h0 b cc
    · have hm : m < cfg0.N := Nat.lt_of_succ_lt h
      have e : (⟨(m + 1) / 8, step_lt (m + 1) h⟩ : Fin 18) = ⟨m / 8, step_lt m hm⟩ :=
        Fin.ext (by show (m + 1) / 8 = m / 8; omega)
      rw [e, ← ih hm b cc]
      by_cases h7 : (m + 1) % 8 = 7
      · rw [outsAt0_C V c ⟨m + 1, h⟩ h0 h7]; rfl
      · rw [outsAt0_B V c ⟨m + 1, h⟩ h0 h7]; rfl

/-- The accumulator scratch after position n holds the diagonal log-softmax entries of the step's blocks 0 … n % 8, summed. -/
theorem accAt (c : Dev nD) : ∀ (n : ℕ) (h : n < cfg0.N),
    (outsAt0 V c n h).2.2 (ix2 0 0)
      = ∑ j : Fin (n % 8 + 1), ∑ r : Fin 256, diag (zV V c) (ctV V c) (wkV V c) (wbV V c) ⟨n / 8, step_lt n h⟩
          ⟨256 * j.val + r.val, acc_lt n j r⟩ := by
  have first : ∀ (n : ℕ) (h : n < cfg0.N) (h0 : n % 8 = 0),
      (outsAt0 V c n h).2.2 (ix2 0 0)
        = ∑ j : Fin (n % 8 + 1), ∑ r : Fin 256, diag (zV V c) (ctV V c) (wkV V c) (wbV V c) ⟨n / 8, step_lt n h⟩
            ⟨256 * j.val + r.val, acc_lt n j r⟩ := by
    intro n h h0
    rw [outsAt0_A V c ⟨n, h⟩ h0, stepA_acc V c ⟨n, h⟩ h0, sum_fin_first h0]
    exact Finset.sum_congr rfl fun r _ => congrArg (diag (zV V c) (ctV V c) (wkV V c) (wbV V c) ⟨n / 8, step_lt n h⟩)
      (Fin.ext (by show 256 * (n % 8) + r.val = 256 * 0 + r.val; rw [h0]))
  intro n
  induction n with
  | zero => intro h; exact first 0 h (Nat.zero_mod 8)
  | succ m ih =>
    intro h
    by_cases h0 : (m + 1) % 8 = 0
    · exact first (m + 1) h h0
    · have hm : m < cfg0.N := Nat.lt_of_succ_lt h
      have e : (⟨(m + 1) / 8, step_lt (m + 1) h⟩ : Fin 18) = ⟨m / 8, step_lt m hm⟩ :=
        Fin.ext (by show (m + 1) / 8 = m / 8; omega)
      have hs : ∀ (k : Fin 2048) (cc : Fin 128), (outsAt0 V c m hm).2.1 (ix2 k cc)
          = pred (ctV V c) (wkV V c) (wbV V c) ⟨(m + 1) / 8, step_lt (m + 1) h⟩ k cc := by
        intro k cc; rw [e]; exact predAt V c m hm k cc
      have hstep : (outsAt0 V c (m + 1) h).2.2 (ix2 0 0)
          = (outsAt0 V c m hm).2.2 (ix2 0 0) + ∑ r : Fin 256, diag (zV V c) (ctV V c) (wkV V c) (wbV V c)
              ⟨(m + 1) / 8, step_lt (m + 1) h⟩ ⟨256 * ((m + 1) % 8) + r.val, iblk0_row_lt ⟨m + 1, h⟩ r⟩ := by
        by_cases h7 : (m + 1) % 8 = 7
        · rw [outsAt0_C V c ⟨m + 1, h⟩ h0 h7]
          exact stepC_acc V c ⟨m + 1, h⟩ h0 h7 _ hs
        · rw [outsAt0_B V c ⟨m + 1, h⟩ h0 h7]
          exact stepB_acc V c ⟨m + 1, h⟩ h0 h7 _ hs
      rw [hstep, sum_fin_next (a := m % 8) (b := (m + 1) % 8) (by omega), ih hm, e]

/-- At a step's last block the output's buffer holds the step's sum of diagonal log-softmax entries over all 2048 rows. -/
theorem outAt (c : Dev nD) (n : ℕ) (h : n < cfg0.N) (h7 : n % 8 = 7) :
    (outsAt0 V c n h).1 (ix3 0 0 0)
      = ∑ q : Fin 2048, diag (zV V c) (ctV V c) (wkV V c) (wbV V c) ⟨n / 8, step_lt n h⟩ q := by
  have h0 : ¬n % 8 = 0 := by omega
  have e1 : (outsAt0 V c n h).1 (ix3 0 0 0) = (outsAt0 V c n h).2.2 (ix2 0 0) := by
    rw [outsAt0_C V c ⟨n, h⟩ h0 h7]
    exact stepC_out V c ⟨n, h⟩ h0 h7 _
  rw [e1, accAt V c n h]
  exact sum_blocks h7 (diag (zV V c) (ctV V c) (wkV V c) (wbV V c) ⟨n / 8, step_lt n h⟩) (acc_lt n)

end Region0Value

end Cert.KernelIdeal.Gen

end
-- ==== Proof.KI.R0Host.lean ====
/-
  The four host operations that run before the loss kernel, read off the launch memory: the [2048, 4096] argument narrowed
  to bf16; the [2048, 128, 18] argument with its time axis brought to the front and then narrowed to bf16; the [18, 128]
  argument given a unit middle axis; the [18, 128, 4096] argument untouched. Each is first stated at any float model as the
  operations' own term, and then, over the extended reals — where a change of format is the identity — read entry by entry:
  the transposed array at (time step, query row, channel) is the argument at (query row, channel, time step), and the
  re-laid one at (time step, 0, channel) is the argument at (time step, channel), both having the same row-major position.
-/
import proofs.«138056_j16037407883274_2_alg».proof.Proof.Gen.KernelIdeal.Launch
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Gen

open Idealize.ShloMosaic Idealize.ShloMosaic.TcCoe Idealize.ShloMosaic.Tactic
open Idealize.ShloMosaic.ValueIdx

section AnyFormat
variable {F : FTy → Type} [FloatOps F]
variable (m : (ℓ : Loc nD τ sig) → Buf (Elt F) ℓ)

/-- Core c's unscoped buffers after the four host operations that precede the loss kernel, from the launch memory. -/
abbrev hostVal0 (c : Dev nD) : Valuation τ sig (Elt F) :=
  StableHlo.after (hostOps0 (F := F)) (fun b => m ((c : Dev nD), b))

/-- The first operand of the kernel is the [2048, 4096] argument narrowed to bf16. -/
theorem W1_main_v0 (c : Dev nD) :
    (hostVal0 m c (Proc.devRef .tc main_v0) : S2048x4096.Idx → Elt F .bf16)
      = truncf .bf16 (m ((c : Thread nD τ).loc main_arg1) : S2048x4096.Idx → Elt F .f32) bitsLt_bf16_f32 := by
  show StableHlo.after hostOps0 _ (Proc.devRef .tc main_v0) = _
  after_results

/-- The fourth operand is the [2048, 128, 18] argument with the time axis brought to the front, narrowed to bf16. -/
theorem W1_main_v2 (c : Dev nD) :
    (hostVal0 m c (Proc.devRef .tc main_v2) : S18x2048x128.Idx → Elt F .bf16)
      = truncf .bf16 (transpose S18x2048x128 [2, 0, 1] (m ((c : Thread nD τ).loc main_arg0) : S2048x128x18.Idx → Elt F .f32)
          transposes_S2048x128x18_S18x2048x128_2_0_1) bitsLt_bf16_f32 := by
  show StableHlo.after hostOps0 _ (Proc.devRef .tc main_v2) = _
  after_results

/-- The third operand is the [18, 128] argument with a unit axis put in the middle. -/
theorem W1_main_v3 (c : Dev nD) :
    (hostVal0 m c (Proc.devRef .tc main_v3) : S18x1x128.Idx → Elt F .f32)
      = shapeCast S18x1x128 (m ((c : Thread nD τ).loc main_arg3) : S18x128.Idx → Elt F .f32) shapeCasts_S18x128_S18x1x128 := by
  show StableHlo.after hostOps0 _ (Proc.devRef .tc main_v3) = _
  after_results
  rfl

/-- The second operand is an argument no host operation writes. -/
theorem W1_main_arg2 (c : Dev nD) :
    hostVal0 m c (Proc.devRef .tc main_arg2) = m ((c : Thread nD τ).loc main_arg2) := by
  show StableHlo.after hostOps0 _ (Proc.devRef .tc main_arg2) = _
  after_results

end AnyFormat

section AtIdeal
variable (m : (ℓ : Loc nD τ sig) → Buf (Elt Ideal) ℓ)

/-- Over the extended reals the narrowing is the identity: the first operand is the [2048, 4096] argument entry by entry. -/
theorem W1_main_v0_apply (c : Dev nD) (b : Fin 2048) (d : Fin 4096) :
    (hostVal0 m c (Proc.devRef .tc main_v0) : S2048x4096.Idx → Elt Ideal .bf16) (ix2 b d)
      = (m ((c : Thread nD τ).loc main_arg1) : S2048x4096.Idx → Elt Ideal .f32) (ix2 b d) := by
  rw [W1_main_v0]
  rfl

/-- The fourth operand at (time step, query row, channel) is the argument at (query row, channel, time step). -/
theorem W1_main_v2_apply (c : Dev nD) (T : Fin 18) (q : Fin 2048) (cc : Fin 128) :
    (hostVal0 m c (Proc.devRef .tc main_v2) : S18x2048x128.Idx → Elt Ideal .bf16) (ix3 T q cc)
      = (m ((c : Thread nD τ).loc main_arg0) : S2048x128x18.Idx → Elt Ideal .f32) (ix3 q cc T) := by
  rw [W1_main_v2]
  refine (truncf_apply (ψ := .bf16) _ bitsLt_bf16_f32 (ix3 T q cc)).trans ?_
  exact transpose_apply [2, 0, 1] _ transposes_S2048x128x18_S18x2048x128_2_0_1 (ix3 T q cc) (ix3 q cc T) (fun b => match b with
    | ⟨0, _⟩ => rfl
    | ⟨1, _⟩ => rfl
    | ⟨2, _⟩ => rfl)

/-- The third operand at (time step, 0, channel) is the argument at (time step, channel). -/
theorem W1_main_v3_apply (c : Dev nD) (T : Fin 18) (cc : Fin 128) :
    (hostVal0 m c (Proc.devRef .tc main_v3) : S18x1x128.Idx → Elt Ideal .f32) (ix3 T 0 cc)
      = (m ((c : Thread nD τ).loc main_arg3) : S18x128.Idx → Elt Ideal .f32) (ix2 T cc) := by
  rw [W1_main_v3]
  exact shapeCast_apply _ shapeCasts_S18x128_S18x1x128 (ix3 T 0 cc) (ix2 T cc) (by
    rw [Shape.rowMajor_val_two, Shape.rowMajor_val_three]
    show T.val * 128 + cc.val = (T.val * 1 + 0) * 128 + cc.val
    omega)

end AtIdeal

end Cert.KernelIdeal.Gen

end
-- ==== Proof.KI.LossFinal.lean ====
/-
  The loss at the end of the run, in terms of the launch memory. The second host stretch sums the 18 per-step entries of the
  first region's result array and divides by the word of −36864; entry T of that array is what the last block of time step T
  stored, the sum over all 2048 query rows of the diagonal log-softmax entries; and the arrays the first region is entered
  with are the arguments themselves — the cast copies entry for entry, the transposed copy read back in the argument's layout,
  the reshaped bias read back as a [18, 128] array.
-/
import proofs.«138056_j16037407883274_2_alg».proof.Proof.KI.R0Final
import proofs.«138056_j16037407883274_2_alg».proof.Proof.KI.R0Value
import proofs.«138056_j16037407883274_2_alg».proof.Proof.KI.R0Host
import proofs.«138056_j16037407883274_2_alg».proof.Proof.CpcSpec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! The arrays the loss kernel's region is entered with are the arguments. -/

theorem zV_V1 (c : Dev nD) : zV (V1 m ρ) c = (m ((c : Thread nD τ).loc main_arg0)) := by
  funext i
  exact (W1_main_v2_apply m c (i 2) (i 0) (i 1)).trans (congrArg _ (eq_ix3 i).symm)
theorem ctV_V1 (c : Dev nD) : ctV (V1 m ρ) c = (m ((c : Thread nD τ).loc main_arg1)) := by
  funext i
  rw [eq_ix2 i]
  exact W1_main_v0_apply m c (i 0) (i 1)
theorem wkV_V1 (c : Dev nD) : wkV (V1 m ρ) c = (m ((c : Thread nD τ).loc main_arg2)) := W1_main_arg2 m c
theorem wbV_V1 (c : Dev nD) : wbV (V1 m ρ) c = (m ((c : Thread nD τ).loc main_arg3)) := by
  funext i
  exact (W1_main_v3_apply m c (i 0) (i 1)).trans (congrArg _ (eq_ix2 i).symm)

/-- The loss the kernel program ends with is the specification's. -/
theorem kernel_nce (c : Dev nD) :
    (W4 m ρ c (Proc.devRef .tc main_v6) : S_.Idx → EReal) = fun _ => Cert.CpcSpec.nce (m ((c : Thread nD τ).loc main_arg0)) (m ((c : Thread nD τ).loc main_arg1)) (m ((c : Thread nD τ).loc main_arg2)) (m ((c : Thread nD τ).loc main_arg3)) := by
  rw [W4_main_v6, loss_tail_outs]
  funext _
  unfold Cert.CpcSpec.nce
  refine congrArg (fun s => Ideal.div s Cert.CpcSpec.wNegCount) (Finset.sum_congr rfl fun T _ => ?_)
  rw [outAt (V1 m ρ) c (8 * T.val + 7) (lastBlock_lt T) (by omega), zV_V1, ctV_V1, wkV_V1, wbV_V1]
  have hT : (⟨(8 * T.val + 7) / 8, by have := T.isLt; omega⟩ : Fin 18) = T := Fin.ext (by show (8 * T.val + 7) / 8 = T.val; omega)
  rw [hT]

end Cert.KernelIdeal.Gen

end
-- ==== Proof.KI.R1Value.lean ====
/-
  The projection kernel's result array. Its one store, read back, is the second linear layer applied to the normalised and
  rectified hidden layer of the seven loaded blocks; each block is its whole array (one grid point, zero offsets); so the
  result array ends holding that term of the arrays the region is entered with.
-/
import proofs.«138056_j16037407883274_2_alg».proof.Proof.KI.R1Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl

/-- The body's one store, read back. -/
theorem out1_7_eq (c : Dev nD) (i : grid1.Coords) (arg1 : Memref sig .tc .vmem S2048x4096 .bf16) (harg1 : arg1.IsWhole) (arg2 : Memref sig .tc .vmem S128x4096 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S32x128 .f32) (harg6 : arg6.IsWhole) (arg7 : Memref sig .tc .vmem S32 .f32) (harg7 : arg7.IsWhole) (arg8 : Memref sig .tc .vmem S2048x32 .f32) (harg8 : arg8.IsWhole) (x0 : Vec F S2048x4096 .bf16) (x1 : Vec F S128x4096 .f32) (x2 x3 x4 : Vec F S128 .f32) (x5 : Vec F S32x128 .f32) (x6 : Vec F S32 .f32) :
    out1_7 c i arg1 harg1 arg2 harg2 arg3 harg3 arg4 harg4 arg5 harg5 arg6 harg6 arg7 harg7 arg8 harg8 x0 x1 x2 x3 x4 x5 x6 = k1_pay1 (k1_pay2 x0 x1 x2 x3 x4) x5 x6 := by
  unfold out1_7
  rw [View.read_writes_eq_canon _ _ _ (cover1_7 c i arg1 harg1 arg2 harg2 arg3 harg3 arg4 harg4 arg5 harg5 arg6 harg6 arg7 harg7 arg8 harg8 x0 x1 x2 x3 x4 x5 x6)]
  unfold kernelRun1
  dsimp only
  rw [View.canon_unit_zero hz2]
  simp only [View.readAt_eq_ld, harg1.read_unread, harg2.read_unread, harg3.read_unread, harg4.read_unread, harg5.read_unread, harg6.read_unread, harg7.read_unread,
    View.ld_unit_zero (S := S2048x4096) hz2, View.ld_unit_zero (S := S128x4096) hz2, View.ld_unit_zero (S := S128) hz1, View.ld_unit_zero (S := S32x128) hz2, View.ld_unit_zero (S := S32) hz1]

section Region1
variable (V : (c : Dev nD) → (b : Ref sig .tc) → Buf (Elt F) ((c : Thread nD τ).loc b))

/-! Each window of the projection kernel stages its whole array. -/
theorem iblk1_0 (c : Dev nD) (t : Fin cfg1.N) : (iblk1 V c 0 t : S2048x4096.Idx → Elt F .bf16) = V c main_v0 := by
  obtain rfl := fin_N1 t
  have hz' : (fun a => win1_0.index t1_0 a * main_v0.ty.shape.size a) = fun _ => 0 := funext fun a => by fin_cases a <;> decide
  exact Memref.read_access_unit_zero (Elt F) main_v0 hz' (fun a => by rw [congrFun hz' a]; simp) (V c main_v0)
theorem iblk1_1 (c : Dev nD) (t : Fin cfg1.N) : (iblk1 V c 1 t : S128x4096.Idx → Elt F .f32) = V c main_arg4 := by
  obtain rfl := fin_N1 t
  have hz' : (fun a => win1_1.index t1_0 a * main_arg4.ty.shape.size a) = fun _ => 0 := funext fun a => by fin_cases a <;> decide
  exact Memref.read_access_unit_zero (Elt F) main_arg4 hz' (fun a => by rw [congrFun hz' a]; simp) (V c main_arg4)
theorem iblk1_2 (c : Dev nD) (t : Fin cfg1.N) : (iblk1 V c 2 t : S128.Idx → Elt F .f32) = V c main_arg5 := by
  obtain rfl := fin_N1 t
  have hz' : (fun a => win1_2.index t1_0 a * main_arg5.ty.shape.size a) = fun _ => 0 := funext fun a => by fin_cases a <;> decide
  exact Memref.read_access_unit_zero (Elt F) main_arg5 hz' (fun a => by rw [congrFun hz' a]; simp) (V c main_arg5)
theorem iblk1_3 (c : Dev nD) (t : Fin cfg1.N) : (iblk1 V c 3 t : S128.Idx → Elt F .f32) = V c main_arg6 := by
  obtain rfl := fin_N1 t
  have hz' : (fun a => win1_3.index t1_0 a * main_arg6.ty.shape.size a) = fun _ => 0 := funext fun a => by fin_cases a <;> decide
  exact Memref.read_access_unit_zero (Elt F) main_arg6 hz' (fun a => by rw [congrFun hz' a]; simp) (V c main_arg6)
theorem iblk1_4 (c : Dev nD) (t : Fin cfg1.N) : (iblk1 V c 4 t : S128.Idx → Elt F .f32) = V c main_arg7 := by
  obtain rfl := fin_N1 t
  have hz' : (fun a => win1_4.index t1_0 a * main_arg7.ty.shape.size a) = fun _ => 0 := funext fun a => by fin_cases a <;> decide
  exact Memref.read_access_unit_zero (Elt F) main_arg7 hz' (fun a => by rw [congrFun hz' a]; simp) (V c main_arg7)
theorem iblk1_5 (c : Dev nD) (t : Fin cfg1.N) : (iblk1 V c 5 t : S32x128.Idx → Elt F .f32) = V c main_arg8 := by
  obtain rfl := fin_N1 t
  have hz' : (fun a => win1_5.index t1_0 a * main_arg8.ty.shape.size a) = fun _ => 0 := funext fun a => by fin_cases a <;> decide
  exact Memref.read_access_unit_zero (Elt F) main_arg8 hz' (fun a => by rw [congrFun hz' a]; simp) (V c main_arg8)
theorem iblk1_6 (c : Dev nD) (t : Fin cfg1.N) : (iblk1 V c 6 t : S32.Idx → Elt F .f32) = V c main_arg9 := by
  obtain rfl := fin_N1 t
  have hz' : (fun a => win1_6.index t1_0 a * main_arg9.ty.shape.size a) = fun _ => 0 := funext fun a => by fin_cases a <;> decide
  exact Memref.read_access_unit_zero (Elt F) main_arg9 hz' (fun a => by rw [congrFun hz' a]; simp) (V c main_arg9)

/-- The result of the projection kernel as one term of the arrays the region is entered with. -/
def head1 (c : Dev nD) : Buf (Elt F) ((c : Thread nD τ).loc main_v7) :=
  k1_pay1 (k1_pay2 (V c main_v0) (V c main_arg4) (V c main_arg5) (V c main_arg6) (V c main_arg7)) (V c main_arg8) (V c main_arg9)

/-- What the one point leaves in the result's staging buffer is that term. -/
theorem outAt1_eq (c : Dev nD) (t : Fin cfg1.N) : outAt1 V c t = head1 V c := by
  unfold outAt1 head1
  rw [out1_7_eq, iblk1_0, iblk1_1, iblk1_2, iblk1_3, iblk1_4, iblk1_5, iblk1_6]

/-- The one write-back writes it: block (0, 0) of the array read through zero offsets is the array. -/
theorem flushed1_eq (c : Dev nD) (t : Fin cfg1.N) (hf : (cfg1.win 7).flush t = true) :
    (dat1 V c).flushed 7 t = ((cfg1.win 7).blk t).view.read (Elt F) (head1 V c) := by
  obtain rfl := fin_N1 t
  show (cfg1.win 7).cut (grid1.coords t1_0) ((dat1 V c).after 7 t1_0) = _
  rw [after1_7, outAt1_eq]
  have hz' : (fun a => win1_7.index t1_0 a * main_v7.ty.shape.size a) = fun _ => 0 := funext fun a => by fin_cases a <;> decide
  exact (Memref.read_access_unit_zero (Elt F) main_v7 hz' (fun a => by rw [congrFun hz' a]; simp) (head1 V c)).symm

/-- So the result array ends holding it. -/
theorem final1 (c : Dev nD) : (dat1 V c).arrAt 7 cfg1.N = head1 V c :=
  (dat1 V c).arrAt_eq_of_cover 7 (head1 V c) (flushed1_eq V c) fun i =>
    ⟨t1_0, flush1_7 t1_0, by
      show i ∈ ((View.whole main_v7).slice (win1_7.rect t1_0)).set
      rw [View.set_slice_whole, Rect.mem_set_unit]
      intro a
      have h0 : (i 0 : Nat) < 2048 := (i 0).isLt
      have h1 : (i 1 : Nat) < 32 := (i 1).isLt
      match a with
      | ⟨0, _⟩ => show win1_7.index t1_0 0 * win1_7.size 0 ≤ (i 0 : Nat) ∧ (i 0 : Nat) < win1_7.index t1_0 0 * win1_7.size 0 + win1_7.xsize (grid1.coords t1_0) 0
                  rw [show win1_7.index t1_0 0 * win1_7.size 0 = 0 from by decide +kernel, show win1_7.xsize (grid1.coords t1_0) 0 = 2048 from by decide +kernel]; omega
      | ⟨1, _⟩ => show win1_7.index t1_0 1 * win1_7.size 1 ≤ (i 1 : Nat) ∧ (i 1 : Nat) < win1_7.index t1_0 1 * win1_7.size 1 + win1_7.xsize (grid1.coords t1_0) 1
                  rw [show win1_7.index t1_0 1 * win1_7.size 1 = 0 from by decide +kernel, show win1_7.xsize (grid1.coords t1_0) 1 = 32 from by decide +kernel]; omega⟩

end Region1

end Cert.KernelIdeal.Gen

end
-- ==== Proof.KI.Pay1Ops.lean ====
import proofs.«138056_j16037407883274_2_alg».proof.Proof.Gen.KernelIdeal.Skeleton
import proofs.«138056_j16037407883274_2_alg».proof.Proof.CpcSpec
import Idealize.ShloMosaic.PureOps.Ideal.Laws
import Idealize.ShloMosaic.Lib.ValueLayout

noncomputable section

open scoped BigOperators

namespace Cert.KernelIdeal.PayValue1

open Cert.KernelIdeal Cert.KernelIdeal.Gen Idealize.ShloMosaic Idealize.ShloMosaic.ValueIdx Idealize.SL.Sem

/-! ## The two products read at an index -/

/-- First operand's row coordinate of the first product's operand index. -/
theorem lhs1_0 (i : S2048x128.Idx) (q : dot_S2048x4096_S128x4096_S2048x128_1_1_0_0_n_n.contr.Idx) :
    (dot_S2048x4096_S128x4096_S2048x128_1_1_0_0_n_n.lhsIdx i q 0).val = (i 0).val := by
  unfold DotDims.lhsIdx
  rw [dif_neg (show ¬(0 : Fin S2048x4096.rank) ∈ dot_S2048x4096_S128x4096_S2048x128_1_1_0_0_n_n.lhsBatch by decide), dif_pos (show (0 : Fin S2048x4096.rank) ∈ dot_S2048x4096_S128x4096_S2048x128_1_1_0_0_n_n.lhsNonContracting by decide)]
  rfl

/-- Second operand's row coordinate of the first product's operand index: the output's column. -/
theorem rhs1_0 (i : S2048x128.Idx) (q : dot_S2048x4096_S128x4096_S2048x128_1_1_0_0_n_n.contr.Idx) :
    (dot_S2048x4096_S128x4096_S2048x128_1_1_0_0_n_n.rhsIdx i q 0).val = (i 1).val := by
  unfold DotDims.rhsIdx
  rw [dif_neg (show ¬(0 : Fin S128x4096.rank) ∈ dot_S2048x4096_S128x4096_S2048x128_1_1_0_0_n_n.rhsBatch by decide), dif_pos (show (0 : Fin S128x4096.rank) ∈ dot_S2048x4096_S128x4096_S2048x128_1_1_0_0_n_n.rhsNonContracting by decide)]
  rfl

/-- The [2048,4096] × [128,4096]ᵀ product into the zero splat, at (b, c): Σ_d x[b,d] · w[c,d]. -/
theorem matmul1_apply (x : FVec Ideal S2048x4096 .bf16) (w : FVec Ideal S128x4096 .bf16) (b : Fin 2048) (c : Fin 128) :
    matmul dot_S2048x4096_S128x4096_S2048x128_1_1_0_0_n_n none x w (constant (F := Ideal) S2048x128 .f32 0x00000000#32) (ix2 b c)
      = ∑ d : Fin 4096, x (ix2 b d) * w (ix2 c d) := by
  simp only [matmul]
  rw [Ideal.matmul_constant_zero_apply, ← Equiv.sum_comp (contrEquiv1 dot_S2048x4096_S128x4096_S2048x128_1_1_0_0_n_n 4096 rfl rfl).symm]
  refine Finset.sum_congr rfl fun k _ => ?_
  have hk := contrEquiv1_symm_val dot_S2048x4096_S128x4096_S2048x128_1_1_0_0_n_n 4096 rfl rfl k
  have el : dot_S2048x4096_S128x4096_S2048x128_1_1_0_0_n_n.lhsIdx (ix2 b c) ((contrEquiv1 dot_S2048x4096_S128x4096_S2048x128_1_1_0_0_n_n 4096 rfl rfl).symm k) = ix2 b k := funext fun a => Fin.ext (by
    match a with
    | ⟨0, _⟩ => exact lhs1_0 _ _
    | ⟨1, _⟩ => exact (dot_S2048x4096_S128x4096_S2048x128_1_1_0_0_n_n.lhsIdx_val_of_single rfl _ _).trans hk)
  have er : dot_S2048x4096_S128x4096_S2048x128_1_1_0_0_n_n.rhsIdx (ix2 b c) ((contrEquiv1 dot_S2048x4096_S128x4096_S2048x128_1_1_0_0_n_n 4096 rfl rfl).symm k) = ix2 c k := funext fun a => Fin.ext (by
    match a with
    | ⟨0, _⟩ => exact rhs1_0 _ _
    | ⟨1, _⟩ => exact (dot_S2048x4096_S128x4096_S2048x128_1_1_0_0_n_n.rhsIdx_val_of_single rfl _ _).trans hk)
  rw [el, er]

/-- First operand's row coordinate of the second product's operand index. -/
theorem lhs2_0 (i : S2048x32.Idx) (q : dot_S2048x128_S32x128_S2048x32_1_1_0_0_n_n.contr.Idx) :
    (dot_S2048x128_S32x128_S2048x32_1_1_0_0_n_n.lhsIdx i q 0).val = (i 0).val := by
  unfold DotDims.lhsIdx
  rw [dif_neg (show ¬(0 : Fin S2048x128.rank) ∈ dot_S2048x128_S32x128_S2048x32_1_1_0_0_n_n.lhsBatch by decide), dif_pos (show (0 : Fin S2048x128.rank) ∈ dot_S2048x128_S32x128_S2048x32_1_1_0_0_n_n.lhsNonContracting by decide)]
  rfl

/-- Second operand's row coordinate of the second product's operand index: the output's column. -/
theorem rhs2_0 (i : S2048x32.Idx) (q : dot_S2048x128_S32x128_S2048x32_1_1_0_0_n_n.contr.Idx) :
    (dot_S2048x128_S32x128_S2048x32_1_1_0_0_n_n.rhsIdx i q 0).val = (i 1).val := by
  unfold DotDims.rhsIdx
  rw [dif_neg (show ¬(0 : Fin S32x128.rank) ∈ dot_S2048x128_S32x128_S2048x32_1_1_0_0_n_n.rhsBatch by decide), dif_pos (show (0 : Fin S32x128.rank) ∈ dot_S2048x128_S32x128_S2048x32_1_1_0_0_n_n.rhsNonContracting by decide)]
  rfl

/-- The [2048,128] × [32,128]ᵀ product into the zero splat, at (b, p): Σ_c x[b,c] · w[p,c]. -/
theorem matmul2_apply (x : FVec Ideal S2048x128 .bf16) (w : FVec Ideal S32x128 .bf16) (b : Fin 2048) (p : Fin 32) :
    matmul dot_S2048x128_S32x128_S2048x32_1_1_0_0_n_n none x w (constant (F := Ideal) S2048x32 .f32 0x00000000#32) (ix2 b p)
      = ∑ c : Fin 128, x (ix2 b c) * w (ix2 p c) := by
  simp only [matmul]
  rw [Ideal.matmul_constant_zero_apply, ← Equiv.sum_comp (contrEquiv1 dot_S2048x128_S32x128_S2048x32_1_1_0_0_n_n 128 rfl rfl).symm]
  refine Finset.sum_congr rfl fun k _ => ?_
  have hk := contrEquiv1_symm_val dot_S2048x128_S32x128_S2048x32_1_1_0_0_n_n 128 rfl rfl k
  have el : dot_S2048x128_S32x128_S2048x32_1_1_0_0_n_n.lhsIdx (ix2 b p) ((contrEquiv1 dot_S2048x128_S32x128_S2048x32_1_1_0_0_n_n 128 rfl rfl).symm k) = ix2 b k := funext fun a => Fin.ext (by
    match a with
    | ⟨0, _⟩ => exact lhs2_0 _ _
    | ⟨1, _⟩ => exact (dot_S2048x128_S32x128_S2048x32_1_1_0_0_n_n.lhsIdx_val_of_single rfl _ _).trans hk)
  have er : dot_S2048x128_S32x128_S2048x32_1_1_0_0_n_n.rhsIdx (ix2 b p) ((contrEquiv1 dot_S2048x128_S32x128_S2048x32_1_1_0_0_n_n 128 rfl rfl).symm k) = ix2 p k := funext fun a => Fin.ext (by
    match a with
    | ⟨0, _⟩ => exact rhs2_0 _ _
    | ⟨1, _⟩ => exact (dot_S2048x128_S32x128_S2048x32_1_1_0_0_n_n.rhsIdx_val_of_single rfl _ _).trans hk)
  rw [el, er]

/-! ## A row added to every row, and a sum down the columns -/

/-- A [128] array as one row, repeated over 2048 rows, at (b, c): the array at c. -/
theorem row128_apply {α : Type} (v : S128.Idx → α) (b : Fin 2048) (c : Fin 128) :
    broadcastTo S2048x128 (shapeCast S1x128 v Facts₀.shapeCasts_S128_S1x128) Facts₀.broadcasts_S1x128_S2048x128 (ix2 b c) = v (ix1 c) :=
  (broadcastTo_1b_ab_apply _ _ b c).trans (shapeCast_a_1a_apply v _ 0 c)

/-- A [32] array as one row, repeated over 2048 rows, at (b, p): the array at p. -/
theorem row32_apply {α : Type} (v : S32.Idx → α) (b : Fin 2048) (p : Fin 32) :
    broadcastTo S2048x32 (shapeCast S1x32 v Facts₀.shapeCasts_S32_S1x32) Facts₀.broadcasts_S1x32_S2048x32 (ix2 b p) = v (ix1 p) :=
  (broadcastTo_1b_ab_apply _ _ b p).trans (shapeCast_a_1a_apply v _ 0 p)

/-- One [1,128] row repeated over 2048 rows, at (b, c): the row at c. -/
theorem rowB_apply {α : Type} (v : S1x128.Idx → α) (b : Fin 2048) (c : Fin 128) :
    broadcastTo S2048x128 v Facts₀.broadcasts_S1x128_S2048x128 (ix2 b c) = v (ix2 (0 : Fin 1) c) :=
  broadcastTo_1b_ab_apply _ _ b c

/-- The reduced index c with row k put back is (k, c). -/
theorem lift_row (h : S2048x128.Reduces [0] S128) (c : Fin 128) (k : Fin (S2048x128.size 0)) :
    h.lift (ix1 c) k = ix2 (⟨k.val, k.isLt⟩ : Fin 2048) c := by
  funext a; apply Fin.ext
  match a with
  | ⟨0, _⟩ => rfl
  | ⟨1, _⟩ => rfl

/-- The float sum over the first axis from the zero word, at c: Σ_b x[b,c]. -/
theorem colSum_apply (x : FVec Ideal S2048x128 .f32) (hφ : FKind.Formats FTy.f32) (hacc : (0x00000000#32 : BitVec 32) = 0x00000000#32) (c : Fin 128) :
    multiReduction (F := Ideal) .add [0] S128 x 0x00000000#32 Facts₀.reduces_S2048x128_S128 hφ hacc (ix1 c) = ∑ b : Fin 2048, x (ix2 b c) := by
  refine (Ideal.multiReduction_add_single x 0x00000000#32 Facts₀.reduces_S2048x128_S128 hφ hacc (ix1 c)).trans ?_
  exact Finset.sum_congr rfl fun k _ => congrArg x (lift_row _ c k)

end Cert.KernelIdeal.PayValue1

end
-- ==== Proof.KI.Pay1Value.lean ====
import proofs.«138056_j16037407883274_2_alg».proof.Proof.KI.Pay1Ops

noncomputable section

open scoped BigOperators

namespace Cert.KernelIdeal.PayValue1

open Cert.KernelIdeal Cert.KernelIdeal.Gen Idealize.ShloMosaic Idealize.ShloMosaic.ValueIdx Idealize.SL.Sem

/-! ## The stages of the hidden layer, as the kernel computes them -/

/-- A reciprocal square root at an index is the reciprocal square root of the element. -/
theorem rsqrt_apply {s : Shape} {φ : FTy} (x : FVec Ideal s φ) (i : s.Idx) : rsqrt x i = Ideal.rsqrt (x i) := rfl

/-- The first linear layer: the product with the transposed weights plus the bias row. -/
def kHid (v0 : Vec Ideal S2048x4096 .bf16) (v2 : Vec Ideal S128x4096 .f32) (v5 : Vec Ideal S128 .f32) : FVec Ideal S2048x128 .f32 :=
  addf
    (matmul dot_S2048x4096_S128x4096_S2048x128_1_1_0_0_n_n none
      (shapeCast S2048x4096 v0 Facts₀.shapeCasts_S2048x4096_S2048x4096 : FVec Ideal S2048x4096 .bf16)
      (truncf .bf16 (v2 : FVec Ideal S128x4096 .f32) Facts₀.bitsLt_bf16_f32)
      (constant (F := Ideal) S2048x128 .f32 0x00000000#32))
    (broadcastTo S2048x128 (shapeCast S1x128 v5 Facts₀.shapeCasts_S128_S1x128) Facts₀.broadcasts_S1x128_S2048x128 : FVec Ideal S2048x128 .f32)

/-- The row of channel means: the column sums over the batch word. -/
def kMu (h : FVec Ideal S2048x128 .f32) : FVec Ideal S1x128 .f32 :=
  divf
    (shapeCast S1x128 (multiReduction (F := Ideal) .add [0] S128 h 0x00000000#32 Facts₀.reduces_S2048x128_S128 (.inl rfl) rfl)
      Facts₀.shapeCasts_S128_S1x128 : FVec Ideal S1x128 .f32)
    (broadcast S1x128 (Scalar.ofBits (F := Ideal) .f32 0x45000000#32))

/-- The deviation from the channel mean. -/
def kDev (h : FVec Ideal S2048x128 .f32) : FVec Ideal S2048x128 .f32 :=
  subf h (broadcastTo S2048x128 (kMu h) Facts₀.broadcasts_S1x128_S2048x128)

/-- The row of biased channel variances: the column sums of the squared deviations over the batch word. -/
def kVar (h : FVec Ideal S2048x128 .f32) : FVec Ideal S1x128 .f32 :=
  divf
    (shapeCast S1x128 (multiReduction (F := Ideal) .add [0] S128 (mulf (kDev h) (kDev h)) 0x00000000#32 Facts₀.reduces_S2048x128_S128 (.inl rfl) rfl)
      Facts₀.shapeCasts_S128_S1x128 : FVec Ideal S1x128 .f32)
    (broadcast S1x128 (Scalar.ofBits (F := Ideal) .f32 0x45000000#32))

/-- The normalised activation, scaled and shifted by the two parameter rows. -/
def kHn (h : FVec Ideal S2048x128 .f32) (v27 v31 : Vec Ideal S128 .f32) : FVec Ideal S2048x128 .f32 :=
  addf
    (mulf
      (mulf (kDev h)
        (broadcastTo S2048x128 (rsqrt (addf (kVar h) (broadcast S1x128 (Scalar.ofBits (F := Ideal) .f32 0x3727C5AC#32))))
          Facts₀.broadcasts_S1x128_S2048x128))
      (broadcastTo S2048x128 (shapeCast S1x128 v27 Facts₀.shapeCasts_S128_S1x128) Facts₀.broadcasts_S1x128_S2048x128 : FVec Ideal S2048x128 .f32))
    (broadcastTo S2048x128 (shapeCast S1x128 v31 Facts₀.shapeCasts_S128_S1x128) Facts₀.broadcasts_S1x128_S2048x128 : FVec Ideal S2048x128 .f32)

/-- The leaky rectifier, then the change of format. -/
def kAct (x : FVec Ideal S2048x128 .f32) : FVec Ideal S2048x128 .bf16 :=
  truncf .bf16
    (select (cmpf .oge x (broadcast S2048x128 (Scalar.ofBits (F := Ideal) .f32 0x00000000#32))) x
      (mulf (broadcast S2048x128 (Scalar.ofBits (F := Ideal) .f32 0x3C23D70A#32)) x))
    Facts₀.bitsLt_bf16_f32

/-- The kernel's hidden-layer value is the composition of these stages. -/
theorem pay2_eq_stages (v0 : Vec Ideal S2048x4096 .bf16) (v2 : Vec Ideal S128x4096 .f32) (v5 v27 v31 : Vec Ideal S128 .f32) :
    k1_pay2 (F := Ideal) v0 v2 v5 v27 v31 = kAct (kHn (kHid v0 v2 v5) v27 v31) := rfl

/-! ## Each stage read at an index -/

section Stages

variable (v0 : Vec Ideal S2048x4096 .bf16) (v2 : Vec Ideal S128x4096 .f32) (v5 v27 v31 : Vec Ideal S128 .f32)

/-- The first linear layer at (b, c). -/
theorem kHid_apply (b : Fin 2048) (c : Fin 128) : kHid v0 v2 v5 (ix2 b c) = CpcSpec.hid v0 v2 v5 b c := by
  unfold kHid CpcSpec.hid
  rw [addf_apply, matmul1_apply, row128_apply, shapeCast_self]
  rfl

variable (h : FVec Ideal S2048x128 .f32) (hh : ∀ (b : Fin 2048) (c : Fin 128), h (ix2 b c) = CpcSpec.hid v0 v2 v5 b c)
include hh

/-- The channel mean at c. -/
theorem kMu_apply (u : Fin 1) (c : Fin 128) : kMu h (ix2 u c) = CpcSpec.mu v0 v2 v5 c := by
  unfold kMu CpcSpec.mu
  rw [divf_apply, broadcast_apply, shapeCast_a_1a_apply]
  refine (congrArg (fun s => Ideal.div s _) (colSum_apply h _ _ c)).trans ?_
  simp only [hh]
  rfl

/-- The deviation at (b, c). -/
theorem kDev_apply (b : Fin 2048) (c : Fin 128) : kDev h (ix2 b c) = CpcSpec.hid v0 v2 v5 b c - CpcSpec.mu v0 v2 v5 c := by
  unfold kDev
  rw [subf_apply, rowB_apply, hh, kMu_apply v0 v2 v5 h hh]

/-- The channel variance at c. -/
theorem kVar_apply (u : Fin 1) (c : Fin 128) : kVar h (ix2 u c) = CpcSpec.var v0 v2 v5 c := by
  unfold kVar CpcSpec.var
  rw [divf_apply, broadcast_apply, shapeCast_a_1a_apply]
  refine (congrArg (fun s => Ideal.div s _) (colSum_apply (mulf (kDev h) (kDev h)) _ _ c)).trans ?_
  simp only [mulf_apply, kDev_apply v0 v2 v5 h hh]
  rfl

/-- The normalised, scaled and shifted activation at (b, c). -/
theorem kHn_apply (b : Fin 2048) (c : Fin 128) : kHn h v27 v31 (ix2 b c) = CpcSpec.hn v0 v2 v5 v27 v31 b c := by
  unfold kHn CpcSpec.hn
  rw [addf_apply, mulf_apply, mulf_apply, kDev_apply v0 v2 v5 h hh, rowB_apply, row128_apply, row128_apply, rsqrt_apply, addf_apply,
    broadcast_apply, kVar_apply v0 v2 v5 h hh]
  rfl

/-- The rectified activation at (b, c). -/
theorem kAct_apply (b : Fin 2048) (c : Fin 128) : kAct (kHn h v27 v31) (ix2 b c) = CpcSpec.act v0 v2 v5 v27 v31 b c := by
  unfold CpcSpec.act
  rw [← kHn_apply v0 v2 v5 v27 v31 h hh b c]
  rfl

end Stages

/-! ## The projection head -/

/-- The kernel's hidden layer at (b, c) is the specification's rectified activation. -/
theorem pay2_apply (v0 : Vec Ideal S2048x4096 .bf16) (v2 : Vec Ideal S128x4096 .f32) (v5 v27 v31 : Vec Ideal S128 .f32) (b : Fin 2048) (c : Fin 128) :
    k1_pay2 (F := Ideal) v0 v2 v5 v27 v31 (ix2 b c) = CpcSpec.act v0 v2 v5 v27 v31 b c :=
  (congrFun (pay2_eq_stages v0 v2 v5 v27 v31) (ix2 b c)).trans
    (kAct_apply v0 v2 v5 v27 v31 (kHid v0 v2 v5) (kHid_apply v0 v2 v5) b c)

/-- The second linear layer over any hidden layer a, at (b, p). -/
theorem pay1_apply (a : FVec Ideal S2048x128 .bf16) (v41 : Vec Ideal S32x128 .f32) (v44 : Vec Ideal S32 .f32) (b : Fin 2048) (p : Fin 32) :
    k1_pay1 (F := Ideal) a v41 v44 (ix2 b p) = (∑ c : Fin 128, a (ix2 b c) * v41 (ix2 p c)) + v44 (ix1 p) := by
  unfold k1_pay1
  rw [addf_apply, matmul2_apply, row32_apply]
  rfl

/-- The kernel's stored value at (b, p) is the specification's projection. -/
theorem pay_proj (v0 : Vec Ideal S2048x4096 .bf16) (v2 : Vec Ideal S128x4096 .f32) (v5 v27 v31 : Vec Ideal S128 .f32)
    (v41 : Vec Ideal S32x128 .f32) (v44 : Vec Ideal S32 .f32) (b : Fin 2048) (p : Fin 32) :
    Cert.KernelIdeal.Gen.k1_pay1 (F := Ideal) (Cert.KernelIdeal.Gen.k1_pay2 (F := Ideal) v0 v2 v5 v27 v31) v41 v44 (ix2 b p)
      = Cert.CpcSpec.proj v0 v2 v5 v27 v31 v41 v44 b p := by
  refine (pay1_apply _ v41 v44 b p).trans ?_
  unfold CpcSpec.proj
  refine congrArg (fun s => s + v44 (ix1 p)) (Finset.sum_congr rfl fun c _ => ?_)
  rw [pay2_apply]

end Cert.KernelIdeal.PayValue1

end
-- ==== Proof.KI.HeadFinal.lean ====
import proofs.«138056_j16037407883274_2_alg».proof.Proof.KI.Run
import proofs.«138056_j16037407883274_2_alg».proof.Proof.KI.R1Value
import proofs.«138056_j16037407883274_2_alg».proof.Proof.KI.R0Host
import proofs.«138056_j16037407883274_2_alg».proof.Proof.KI.Pay1Value
import proofs.«138056_j16037407883274_2_alg».proof.Proof.CpcSpec

noncomputable section

namespace Cert.KernelIdeal.Gen

open Idealize.ShloMosaic Idealize.ShloMosaic.TcCoe Idealize.ShloMosaic.ValueIdx Idealize.SL.Sem

/-- The projection is a function of its seven arrays. -/
theorem proj_congr {ct ct' : CpcSpec.A2 2048 4096} {pw1 pw1' : CpcSpec.A2 128 4096} {pb1 pb1' gamma gamma' beta beta' : CpcSpec.A1 128}
    {pw2 pw2' : CpcSpec.A2 32 128} {pb2 pb2' : CpcSpec.A1 32}
    (h0 : ct = ct') (h1 : pw1 = pw1') (h2 : pb1 = pb1') (h3 : gamma = gamma') (h4 : beta = beta') (h5 : pw2 = pw2') (h6 : pb2 = pb2')
    (b : Fin 2048) (p : Fin 32) :
    CpcSpec.proj ct pw1 pb1 gamma beta pw2 pb2 b p = CpcSpec.proj ct' pw1' pb1' gamma' beta' pw2' pb2' b p := by
  subst h0 h1 h2 h3 h4 h5 h6
  rfl

/-- The projection kernel's result, as a term of the arrays its region is entered with, is the specification's projection of
    those arrays, entry by entry. -/
theorem head1_proj (V : (c : Dev nD) → (b : Ref sig .tc) → Buf (Elt Ideal) ((c : Thread nD τ).loc b)) (c : Dev nD)
    (b : Fin 2048) (p : Fin 32) :
    (head1 V c : S2048x32.Idx → EReal) (ix2 b p)
      = CpcSpec.proj (V c main_v0) (V c main_arg4) (V c main_arg5) (V c main_arg6) (V c main_arg7) (V c main_arg8) (V c main_arg9) b p := by
  unfold head1
  exact PayValue1.pay_proj _ _ _ _ _ _ _ b p

section Run

variable (m : (ℓ : Loc nD τ sig) → Buf (Elt Ideal) ℓ) (ρ : Dev nD → PrngReg)

/-- Over the extended reals the narrowed copy of the [2048, 4096] argument that the projection kernel's region is entered with
    is the argument itself: no segment before that region writes it after the first host stretch, whose narrowing is the
    identity entry by entry. -/
theorem V3_main_v0 (c : Dev nD) :
    (V3 m ρ c main_v0 : S2048x4096.Idx → EReal) = (m ((c : Thread nD τ).loc main_arg1) : S2048x4096.Idx → EReal) := by
  funext i
  obtain ⟨b, d, rfl⟩ : ∃ (b : Fin 2048) (d : Fin 4096), i = ix2 b d := ⟨i 0, i 1, eq_ix2 i⟩
  have e1 : W1 m ρ c = hostVal0 m c := rfl
  have e3 : (W3 m ρ c (Proc.devRef .tc main_v0) : S2048x4096.Idx → EReal) = hostVal0 m c (Proc.devRef .tc main_v0) :=
    (W3_main_v0 m ρ c).trans (congrFun e1 (Proc.devRef .tc main_v0))
  exact (congrFun e3 (ix2 b d)).trans (W1_main_v0_apply m c b d)

/-- The projection result at the end of the run is the specification's projection of the launch arrays. -/
theorem kernel_proj (c : Dev nD) :
    (W4 m ρ c (Proc.devRef .tc main_v7) : S2048x32.Idx → EReal)
      = fun i => Cert.CpcSpec.proj (m ((c : Thread nD τ).loc main_arg1)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (i 0) (i 1) := by
  have e : (W4 m ρ c (Proc.devRef .tc main_v7) : S2048x32.Idx → EReal) = head1 (V3 m ρ) c :=
    (W4_main_v7 m ρ c).trans (final1 (V3 m ρ) c)
  refine e.trans (funext fun i => ?_)
  obtain ⟨b, p, rfl⟩ : ∃ (b : Fin 2048) (p : Fin 32), i = ix2 b p := ⟨i 0, i 1, eq_ix2 i⟩
  refine (head1_proj (V3 m ρ) c b p).trans ?_
  exact proj_congr (V3_main_v0 m ρ c) (W3_main_arg4 m ρ c) (W3_main_arg5 m ρ c) (W3_main_arg6 m ρ c) (W3_main_arg7 m ρ c)
    (W3_main_arg8 m ρ c) (W3_main_arg9 m ρ c) b p

end Run

end Cert.KernelIdeal.Gen

end
-- ==== Proof.LibPlainOps.lean ====
/-
  General lemmas about a straight line of host operations.

  * An operation of a called function is printed over typed references: a buffer together with a proof that the
    buffer's type is the value's type, contents being carried between the two types along that proof. When the value's
    type is the buffer's own type the proof is reflexivity and nothing is carried: the operation is the plain operation
    over the buffers. Stated for the operations of no, one and two operands; a literal buffer's type is its value's type
    by computation, so these lemmas apply to every printed call site.
  * The buffer contents after a concatenation of two operation lists are the contents after the second list, from the
    contents after the first. A long program can so be read one stretch at a time, each stretch a function of the
    buffers the stretch before it left, with no intermediate result ever written out twice.
-/
import Idealize.ShloMosaic.Lib.StableHlo
import Idealize.ShloMosaic.Lib.StableHlo.Run

noncomputable section

namespace Cert.LibPlainOps

open Idealize.ShloMosaic Idealize.ShloMosaic.TcCoe Idealize.ShloMosaic.StableHlo

variable {τ : Topo} {sig : RefSig} {Val : EltTy → Type}

/-- A constant written through a typed reference at the buffer's own type is the plain constant operation. -/
theorem nullary_plain (y : Ref sig .tc) (hd : y.space ≠ .host) (hs : y.isScoped = false) (v : y.ty.Contents Val)
    (hy : y.space ≠ .host ∧ (y : DevRef τ sig).isScoped = false) :
    (TRef.nullary (TRef.of (T := y.ty) y rfl hd hs) v : HloOp τ sig Val) = StableHlo.nullary y v hy := rfl

/-- A one-operand operation through typed references at the buffers' own types is the plain operation. -/
theorem unary_plain (x y : Ref sig .tc) (hxd : x.space ≠ .host) (hxs : x.isScoped = false) (hyd : y.space ≠ .host)
    (hys : y.isScoped = false) (f : x.ty.Contents Val → y.ty.Contents Val)
    (hx : x.space ≠ .host ∧ (x : DevRef τ sig).isScoped = false) (hy : y.space ≠ .host ∧ (y : DevRef τ sig).isScoped = false) :
    (TRef.unary (TRef.of (T := x.ty) x rfl hxd hxs) (TRef.of (T := y.ty) y rfl hyd hys) f : HloOp τ sig Val)
      = StableHlo.unary x y f hx hy := rfl

/-- A two-operand operation through typed references at the buffers' own types is the plain operation. -/
theorem binary_plain (a b y : Ref sig .tc) (had : a.space ≠ .host) (has : a.isScoped = false) (hbd : b.space ≠ .host)
    (hbs : b.isScoped = false) (hyd : y.space ≠ .host) (hys : y.isScoped = false)
    (f : a.ty.Contents Val → b.ty.Contents Val → y.ty.Contents Val)
    (ha : a.space ≠ .host ∧ (a : DevRef τ sig).isScoped = false) (hb : b.space ≠ .host ∧ (b : DevRef τ sig).isScoped = false)
    (hy : y.space ≠ .host ∧ (y : DevRef τ sig).isScoped = false) :
    (TRef.binary (TRef.of (T := a.ty) a rfl had has) (TRef.of (T := b.ty) b rfl hbd hbs) (TRef.of (T := y.ty) y rfl hyd hys) f
        : HloOp τ sig Val)
      = StableHlo.binary a b y f ha hb hy := rfl

/-- The contents after a concatenation are the contents after the second list from the contents after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibPlainOps

end
-- ==== Proof.RefPlain.lean ====
/-
  The reference's operation list with the operations of its three outlined functions spelt as plain operations over their
  buffers. In the printed list such an operation carries its values between the value's type and the buffer's type along a
  proof that the two are equal; every buffer here is a literal whose type is the value's type by computation, so nothing is
  carried and the two spellings are the same operation. The list is the same 93 operations in the same order, and the equality
  is checked one operation at a time: an untouched operation is itself, a respelt one is the plain operation by the lemma for
  its number of operands.
-/
import proofs.«138056_j16037407883274_2_alg».proof.Proof.RefOps
import proofs.«138056_j16037407883274_2_alg».proof.Proof.LibPlainOps

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The 93 operations, every one a plain operation over its buffers. -/
abbrev opsP : List (HloOp τ sig (Elt F)) :=
  [ unary main_arg0 main_v0 ((transpose S18x2048x128 [2, 0, 1] · transposes_S2048x128x18_S18x2048x128_2_0_1) : (⟨S2048x128x18, .f32⟩ : BufTy).Contents (Elt F) → (⟨S18x2048x128, .f32⟩ : BufTy).Contents (Elt F)),
    binary main_arg2 main_arg1 main_v1 ((fun l r => Host.dotGeneral dot_S18x128x4096_S2048x4096_S18x128x2048_2_1_01_0_n_n none l r) : (⟨S18x128x4096, .f32⟩ : BufTy).Contents (Elt F) → (⟨S2048x4096, .f32⟩ : BufTy).Contents (Elt F) → (⟨S18x128x2048, .f32⟩ : BufTy).Contents (Elt F)),
    unary main_v1 main_v2 ((transpose S18x2048x128 [0, 2, 1] · transposes_S18x128x2048_S18x2048x128_0_2_1) : (⟨S18x128x2048, .f32⟩ : BufTy).Contents (Elt F) → (⟨S18x2048x128, .f32⟩ : BufTy).Contents (Elt F)),
    unary main_arg3 main_v3 (broadcastInDim S18x1x128 ![0, 2] bcast_S18x128_S18x1x128_0_2 : (⟨S18x128, .f32⟩ : BufTy).Contents (Elt F) → (⟨S18x1x128, .f32⟩ : BufTy).Contents (Elt F)),
    unary main_v3 main_v4 (broadcastInDim S18x2048x128 ![0, 1, 2] bcast_S18x1x128_S18x2048x128_0_1_2 : (⟨S18x1x128, .f32⟩ : BufTy).Contents (Elt F) → (⟨S18x2048x128, .f32⟩ : BufTy).Contents (Elt F)),
    binary main_v2 main_v4 main_v5 (addf : (⟨S18x2048x128, .f32⟩ : BufTy).Contents (Elt F) → (⟨S18x2048x128, .f32⟩ : BufTy).Contents (Elt F) → (⟨S18x2048x128, .f32⟩ : BufTy).Contents (Elt F)),
    binary main_v0 main_v5 main_v6 ((fun l r => Host.dotGeneral dot_S18x2048x128_S18x2048x128_S18x2048x2048_2_2_1_1_0_0 none l r) : (⟨S18x2048x128, .f32⟩ : BufTy).Contents (Elt F) → (⟨S18x2048x128, .f32⟩ : BufTy).Contents (Elt F) → (⟨S18x2048x2048, .f32⟩ : BufTy).Contents (Elt F)),
    nullary main_call0_cst (constant S_ .f32 0xFF800000#32 : (⟨S_, .f32⟩ : BufTy).Contents (Elt F)),
    binary main_v6 main_call0_cst main_call0_v0 (fun x v => Host.reduce FloatOps.maximumf x v reducesTo_S18x2048x2048_S18x2048_d2 h_S_ : (⟨S18x2048x2048, .f32⟩ : BufTy).Contents (Elt F) → (⟨S_, .f32⟩ : BufTy).Contents (Elt F) → (⟨S18x2048, .f32⟩ : BufTy).Contents (Elt F)),
    nullary main_call0_cst_0 (constant S_ .f32 0xFF800000#32 : (⟨S_, .f32⟩ : BufTy).Contents (Elt F)),
    unary main_call0_cst_0 main_call0_v1 (broadcastInDim S18x2048 ![] bcast_S_S18x2048 : (⟨S_, .f32⟩ : BufTy).Contents (Elt F) → (⟨S18x2048, .f32⟩ : BufTy).Contents (Elt F)),
    binary main_call0_v1 main_call0_v0 main_call0_v2 (maximumf : (⟨S18x2048, .f32⟩ : BufTy).Contents (Elt F) → (⟨S18x2048, .f32⟩ : BufTy).Contents (Elt F) → (⟨S18x2048, .f32⟩ : BufTy).Contents (Elt F)),
    unary main_call0_v2 main_call0_v3 (broadcastInDim S18x2048x1 ![0, 1] bcast_S18x2048_S18x2048x1_0_1 : (⟨S18x2048, .f32⟩ : BufTy).Contents (Elt F) → (⟨S18x2048x1, .f32⟩ : BufTy).Contents (Elt F)),
    unary main_call0_v3 main_call0_v4 (broadcastInDim S18x2048x2048 ![0, 1, 2] bcast_S18x2048x1_S18x2048x2048_0_1_2 : (⟨S18x2048x1, .f32⟩ : BufTy).Contents (Elt F) → (⟨S18x2048x2048, .f32⟩ : BufTy).Contents (Elt F)),
    binary main_v6 main_call0_v4 main_call0_v5 (subf : (⟨S18x2048x2048, .f32⟩ : BufTy).Contents (Elt F) → (⟨S18x2048x2048, .f32⟩ : BufTy).Contents (Elt F) → (⟨S18x2048x2048, .f32⟩ : BufTy).Contents (Elt F)),
    unary main_call0_v5 main_call0_v6 (Host.exp : (⟨S18x2048x2048, .f32⟩ : BufTy).Contents (Elt F) → (⟨S18x2048x2048, .f32⟩ : BufTy).Contents (Elt F)),
    nullary main_call0_cst_1 (constant S_ .f32 0x00000000#32 : (⟨S_, .f32⟩ : BufTy).Contents (Elt F)),
    binary main_call0_v6 main_call0_cst_1 main_call0_v7 (fun x v => Host.reduceAdd x v reducesTo_S18x2048x2048_S18x2048_d2 h_S_ : (⟨S18x2048x2048, .f32⟩ : BufTy).Contents (Elt F) → (⟨S_, .f32⟩ : BufTy).Contents (Elt F) → (⟨S18x2048, .f32⟩ : BufTy).Contents (Elt F)),
    unary main_call0_v7 main_call0_v8 (broadcastInDim S18x2048x1 ![0, 1] bcast_S18x2048_S18x2048x1_0_1 : (⟨S18x2048, .f32⟩ : BufTy).Contents (Elt F) → (⟨S18x2048x1, .f32⟩ : BufTy).Contents (Elt F)),
    unary main_call0_v8 main_call0_v9 (Host.log : (⟨S18x2048x1, .f32⟩ : BufTy).Contents (Elt F) → (⟨S18x2048x1, .f32⟩ : BufTy).Contents (Elt F)),
    unary main_call0_v9 main_call0_v10 (broadcastInDim S18x2048x2048 ![0, 1, 2] bcast_S18x2048x1_S18x2048x2048_0_1_2 : (⟨S18x2048x1, .f32⟩ : BufTy).Contents (Elt F) → (⟨S18x2048x2048, .f32⟩ : BufTy).Contents (Elt F)),
    binary main_call0_v5 main_call0_v10 main_v7 (subf : (⟨S18x2048x2048, .f32⟩ : BufTy).Contents (Elt F) → (⟨S18x2048x2048, .f32⟩ : BufTy).Contents (Elt F) → (⟨S18x2048x2048, .f32⟩ : BufTy).Contents (Elt F)),
    nullary main_call1_v0 (iotaInDim S2048 32 0 : (⟨S2048, .i32⟩ : BufTy).Contents (Elt F)),
    nullary main_call1_v1 (iotaInDim S2048 32 0 : (⟨S2048, .i32⟩ : BufTy).Contents (Elt F)),
    nullary main_call1_c (constantI S_ 32 0#32 : (⟨S_, .i32⟩ : BufTy).Contents (Elt F)),
    unary main_call1_c main_call1_v2 (broadcastInDim S2048 ![] bcast_S_S2048 : (⟨S_, .i32⟩ : BufTy).Contents (Elt F) → (⟨S2048, .i32⟩ : BufTy).Contents (Elt F)),
    binary main_call1_v0 main_call1_v2 main_call1_v3 (cmpi .slt : (⟨S2048, .i32⟩ : BufTy).Contents (Elt F) → (⟨S2048, .i32⟩ : BufTy).Contents (Elt F) → (⟨S2048, .i1⟩ : BufTy).Contents (Elt F)),
    nullary main_call1_c_0 (constantI S_ 32 2048#32 : (⟨S_, .i32⟩ : BufTy).Contents (Elt F)),
    unary main_call1_c_0 main_call1_v4 (broadcastInDim S2048 ![] bcast_S_S2048 : (⟨S_, .i32⟩ : BufTy).Contents (Elt F) → (⟨S2048, .i32⟩ : BufTy).Contents (Elt F)),
    binary main_call1_v0 main_call1_v4 main_call1_v5 (addi : (⟨S2048, .i32⟩ : BufTy).Contents (Elt F) → (⟨S2048, .i32⟩ : BufTy).Contents (Elt F) → (⟨S2048, .i32⟩ : BufTy).Contents (Elt F)),
    ternary main_call1_v3 main_call1_v5 main_call1_v0 main_call1_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_call1_c_1 (constantI S_ 32 0#32 : (⟨S_, .i32⟩ : BufTy).Contents (Elt F)),
    unary main_call1_c_1 main_call1_v7 (broadcastInDim S2048 ![] bcast_S_S2048 : (⟨S_, .i32⟩ : BufTy).Contents (Elt F) → (⟨S2048, .i32⟩ : BufTy).Contents (Elt F)),
    binary main_call1_v1 main_call1_v7 main_call1_v8 (cmpi .slt : (⟨S2048, .i32⟩ : BufTy).Contents (Elt F) → (⟨S2048, .i32⟩ : BufTy).Contents (Elt F) → (⟨S2048, .i1⟩ : BufTy).Contents (Elt F)),
    nullary main_call1_c_2 (constantI S_ 32 2048#32 : (⟨S_, .i32⟩ : BufTy).Contents (Elt F)),
    unary main_call1_c_2 main_call1_v9 (broadcastInDim S2048 ![] bcast_S_S2048 : (⟨S_, .i32⟩ : BufTy).Contents (Elt F) → (⟨S2048, .i32⟩ : BufTy).Contents (Elt F)),
    binary main_call1_v1 main_call1_v9 main_call1_v10 (addi : (⟨S2048, .i32⟩ : BufTy).Contents (Elt F) → (⟨S2048, .i32⟩ : BufTy).Contents (Elt F) → (⟨S2048, .i32⟩ : BufTy).Contents (Elt F)),
    ternary main_call1_v8 main_call1_v10 main_call1_v1 main_call1_v11 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_call1_v6 main_call1_v12 (broadcastInDim S2048x1 ![0] bcast_S2048_S2048x1_0 : (⟨S2048, .i32⟩ : BufTy).Contents (Elt F) → (⟨S2048x1, .i32⟩ : BufTy).Contents (Elt F)),
    unary main_call1_v11 main_call1_v13 (broadcastInDim S2048x1 ![0] bcast_S2048_S2048x1_0 : (⟨S2048, .i32⟩ : BufTy).Contents (Elt F) → (⟨S2048x1, .i32⟩ : BufTy).Contents (Elt F)),
    binary main_call1_v12 main_call1_v13 main_call1_v14 (fun a b => concatenate S2048x2 1 [⟨S2048x1, a⟩, ⟨S2048x1, b⟩] concatenates_S2048x1_S2048x1_S2048x2_d1 : (⟨S2048x1, .i32⟩ : BufTy).Contents (Elt F) → (⟨S2048x1, .i32⟩ : BufTy).Contents (Elt F) → (⟨S2048x2, .i32⟩ : BufTy).Contents (Elt F)),
    binary main_v7 main_call1_v14 main_v8 (fun x i => Host.gather gather_S18x2048x2048_S2048x2_S18x2048_0_12_n_n_12_1_1811 x i : (⟨S18x2048x2048, .f32⟩ : BufTy).Contents (Elt F) → (⟨S2048x2, .i32⟩ : BufTy).Contents (Elt F) → (⟨S18x2048, .f32⟩ : BufTy).Contents (Elt F)),
    nullary main_cst (constant S_ .f32 0x00000000#32),
    binary main_v8 main_cst main_v9 ((fun x v => Host.reduceAdd x v reducesTo_S18x2048_S_d0_1 h_S_) : (⟨S18x2048, .f32⟩ : BufTy).Contents (Elt F) → (⟨S_, .f32⟩ : BufTy).Contents (Elt F) → (⟨S_, .f32⟩ : BufTy).Contents (Elt F)),
    nullary main_cst_0 (constant S_ .f32 0xC7100000#32),
    binary main_v9 main_cst_0 main_v10 (Host.divf : (⟨S_, .f32⟩ : BufTy).Contents (Elt F) → (⟨S_, .f32⟩ : BufTy).Contents (Elt F) → (⟨S_, .f32⟩ : BufTy).Contents (Elt F)),
    unary main_arg4 main_v11 ((transpose S4096x128 [1, 0] · transposes_S128x4096_S4096x128_1_0) : (⟨S128x4096, .f32⟩ : BufTy).Contents (Elt F) → (⟨S4096x128, .f32⟩ : BufTy).Contents (Elt F)),
    binary main_arg1 main_v11 main_v12 ((fun l r => Host.dotGeneral dot_S2048x4096_S4096x128_S2048x128_1_0_0_1_n_n none l r) : (⟨S2048x4096, .f32⟩ : BufTy).Contents (Elt F) → (⟨S4096x128, .f32⟩ : BufTy).Contents (Elt F) → (⟨S2048x128, .f32⟩ : BufTy).Contents (Elt F)),
    unary main_arg5 main_v13 (broadcastInDim S1x128 ![1] bcast_S128_S1x128_1 : (⟨S128, .f32⟩ : BufTy).Contents (Elt F) → (⟨S1x128, .f32⟩ : BufTy).Contents (Elt F)),
    unary main_v13 main_v14 (broadcastInDim S2048x128 ![0, 1] bcast_S1x128_S2048x128_0_1 : (⟨S1x128, .f32⟩ : BufTy).Contents (Elt F) → (⟨S2048x128, .f32⟩ : BufTy).Contents (Elt F)),
    binary main_v12 main_v14 main_v15 (addf : (⟨S2048x128, .f32⟩ : BufTy).Contents (Elt F) → (⟨S2048x128, .f32⟩ : BufTy).Contents (Elt F) → (⟨S2048x128, .f32⟩ : BufTy).Contents (Elt F)),
    nullary main_cst_1 (constant S_ .f32 0x00000000#32),
    binary main_v15 main_cst_1 main_v16 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    nullary main_cst_2 (constant S_ .f32 0x45000000#32),
    unary main_cst_2 main_v17 (broadcastInDim S128 ![] bcast_S_S128 : (⟨S_, .f32⟩ : BufTy).Contents (Elt F) → (⟨S128, .f32⟩ : BufTy).Contents (Elt F)),
    binary main_v16 main_v17 main_v18 (Host.divf : (⟨S128, .f32⟩ : BufTy).Contents (Elt F) → (⟨S128, .f32⟩ : BufTy).Contents (Elt F) → (⟨S128, .f32⟩ : BufTy).Contents (Elt F)),
    unary main_v18 main_v19 (broadcastInDim S1x128 ![1] bcast_S128_S1x128_1 : (⟨S128, .f32⟩ : BufTy).Contents (Elt F) → (⟨S1x128, .f32⟩ : BufTy).Contents (Elt F)),
    unary main_v19 main_v20 (broadcastInDim S2048x128 ![0, 1] bcast_S1x128_S2048x128_0_1 : (⟨S1x128, .f32⟩ : BufTy).Contents (Elt F) → (⟨S2048x128, .f32⟩ : BufTy).Contents (Elt F)),
    binary main_v15 main_v20 main_v21 (subf : (⟨S2048x128, .f32⟩ : BufTy).Contents (Elt F) → (⟨S2048x128, .f32⟩ : BufTy).Contents (Elt F) → (⟨S2048x128, .f32⟩ : BufTy).Contents (Elt F)),
    binary main_v21 main_v21 main_v22 (mulf : (⟨S2048x128, .f32⟩ : BufTy).Contents (Elt F) → (⟨S2048x128, .f32⟩ : BufTy).Contents (Elt F) → (⟨S2048x128, .f32⟩ : BufTy).Contents (Elt F)),
    nullary main_cst_3 (constant S_ .f32 0x00000000#32),
    binary main_v22 main_cst_3 main_v23 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    nullary main_cst_4 (constant S_ .f32 0x45000000#32),
    unary main_cst_4 main_v24 (broadcastInDim S128 ![] bcast_S_S128 : (⟨S_, .f32⟩ : BufTy).Contents (Elt F) → (⟨S128, .f32⟩ : BufTy).Contents (Elt F)),
    binary main_v23 main_v24 main_v25 (Host.divf : (⟨S128, .f32⟩ : BufTy).Contents (Elt F) → (⟨S128, .f32⟩ : BufTy).Contents (Elt F) → (⟨S128, .f32⟩ : BufTy).Contents (Elt F)),
    unary main_v18 main_v26 (broadcastInDim S1x128 ![1] bcast_S128_S1x128_1 : (⟨S128, .f32⟩ : BufTy).Contents (Elt F) → (⟨S1x128, .f32⟩ : BufTy).Contents (Elt F)),
    unary main_v26 main_v27 (broadcastInDim S2048x128 ![0, 1] bcast_S1x128_S2048x128_0_1 : (⟨S1x128, .f32⟩ : BufTy).Contents (Elt F) → (⟨S2048x128, .f32⟩ : BufTy).Contents (Elt F)),
    binary main_v15 main_v27 main_v28 (subf : (⟨S2048x128, .f32⟩ : BufTy).Contents (Elt F) → (⟨S2048x128, .f32⟩ : BufTy).Contents (Elt F) → (⟨S2048x128, .f32⟩ : BufTy).Contents (Elt F)),
    nullary main_cst_5 (constant S_ .f32 0x3727C5AC#32),
    unary main_cst_5 main_v29 (broadcastInDim S128 ![] bcast_S_S128 : (⟨S_, .f32⟩ : BufTy).Contents (Elt F) → (⟨S128, .f32⟩ : BufTy).Contents (Elt F)),
    binary main_v25 main_v29 main_v30 (addf : (⟨S128, .f32⟩ : BufTy).Contents (Elt F) → (⟨S128, .f32⟩ : BufTy).Contents (Elt F) → (⟨S128, .f32⟩ : BufTy).Contents (Elt F)),
    unary main_v30 main_v31 (Host.rsqrt : (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S2048x128 ![0, 1] bcast_S1x128_S2048x128_0_1 : (⟨S1x128, .f32⟩ : BufTy).Contents (Elt F) → (⟨S2048x128, .f32⟩ : BufTy).Contents (Elt F)),
    binary main_v28 main_v33 main_v34 (mulf : (⟨S2048x128, .f32⟩ : BufTy).Contents (Elt F) → (⟨S2048x128, .f32⟩ : BufTy).Contents (Elt F) → (⟨S2048x128, .f32⟩ : BufTy).Contents (Elt F)),
    unary main_arg6 main_v35 (broadcastInDim S1x128 ![1] bcast_S128_S1x128_1 : (⟨S128, .f32⟩ : BufTy).Contents (Elt F) → (⟨S1x128, .f32⟩ : BufTy).Contents (Elt F)),
    unary main_v35 main_v36 (broadcastInDim S2048x128 ![0, 1] bcast_S1x128_S2048x128_0_1 : (⟨S1x128, .f32⟩ : BufTy).Contents (Elt F) → (⟨S2048x128, .f32⟩ : BufTy).Contents (Elt F)),
    binary main_v34 main_v36 main_v37 (mulf : (⟨S2048x128, .f32⟩ : BufTy).Contents (Elt F) → (⟨S2048x128, .f32⟩ : BufTy).Contents (Elt F) → (⟨S2048x128, .f32⟩ : BufTy).Contents (Elt F)),
    unary main_arg7 main_v38 (broadcastInDim S1x128 ![1] bcast_S128_S1x128_1 : (⟨S128, .f32⟩ : BufTy).Contents (Elt F) → (⟨S1x128, .f32⟩ : BufTy).Contents (Elt F)),
    unary main_v38 main_v39 (broadcastInDim S2048x128 ![0, 1] bcast_S1x128_S2048x128_0_1 : (⟨S1x128, .f32⟩ : BufTy).Contents (Elt F) → (⟨S2048x128, .f32⟩ : BufTy).Contents (Elt F)),
    binary main_v37 main_v39 main_v40 (addf : (⟨S2048x128, .f32⟩ : BufTy).Contents (Elt F) → (⟨S2048x128, .f32⟩ : BufTy).Contents (Elt F) → (⟨S2048x128, .f32⟩ : BufTy).Contents (Elt F)),
    nullary main_cst_6 (constant S_ .f32 0x00000000#32),
    unary main_cst_6 main_v41 (broadcastInDim S2048x128 ![] bcast_S_S2048x128 : (⟨S_, .f32⟩ : BufTy).Contents (Elt F) → (⟨S2048x128, .f32⟩ : BufTy).Contents (Elt F)),
    binary main_v40 main_v41 main_v42 (cmpf .oge : (⟨S2048x128, .f32⟩ : BufTy).Contents (Elt F) → (⟨S2048x128, .f32⟩ : BufTy).Contents (Elt F) → (⟨S2048x128, .i1⟩ : BufTy).Contents (Elt F)),
    nullary main_cst_7 (constant S_ .f32 0x3C23D70A#32),
    unary main_cst_7 main_v43 (broadcastInDim S2048x128 ![] bcast_S_S2048x128 : (⟨S_, .f32⟩ : BufTy).Contents (Elt F) → (⟨S2048x128, .f32⟩ : BufTy).Contents (Elt F)),
    binary main_v43 main_v40 main_v44 (mulf : (⟨S2048x128, .f32⟩ : BufTy).Contents (Elt F) → (⟨S2048x128, .f32⟩ : BufTy).Contents (Elt F) → (⟨S2048x128, .f32⟩ : BufTy).Contents (Elt F)),
    ternary main_v42 main_v40 main_v44 main_v45 (select : (⟨S2048x128, .i1⟩ : BufTy).Contents (Elt F) → (⟨S2048x128, .f32⟩ : BufTy).Contents (Elt F) → (⟨S2048x128, .f32⟩ : BufTy).Contents (Elt F) → (⟨S2048x128, .f32⟩ : BufTy).Contents (Elt F)),
    unary main_arg8 main_v46 ((transpose S128x32 [1, 0] · transposes_S32x128_S128x32_1_0) : (⟨S32x128, .f32⟩ : BufTy).Contents (Elt F) → (⟨S128x32, .f32⟩ : BufTy).Contents (Elt F)),
    binary main_v45 main_v46 main_v47 ((fun l r => Host.dotGeneral dot_S2048x128_S128x32_S2048x32_1_0_0_1_n_n none l r) : (⟨S2048x128, .f32⟩ : BufTy).Contents (Elt F) → (⟨S128x32, .f32⟩ : BufTy).Contents (Elt F) → (⟨S2048x32, .f32⟩ : BufTy).Contents (Elt F)),
    unary main_arg9 main_v48 (broadcastInDim S1x32 ![1] bcast_S32_S1x32_1 : (⟨S32, .f32⟩ : BufTy).Contents (Elt F) → (⟨S1x32, .f32⟩ : BufTy).Contents (Elt F)),
    unary main_v48 main_v49 (broadcastInDim S2048x32 ![0, 1] bcast_S1x32_S2048x32_0_1 : (⟨S1x32, .f32⟩ : BufTy).Contents (Elt F) → (⟨S2048x32, .f32⟩ : BufTy).Contents (Elt F)),
    binary main_v47 main_v49 main_v50 (addf : (⟨S2048x32, .f32⟩ : BufTy).Contents (Elt F) → (⟨S2048x32, .f32⟩ : BufTy).Contents (Elt F) → (⟨S2048x32, .f32⟩ : BufTy).Contents (Elt F)) ]

/-- A three-operand operation through typed references at the buffers' own types is the plain operation. -/
theorem ternary_plain {τ : Topo} {sig : RefSig} {Val : EltTy → Type} (c a b y : Ref sig .tc) (hcd : c.space ≠ .host) (hcs : c.isScoped = false)
    (had : a.space ≠ .host) (has : a.isScoped = false) (hbd : b.space ≠ .host) (hbs : b.isScoped = false) (hyd : y.space ≠ .host) (hys : y.isScoped = false)
    (f : c.ty.Contents Val → a.ty.Contents Val → b.ty.Contents Val → y.ty.Contents Val)
    (hc : c.space ≠ .host ∧ (c : DevRef τ sig).isScoped = false) (ha : a.space ≠ .host ∧ (a : DevRef τ sig).isScoped = false)
    (hb : b.space ≠ .host ∧ (b : DevRef τ sig).isScoped = false) (hy : y.space ≠ .host ∧ (y : DevRef τ sig).isScoped = false) :
    (TRef.ternary (TRef.of (T := c.ty) c rfl hcd hcs) (TRef.of (T := a.ty) a rfl had has) (TRef.of (T := b.ty) b rfl hbd hbs) (TRef.of (T := y.ty) y rfl hyd hys) f
        : HloOp τ sig Val)
      = StableHlo.ternary c a b y f hc ha hb hy := rfl

set_option maxHeartbeats 4000000 in
/-- The printed list is this list: operation by operation. -/
theorem ops_eq : (ops : List (HloOp τ sig (Elt F))) = opsP := by
  unfold ops opsP
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · exact Cert.LibPlainOps.nullary_plain _ _ _ _ _
  refine congrArg₂ List.cons ?_ ?_
  · exact Cert.LibPlainOps.binary_plain _ _ _ _ _ _ _ _ _ _ _ _ _
  refine congrArg₂ List.cons ?_ ?_
  · exact Cert.LibPlainOps.nullary_plain _ _ _ _ _
  refine congrArg₂ List.cons ?_ ?_
  · exact Cert.LibPlainOps.unary_plain _ _ _ _ _ _ _ _ _
  refine congrArg₂ List.cons ?_ ?_
  · exact Cert.LibPlainOps.binary_plain _ _ _ _ _ _ _ _ _ _ _ _ _
  refine congrArg₂ List.cons ?_ ?_
  · exact Cert.LibPlainOps.unary_plain _ _ _ _ _ _ _ _ _
  refine congrArg₂ List.cons ?_ ?_
  · exact Cert.LibPlainOps.unary_plain _ _ _ _ _ _ _ _ _
  refine congrArg₂ List.cons ?_ ?_
  · exact Cert.LibPlainOps.binary_plain _ _ _ _ _ _ _ _ _ _ _ _ _
  refine congrArg₂ List.cons ?_ ?_
  · exact Cert.LibPlainOps.unary_plain _ _ _ _ _ _ _ _ _
  refine congrArg₂ List.cons ?_ ?_
  · exact Cert.LibPlainOps.nullary_plain _ _ _ _ _
  refine congrArg₂ List.cons ?_ ?_
  · exact Cert.LibPlainOps.binary_plain _ _ _ _ _ _ _ _ _ _ _ _ _
  refine congrArg₂ List.cons ?_ ?_
  · exact Cert.LibPlainOps.unary_plain _ _ _ _ _ _ _ _ _
  refine congrArg₂ List.cons ?_ ?_
  · exact Cert.LibPlainOps.unary_plain _ _ _ _ _ _ _ _ _
  refine congrArg₂ List.cons ?_ ?_
  · exact Cert.LibPlainOps.unary_plain _ _ _ _ _ _ _ _ _
  refine congrArg₂ List.cons ?_ ?_
  · exact Cert.LibPlainOps.binary_plain _ _ _ _ _ _ _ _ _ _ _ _ _
  refine congrArg₂ List.cons ?_ ?_
  · exact Cert.LibPlainOps.nullary_plain _ _ _ _ _
  refine congrArg₂ List.cons ?_ ?_
  · exact Cert.LibPlainOps.nullary_plain _ _ _ _ _
  refine congrArg₂ List.cons ?_ ?_
  · exact Cert.LibPlainOps.nullary_plain _ _ _ _ _
  refine congrArg₂ List.cons ?_ ?_
  · exact Cert.LibPlainOps.unary_plain _ _ _ _ _ _ _ _ _
  refine congrArg₂ List.cons ?_ ?_
  · exact Cert.LibPlainOps.binary_plain _ _ _ _ _ _ _ _ _ _ _ _ _
  refine congrArg₂ List.cons ?_ ?_
  · exact Cert.LibPlainOps.nullary_plain _ _ _ _ _
  refine congrArg₂ List.cons ?_ ?_
  · exact Cert.LibPlainOps.unary_plain _ _ _ _ _ _ _ _ _
  refine congrArg₂ List.cons ?_ ?_
  · exact Cert.LibPlainOps.binary_plain _ _ _ _ _ _ _ _ _ _ _ _ _
  refine congrArg₂ List.cons ?_ ?_
  · exact ternary_plain _ _ _ _ _ _ _ _ _ _ _ _ _ _ _ _ _
  refine congrArg₂ List.cons ?_ ?_
  · exact Cert.LibPlainOps.nullary_plain _ _ _ _ _
  refine congrArg₂ List.cons ?_ ?_
  · exact Cert.LibPlainOps.unary_plain _ _ _ _ _ _ _ _ _
  refine congrArg₂ List.cons ?_ ?_
  · exact Cert.LibPlainOps.binary_plain _ _ _ _ _ _ _ _ _ _ _ _ _
  refine congrArg₂ List.cons ?_ ?_
  · exact Cert.LibPlainOps.nullary_plain _ _ _ _ _
  refine congrArg₂ List.cons ?_ ?_
  · exact Cert.LibPlainOps.unary_plain _ _ _ _ _ _ _ _ _
  refine congrArg₂ List.cons ?_ ?_
  · exact Cert.LibPlainOps.binary_plain _ _ _ _ _ _ _ _ _ _ _ _ _
  refine congrArg₂ List.cons ?_ ?_
  · exact ternary_plain _ _ _ _ _ _ _ _ _ _ _ _ _ _ _ _ _
  refine congrArg₂ List.cons ?_ ?_
  · exact Cert.LibPlainOps.unary_plain _ _ _ _ _ _ _ _ _
  refine congrArg₂ List.cons ?_ ?_
  · exact Cert.LibPlainOps.unary_plain _ _ _ _ _ _ _ _ _
  refine congrArg₂ List.cons ?_ ?_
  · exact Cert.LibPlainOps.binary_plain _ _ _ _ _ _ _ _ _ _ _ _ _
  refine congrArg₂ List.cons ?_ ?_
  · exact Cert.LibPlainOps.binary_plain _ _ _ _ _ _ _ _ _ _ _ _ _
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · exact ternary_plain _ _ _ _ _ _ _ _ _ _ _ _ _ _ _ _ _
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  rfl

theorem main_eqP (c : Dev nD) : main (F := F) c = seq opsP := (main_eq c).trans (by rw [ops_eq])
theorem opsP_sub : (opsP : List (HloOp τ sig (Elt F))).Forall fun op => op.bufs ⊆ tcRefs τ sig := ops_eq (F := F) ▸ ops_sub

end Cert.ReferenceIdeal.RunH

end
-- ==== Proof.RefRunH.lean ====
/-
  The run of the reference program, over the list of its operations: on every device every weakly fair execution of
  @main terminates with the first result buffer at the stage val_main_v10 and the second at the stage val_main_v50
  of the stage-by-stage reading of the program, both as functions of the launch contents of the argument buffers, and
  with the ten argument buffers unchanged.

  What a buffer holds after the operations is the fold of their results over the launch contents. At a result buffer
  the fold is unrolled operation by operation (each operation's result at its own buffer is its function's value,
  at any other buffer what was there); what is left is an equation between two spellings of one composed term, the
  stage's definition unfolded, which holds by computation. The reductions, the gather and the concatenate are kept
  folded while that equation is compared: it never looks inside them, and their bodies are folds and searches over
  all the elements of their operands.
-/
import proofs.«138056_j16037407883274_2_alg».proof.Proof.RefPlain
import proofs.«138056_j16037407883274_2_alg».proof.Proof.RefRead

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## The two result buffers after the operations -/

attribute [local irreducible] Host.reduce Host.gather Host.reduceAdd concatenate in
set_option maxRecDepth 8192 in
set_option maxHeartbeats 4000000 in
/-- The first result buffer holds the loss stage of the launch contents of the first four arguments. -/
theorem v10_eq (V : Valuation τ sig (Elt F)) :
    after (opsP (F := F)) V (Proc.devRef .tc main_v10)
      = ReadP.val_main_v10 (F := F) (V (Proc.devRef .tc main_arg0)) (V (Proc.devRef .tc main_arg1)) (V (Proc.devRef .tc main_arg2)) (V (Proc.devRef .tc main_arg3)) := by
  after_results_simp
  rfl

attribute [local irreducible] Host.reduce Host.gather Host.reduceAdd concatenate in
set_option maxRecDepth 8192 in
set_option maxHeartbeats 4000000 in
/-- The second result buffer holds the projection-head stage of the launch contents of its seven arguments. -/
theorem v50_eq (V : Valuation τ sig (Elt F)) :
    after (opsP (F := F)) V (Proc.devRef .tc main_v50)
      = ReadP.val_main_v50 (F := F) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp
  rfl

/-! ## The argument buffers: no operation writes them -/

section Args
set_option maxRecDepth 8192
set_option maxHeartbeats 4000000

theorem arg0_eq (V : Valuation τ sig (Elt F)) :
    after (opsP (F := F)) V (Proc.devRef .tc main_arg0) = V (Proc.devRef .tc main_arg0) := by
  after_results_simp <;> rfl

theorem arg1_eq (V : Valuation τ sig (Elt F)) :
    after (opsP (F := F)) V (Proc.devRef .tc main_arg1) = V (Proc.devRef .tc main_arg1) := by
  after_results_simp <;> rfl

theorem arg2_eq (V : Valuation τ sig (Elt F)) :
    after (opsP (F := F)) V (Proc.devRef .tc main_arg2) = V (Proc.devRef .tc main_arg2) := by
  after_results_simp <;> rfl

theorem arg3_eq (V : Valuation τ sig (Elt F)) :
    after (opsP (F := F)) V (Proc.devRef .tc main_arg3) = V (Proc.devRef .tc main_arg3) := by
  after_results_simp <;> rfl

theorem arg4_eq (V : Valuation τ sig (Elt F)) :
    after (opsP (F := F)) V (Proc.devRef .tc main_arg4) = V (Proc.devRef .tc main_arg4) := by
  after_results_simp <;> rfl

theorem arg5_eq (V : Valuation τ sig (Elt F)) :
    after (opsP (F := F)) V (Proc.devRef .tc main_arg5) = V (Proc.devRef .tc main_arg5) := by
  after_results_simp <;> rfl

theorem arg6_eq (V : Valuation τ sig (Elt F)) :
    after (opsP (F := F)) V (Proc.devRef .tc main_arg6) = V (Proc.devRef .tc main_arg6) := by
  after_results_simp <;> rfl

theorem arg7_eq (V : Valuation τ sig (Elt F)) :
    after (opsP (F := F)) V (Proc.devRef .tc main_arg7) = V (Proc.devRef .tc main_arg7) := by
  after_results_simp <;> rfl

theorem arg8_eq (V : Valuation τ sig (Elt F)) :
    after (opsP (F := F)) V (Proc.devRef .tc main_arg8) = V (Proc.devRef .tc main_arg8) := by
  after_results_simp <;> rfl

theorem arg9_eq (V : Valuation τ sig (Elt F)) :
    after (opsP (F := F)) V (Proc.devRef .tc main_arg9) = V (Proc.devRef .tc main_arg9) := by
  after_results_simp <;> rfl

end Args

/-! ## The run -/

/-- On every device, for any float values, from any memory with zero counters: every weakly fair execution of
    @main terminates with each result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = ReadP.val_main_v10 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v50) = ReadP.val_main_v50 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v10).trans (v10_eq _),
      (h c main_v50).trans (v50_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => opsP) main_eqP (fun _ => opsP_sub) m ρ)

end Cert.ReferenceIdeal.RunH

end
-- ==== Proof.RefValueLoss.lean ====
/-
  The reference program's contrastive loss up to the log-softmax, read entry by entry: the linear prediction, the
  score matrix, each row's maximum, the shifted scores, the logarithm of the row's sum of exponentials and the
  log-softmax entry, each identified with the corresponding function of the specification.
-/
import proofs.«138056_j16037407883274_2_alg».proof.Proof.RefRead
import proofs.«138056_j16037407883274_2_alg».proof.Proof.CpcSpec

noncomputable section

open scoped BigOperators
open Idealize.ShloMosaic Idealize.ShloMosaic.ValueIdx Cert.ReferenceIdeal Cert.ReferenceIdeal.Gen Cert.ReferenceIdeal.ReadP

namespace Cert.RefValue

section Loss

variable (x0 : (⟨S2048x128x18, .f32⟩ : BufTy).Contents (Elt Ideal)) (x1 : (⟨S2048x4096, .f32⟩ : BufTy).Contents (Elt Ideal))
  (x2 : (⟨S18x128x4096, .f32⟩ : BufTy).Contents (Elt Ideal)) (x3 : (⟨S18x128, .f32⟩ : BufTy).Contents (Elt Ideal))

/-! ### Index equations -/

theorem lidx1 (t : Fin 18) (b : Fin 2048) (c : Fin 128) (k : Fin 4096) :
    lidx_main_v1 (idx_main_v2 (ix3 t b c)) k = ix3 t c k :=
  funext fun a => Fin.ext (by match a with | ⟨0, _⟩ => rfl | ⟨1, _⟩ => rfl | ⟨2, _⟩ => rfl)

theorem ridx1 (t : Fin 18) (b : Fin 2048) (c : Fin 128) (k : Fin 4096) :
    ridx_main_v1 (idx_main_v2 (ix3 t b c)) k = ix2 b k :=
  funext fun a => Fin.ext (by match a with | ⟨0, _⟩ => rfl | ⟨1, _⟩ => rfl)

theorem idx4 (t : Fin 18) (b : Fin 2048) (c : Fin 128) : idx_main_v3 (idx_main_v4 (ix3 t b c)) = ix2 t c :=
  funext fun a => Fin.ext (by match a with | ⟨0, _⟩ => rfl | ⟨1, _⟩ => rfl)

theorem lidx6 (t : Fin 18) (q k : Fin 2048) (c : Fin 128) : idx_main_v0 (lidx_main_v6 (ix3 t q k) c) = ix3 q c t :=
  funext fun a => Fin.ext (by match a with | ⟨0, _⟩ => rfl | ⟨1, _⟩ => rfl | ⟨2, _⟩ => rfl)

theorem ridx6 (t : Fin 18) (q k : Fin 2048) (c : Fin 128) : ridx_main_v6 (ix3 t q k) c = ix3 t k c :=
  funext fun a => Fin.ext (by match a with | ⟨0, _⟩ => rfl | ⟨1, _⟩ => rfl | ⟨2, _⟩ => rfl)

theorem idxRow (t : Fin 18) (q k : Fin 2048) : idx_main_call0_v3 (idx_main_call0_v4 (ix3 t q k)) = ix2 t q :=
  funext fun a => Fin.ext (by match a with | ⟨0, _⟩ => rfl | ⟨1, _⟩ => rfl)

theorem idxSum (t : Fin 18) (q k : Fin 2048) : idx_main_call0_v7 (ix2 t q) k = ix3 t q k :=
  funext fun a => Fin.ext (by match a with | ⟨0, _⟩ => rfl | ⟨1, _⟩ => rfl | ⟨2, _⟩ => rfl)

theorem idxLse (t : Fin 18) (q k : Fin 2048) : idx_main_call0_v8 (idx_main_call0_v10 (ix3 t q k)) = ix2 t q :=
  funext fun a => Fin.ext (by match a with | ⟨0, _⟩ => rfl | ⟨1, _⟩ => rfl)

/-! ### The stages -/

/-- The linear prediction at (t, b, c). -/
theorem ref_pred (t : Fin 18) (b : Fin 2048) (c : Fin 128) :
    val_main_v5 (F := Ideal) x1 x2 x3 (ix3 t b c) = CpcSpec.pred x1 x2 x3 t b c := by
  rw [val_main_v5_apply, val_main_v2_apply, val_main_v1_apply, val_main_v4_apply, val_main_v3_apply, idx4]
  simp only [lidx1, ridx1, Ideal.addf_def]
  unfold CpcSpec.pred
  congr 1
  exact Finset.sum_congr rfl fun d _ => mul_comm _ _

/-- The score of query q against key k at time step t. -/
theorem ref_total (t : Fin 18) (q k : Fin 2048) :
    val_main_v6 (F := Ideal) x0 x1 x2 x3 (ix3 t q k) = CpcSpec.total x0 x1 x2 x3 t q k := by
  rw [val_main_v6_apply]
  simp only [val_main_v0_apply, lidx6, ridx6, ref_pred]
  rfl

/-- The word of −∞. -/
theorem ofBits_negInf : Ideal.ofBits .f32 0xFF800000#32 = (⊥ : EReal) := by simp [Ideal.ofBits, Ideal.ieee]

/-- The reduced index (t, q) with key k put back on the last axis is (t, q, k). -/
theorem lift_row (h : S18x2048x2048.Reduces [2] S18x2048) (t : Fin 18) (q : Fin 2048) (k : Fin (S18x2048x2048.size 2)) :
    h.lift (ix2 t q) k = ix3 t q (⟨k.val, k.isLt⟩ : Fin 2048) := by
  funext c; apply Fin.ext
  fin_cases c <;> rfl

/-- The row maximum at (t, q): the fold of max from −∞ over the keys, joined once more with −∞. -/
theorem ref_rowMax (t : Fin 18) (q : Fin 2048) :
    val_main_call0_v2 (F := Ideal) x0 x1 x2 x3 (ix2 t q) = CpcSpec.rowMax x0 x1 x2 x3 t q := by
  have h : S18x2048x2048.Reduces [2] S18x2048 := by decide
  rw [val_main_call0_v2_apply, val_main_call0_v1_apply, val_main_call0_cst_0_apply]
  unfold val_main_call0_v0
  rw [Host.reduce_eq_fold_single FloatOps.maximumf _ _ _ h _, val_main_call0_cst_apply]
  simp only [Ideal.ofBits_def, ofBits_negInf, Ideal.maximumf_def, bot_sup_eq]
  have hf : (val_main_v6 (F := Ideal) x0 x1 x2 x3 ∘ h.lift (ix2 t q))
      = fun k : Fin 2048 => CpcSpec.total x0 x1 x2 x3 t q k :=
    funext fun k => (congrArg _ (lift_row h t q k)).trans (ref_total x0 x1 x2 x3 t q _)
  exact congrArg (fun f => Finset.fold max (⊥ : EReal) f (Finset.univ : Finset (Fin 2048))) hf

/-- The shifted score at (t, q, k). -/
theorem ref_shift (t : Fin 18) (q k : Fin 2048) :
    val_main_call0_v5 (F := Ideal) x0 x1 x2 x3 (ix3 t q k)
      = CpcSpec.total x0 x1 x2 x3 t q k - CpcSpec.rowMax x0 x1 x2 x3 t q := by
  rw [val_main_call0_v5_apply, val_main_call0_v4_apply, val_main_call0_v3_apply, idxRow, ref_total, ref_rowMax,
    Ideal.subf_def]

/-- The logarithm of the row's sum of shifted exponentials, as the log-softmax reads it at (t, q, k). -/
theorem ref_lse (t : Fin 18) (q k : Fin 2048) :
    val_main_call0_v10 (F := Ideal) x0 x1 x2 x3 (ix3 t q k) = CpcSpec.lse x0 x1 x2 x3 t q := by
  rw [val_main_call0_v10_apply, val_main_call0_v9_apply, val_main_call0_v8_apply, idxLse, val_main_call0_v7_apply,
    val_main_call0_cst_1_apply]
  simp only [val_main_call0_v6_apply, idxSum, ref_shift, Ideal.hostUnary_log_def, Ideal.hostUnary_exp_def,
    Ideal.ofBits_def, Ideal.ofBits_zero_f32, zero_add]
  rfl

/-- The log-softmax entry at (t, q, k). -/
theorem ref_logSoftmax (t : Fin 18) (q k : Fin 2048) :
    val_main_v7 (F := Ideal) x0 x1 x2 x3 (ix3 t q k)
      = (CpcSpec.total x0 x1 x2 x3 t q k - CpcSpec.rowMax x0 x1 x2 x3 t q) - CpcSpec.lse x0 x1 x2 x3 t q := by
  rw [val_main_v7_apply, ref_shift, ref_lse, Ideal.subf_def]

end Loss

end Cert.RefValue

end
-- ==== Proof.RefValueHead.lean ====
/-
  The reference program's projection head, read entry by entry: each stage of the reference is identified with the
  corresponding function of the specification (first linear layer, batch mean, batch variance, normalised activation,
  leaky rectifier, second linear layer).
-/
import proofs.«138056_j16037407883274_2_alg».proof.Proof.RefRead
import proofs.«138056_j16037407883274_2_alg».proof.Proof.CpcSpec

noncomputable section

open scoped BigOperators
open Idealize.ShloMosaic Idealize.ShloMosaic.ValueIdx Cert.ReferenceIdeal Cert.ReferenceIdeal.ReadP

namespace Cert.RefValue

section Head

variable (x1 : (⟨S2048x4096, .f32⟩ : BufTy).Contents (Elt Ideal)) (x4 : (⟨S128x4096, .f32⟩ : BufTy).Contents (Elt Ideal))
  (x5 x6 x7 : (⟨S128, .f32⟩ : BufTy).Contents (Elt Ideal)) (x8 : (⟨S32x128, .f32⟩ : BufTy).Contents (Elt Ideal))
  (x9 : (⟨S32, .f32⟩ : BufTy).Contents (Elt Ideal))

/-! ### Index equations: the reference's composed index maps at an index given by its coordinates -/

theorem lidx12 (b : Fin 2048) (c : Fin 128) (k : Fin 4096) : lidx_main_v12 (ix2 b c) k = ix2 b k :=
  funext fun a => Fin.ext (by match a with | ⟨0, _⟩ => rfl | ⟨1, _⟩ => rfl)

theorem ridx12 (b : Fin 2048) (c : Fin 128) (k : Fin 4096) : idx_main_v11 (ridx_main_v12 (ix2 b c) k) = ix2 c k :=
  funext fun a => Fin.ext (by match a with | ⟨0, _⟩ => rfl | ⟨1, _⟩ => rfl)

theorem idx14 (b : Fin 2048) (c : Fin 128) : idx_main_v13 (idx_main_v14 (ix2 b c)) = ix1 c :=
  funext fun a => Fin.ext (by match a with | ⟨0, _⟩ => rfl)

theorem idx16 (c : Fin 128) (k : Fin 2048) : idx_main_v16 (ix1 c) k = ix2 k c :=
  funext fun a => Fin.ext (by match a with | ⟨0, _⟩ => rfl | ⟨1, _⟩ => rfl)

theorem idx20 (b : Fin 2048) (c : Fin 128) : idx_main_v19 (idx_main_v20 (ix2 b c)) = ix1 c :=
  funext fun a => Fin.ext (by match a with | ⟨0, _⟩ => rfl)

theorem idx23 (c : Fin 128) (k : Fin 2048) : idx_main_v23 (ix1 c) k = ix2 k c :=
  funext fun a => Fin.ext (by match a with | ⟨0, _⟩ => rfl | ⟨1, _⟩ => rfl)

theorem idx27 (b : Fin 2048) (c : Fin 128) : idx_main_v26 (idx_main_v27 (ix2 b c)) = ix1 c :=
  funext fun a => Fin.ext (by match a with | ⟨0, _⟩ => rfl)

theorem idx33 (b : Fin 2048) (c : Fin 128) : idx_main_v32 (idx_main_v33 (ix2 b c)) = ix1 c :=
  funext fun a => Fin.ext (by match a with | ⟨0, _⟩ => rfl)

theorem idx36 (b : Fin 2048) (c : Fin 128) : idx_main_v35 (idx_main_v36 (ix2 b c)) = ix1 c :=
  funext fun a => Fin.ext (by match a with | ⟨0, _⟩ => rfl)

theorem idx39 (b : Fin 2048) (c : Fin 128) : idx_main_v38 (idx_main_v39 (ix2 b c)) = ix1 c :=
  funext fun a => Fin.ext (by match a with | ⟨0, _⟩ => rfl)

theorem lidx47 (b : Fin 2048) (p : Fin 32) (k : Fin 128) : lidx_main_v47 (ix2 b p) k = ix2 b k :=
  funext fun a => Fin.ext (by match a with | ⟨0, _⟩ => rfl | ⟨1, _⟩ => rfl)

theorem ridx47 (b : Fin 2048) (p : Fin 32) (k : Fin 128) : idx_main_v46 (ridx_main_v47 (ix2 b p) k) = ix2 p k :=
  funext fun a => Fin.ext (by match a with | ⟨0, _⟩ => rfl | ⟨1, _⟩ => rfl)

theorem idx49 (b : Fin 2048) (p : Fin 32) : idx_main_v48 (idx_main_v49 (ix2 b p)) = ix1 p :=
  funext fun a => Fin.ext (by match a with | ⟨0, _⟩ => rfl)

/-! ### The stages -/

/-- The first linear layer at (b, c). -/
theorem ref_hid (b : Fin 2048) (c : Fin 128) :
    val_main_v15 (F := Ideal) x1 x4 x5 (ix2 b c) = CpcSpec.hid x1 x4 x5 b c := by
  rw [val_main_v15_apply, val_main_v12_apply, val_main_v14_apply, val_main_v13_apply]
  simp only [val_main_v11_apply, lidx12, ridx12, idx14, Ideal.addf_def]
  rfl

/-- The batch mean of channel c: the sum from the zero word over the batch, over the batch-size word. -/
theorem ref_mu (c : Fin 128) :
    val_main_v18 (F := Ideal) x1 x4 x5 (ix1 c) = CpcSpec.mu x1 x4 x5 c := by
  rw [val_main_v18_apply, val_main_v16_apply, val_main_v17_apply, val_main_cst_1_apply, val_main_cst_2_apply]
  simp only [idx16, ref_hid, Ideal.hostDivf_def, Ideal.ofBits_def, Ideal.ofBits_zero_f32, zero_add]
  rfl

/-- The centred activation at (b, c), as the variance reads it. -/
theorem ref_cen (b : Fin 2048) (c : Fin 128) :
    val_main_v21 (F := Ideal) x1 x4 x5 (ix2 b c) = CpcSpec.hid x1 x4 x5 b c - CpcSpec.mu x1 x4 x5 c := by
  rw [val_main_v21_apply, val_main_v20_apply, val_main_v19_apply, idx20, ref_hid, ref_mu, Ideal.subf_def]

/-- The centred activation at (b, c), as the normalisation reads it. -/
theorem ref_cen' (b : Fin 2048) (c : Fin 128) :
    val_main_v28 (F := Ideal) x1 x4 x5 (ix2 b c) = CpcSpec.hid x1 x4 x5 b c - CpcSpec.mu x1 x4 x5 c := by
  rw [val_main_v28_apply, val_main_v27_apply, val_main_v26_apply, idx27, ref_hid, ref_mu, Ideal.subf_def]

/-- The biased batch variance of channel c. -/
theorem ref_var (c : Fin 128) :
    val_main_v25 (F := Ideal) x1 x4 x5 (ix1 c) = CpcSpec.var x1 x4 x5 c := by
  rw [val_main_v25_apply, val_main_v23_apply, val_main_v24_apply, val_main_cst_3_apply, val_main_cst_4_apply]
  simp only [val_main_v22_apply, idx23, ref_cen, Ideal.hostDivf_def, Ideal.mulf_def, Ideal.ofBits_def, Ideal.ofBits_zero_f32,
    zero_add]
  rfl

/-- The normalised, scaled and shifted activation at (b, c). -/
theorem ref_hn (b : Fin 2048) (c : Fin 128) :
    val_main_v40 (F := Ideal) x1 x4 x5 x6 x7 (ix2 b c) = CpcSpec.hn x1 x4 x5 x6 x7 b c := by
  rw [val_main_v40_apply, val_main_v37_apply, val_main_v34_apply, val_main_v33_apply, val_main_v32_apply, idx33,
    val_main_v31_apply, val_main_v30_apply, val_main_v29_apply, val_main_cst_5_apply, val_main_v36_apply,
    val_main_v35_apply, idx36, val_main_v39_apply, val_main_v38_apply, idx39, ref_cen', ref_var]
  simp only [Ideal.addf_def, Ideal.mulf_def, Ideal.hostUnary_rsqrt_def, Ideal.ofBits_def]
  rfl

/-- The leaky rectifier at (b, c): the select on the ordered comparison with the zero word. -/
theorem ref_act (b : Fin 2048) (c : Fin 128) :
    val_main_v45 (F := Ideal) x1 x4 x5 x6 x7 (ix2 b c) = CpcSpec.act x1 x4 x5 x6 x7 b c := by
  rw [val_main_v45_apply, val_main_v42_apply, val_main_v44_apply, val_main_v41_apply, val_main_v43_apply,
    val_main_cst_6_apply, val_main_cst_7_apply, ref_hn]
  simp only [Ideal.cmpf_def, Ideal.mulf_def, Ideal.ofBits_def]
  rfl

/-- The second linear layer at (b, p). -/
theorem ref_proj_at (b : Fin 2048) (p : Fin 32) :
    val_main_v50 (F := Ideal) x1 x4 x5 x6 x7 x8 x9 (ix2 b p) = CpcSpec.proj x1 x4 x5 x6 x7 x8 x9 b p := by
  rw [val_main_v50_apply, val_main_v47_apply, val_main_v49_apply, val_main_v48_apply, idx49]
  simp only [val_main_v46_apply, lidx47, ridx47, ref_act, Ideal.addf_def]
  rfl

/-- The reference's second result is the specification's projection head. -/
theorem ref_proj :
    val_main_v50 (F := Ideal) x1 x4 x5 x6 x7 x8 x9 = fun i => CpcSpec.proj x1 x4 x5 x6 x7 x8 x9 (i 0) (i 1) := by
  funext i
  obtain ⟨b, p, rfl⟩ : ∃ (b : Fin 2048) (p : Fin 32), i = ix2 b p := ⟨i 0, i 1, eq_ix2 i⟩
  exact ref_proj_at x1 x4 x5 x6 x7 x8 x9 b p

end Head

end Cert.RefValue

end
-- ==== Proof.RefValue.lean ====
/-
  The reference program's contrastive loss from the log-softmax on: the two index columns of the diagonal (an iota
  with a negative-index wrap that is the identity on 0..2047), the gather of the diagonal, the sum over all time
  steps and samples and the final division.
-/
import proofs.«138056_j16037407883274_2_alg».proof.Proof.RefValueLoss
import proofs.«138056_j16037407883274_2_alg».proof.Proof.RefValueHead
import Idealize.ShloMosaic.Lib.DynamicIndex

noncomputable section

open scoped BigOperators
open Idealize.ShloMosaic Idealize.ShloMosaic.ValueIdx Cert.ReferenceIdeal Cert.ReferenceIdeal.Gen Cert.ReferenceIdeal.ReadP

namespace Cert.RefValue

section Diag

variable (x0 : (⟨S2048x128x18, .f32⟩ : BufTy).Contents (Elt Ideal)) (x1 : (⟨S2048x4096, .f32⟩ : BufTy).Contents (Elt Ideal))
  (x2 : (⟨S18x128x4096, .f32⟩ : BufTy).Contents (Elt Ideal)) (x3 : (⟨S18x128, .f32⟩ : BufTy).Contents (Elt Ideal))

/-- A sample number below 2048, as a 32-bit word, is not negative read signed. -/
theorem slt_zero_sample (b : Fin 2048) : IntOp.cmpi .slt (BitVec.ofNat 32 b.val) 0#32 = 0#1 := by
  have hb : b.val < 2 ^ 31 := by have := b.isLt; omega
  have hlt : (BitVec.ofNat 32 b.val).slt 0#32 = false := by
    simp only [BitVec.slt, BitVec.toInt_zero, decide_eq_false_iff_not, Int.not_lt]
    rw [toInt_ofNat_of_lt hb]; omega
  show BitVec.ofBool ((BitVec.ofNat 32 b.val).slt 0#32) = 0#1
  rw [hlt]; rfl

/-- The first index column at b: the wrap select takes the iota itself. -/
theorem ref_col_fst (b : Fin 2048) : val_main_call1_v6 (F := Ideal) (ix1 b) = BitVec.ofNat 32 b.val := by
  rw [val_main_call1_v6_apply, val_main_call1_v3_apply, val_main_call1_v0_apply, val_main_call1_v2_apply,
    val_main_call1_c_apply]
  show Scalar.select (IntOp.cmpi .slt (BitVec.ofNat 32 b.val) 0#32) _ (BitVec.ofNat 32 b.val) = _
  rw [slt_zero_sample, select_zero]

/-- The second index column at b. -/
theorem ref_col_snd (b : Fin 2048) : val_main_call1_v11 (F := Ideal) (ix1 b) = BitVec.ofNat 32 b.val := by
  rw [val_main_call1_v11_apply, val_main_call1_v8_apply, val_main_call1_v1_apply, val_main_call1_v7_apply,
    val_main_call1_c_1_apply]
  show Scalar.select (IntOp.cmpi .slt (BitVec.ofNat 32 b.val) 0#32) _ (BitVec.ofNat 32 b.val) = _
  rw [slt_zero_sample, select_zero]

/-- The joined index array at (b, 0): the first column at b. -/
theorem ref_idx_fst (b : Fin 2048) :
    val_main_call1_v14 (F := Ideal) (ix2 b (0 : Fin 2)) = BitVec.ofNat 32 b.val := by
  unfold val_main_call1_v14
  rw [concatenate_pair_apply_left (t := S2048x2) (s₁ := S2048x1) (s₂ := S2048x1) (1 : Fin S2048x2.rank) _ _ _ (ix2 b (0 : Fin 2)) rfl (ix2 b (0 : Fin 1))
    (fun a => match a with | ⟨0, _⟩ => rfl | ⟨1, _⟩ => rfl)]
  rw [val_main_call1_v12_apply,
    show idx_main_call1_v12 (ix2 b (0 : Fin 1)) = ix1 b from funext fun a => Fin.ext (by match a with | ⟨0, _⟩ => rfl),
    ref_col_fst]

/-- The joined index array at (b, 1): the second column at b. -/
theorem ref_idx_snd (b : Fin 2048) :
    val_main_call1_v14 (F := Ideal) (ix2 b (1 : Fin 2)) = BitVec.ofNat 32 b.val := by
  unfold val_main_call1_v14
  rw [concatenate_pair_apply_right (t := S2048x2) (s₁ := S2048x1) (s₂ := S2048x1) (1 : Fin S2048x2.rank) _ _ _ (ix2 b (1 : Fin 2)) rfl rfl (ix2 b (0 : Fin 1))
    (fun a ha => match a, ha with | ⟨0, _⟩, _ => rfl | ⟨1, _⟩, ha => absurd rfl ha) rfl]
  rw [val_main_call1_v13_apply,
    show idx_main_call1_v13 (ix2 b (0 : Fin 1)) = ix1 b from funext fun a => Fin.ext (by match a with | ⟨0, _⟩ => rfl),
    ref_col_snd]

/-- The gathered element at (t, b) is the log-softmax entry at (t, b, b): both start indices are b, inside the
    operand, so the clamp is the identity. -/
theorem ref_gather (t : Fin 18) (b : Fin 2048) :
    val_main_v8 (F := Ideal) x0 x1 x2 x3 (ix2 t b) = val_main_v7 (F := Ideal) x0 x1 x2 x3 (ix3 t b b) := by
  have hb : b.val < 2 ^ 31 := by have := b.isLt; omega
  have hb' : b.val ≤ 2048 - 1 := by have := b.isLt; omega
  -- the operand index on the offset axis: the result's first coordinate
  have h0 : gather_S18x2048x2048_S2048x2_S18x2048_0_12_n_n_12_1_1811.start (ix2 t b) (val_main_call1_v14 (F := Ideal)) (0 : Fin 3)
      + gather_S18x2048x2048_S2048x2_S18x2048_0_12_n_n_12_1_1811.batchCoord (ix2 t b) (0 : Fin 3)
      + gather_S18x2048x2048_S2048x2_S18x2048_0_12_n_n_12_1_1811.offCoord (ix2 t b) (0 : Fin 3) = t.val := by
    rw [GatherDims.batchCoord_eq_zero _ _ _ List.not_mem_nil]
    have hidx : ∀ h : List.idxOf (0 : Fin 3) gather_S18x2048x2048_S2048x2_S18x2048_0_12_n_n_12_1_1811.sKept
          < gather_S18x2048x2048_S2048x2_S18x2048_0_12_n_n_12_1_1811.offsetDims.length,
        gather_S18x2048x2048_S2048x2_S18x2048_0_12_n_n_12_1_1811.offsetDims[List.idxOf (0 : Fin 3)
          gather_S18x2048x2048_S2048x2_S18x2048_0_12_n_n_12_1_1811.sKept]'h = (0 : Fin 2) := by decide
    unfold GatherDims.start GatherDims.offCoord
    rw [dif_neg (by decide), dif_pos (by decide), hidx]
    exact Nat.zero_add _
  -- on the two collapsed axes: the start index, read signed and clamped
  have h1 : gather_S18x2048x2048_S2048x2_S18x2048_0_12_n_n_12_1_1811.start (ix2 t b) (val_main_call1_v14 (F := Ideal)) (1 : Fin 3)
      + gather_S18x2048x2048_S2048x2_S18x2048_0_12_n_n_12_1_1811.batchCoord (ix2 t b) (1 : Fin 3)
      + gather_S18x2048x2048_S2048x2_S18x2048_0_12_n_n_12_1_1811.offCoord (ix2 t b) (1 : Fin 3) = b.val := by
    rw [GatherDims.batchCoord_eq_zero _ _ _ List.not_mem_nil, GatherDims.offCoord_eq_zero _ _ _ (by decide)]
    unfold GatherDims.start
    rw [dif_pos (by decide)]
    have hsi : gather_S18x2048x2048_S2048x2_S18x2048_0_12_n_n_12_1_1811.siIdx (ix2 t b)
        ⟨List.idxOf (1 : Fin 3) gather_S18x2048x2048_S2048x2_S18x2048_0_12_n_n_12_1_1811.startIndexMap,
          List.idxOf_lt_length_iff.2 (by decide)⟩ = ix2 b (0 : Fin 2) := by
      funext c; refine Fin.ext ?_
      match c with
      | ⟨0, _⟩ => rfl
      | ⟨1, _⟩ => rfl
    rw [hsi, ref_idx_fst, toInt_ofNat_of_lt hb, Int.toNat_natCast]
    exact Nat.min_eq_left hb'
  have h2 : gather_S18x2048x2048_S2048x2_S18x2048_0_12_n_n_12_1_1811.start (ix2 t b) (val_main_call1_v14 (F := Ideal)) (2 : Fin 3)
      + gather_S18x2048x2048_S2048x2_S18x2048_0_12_n_n_12_1_1811.batchCoord (ix2 t b) (2 : Fin 3)
      + gather_S18x2048x2048_S2048x2_S18x2048_0_12_n_n_12_1_1811.offCoord (ix2 t b) (2 : Fin 3) = b.val := by
    rw [GatherDims.batchCoord_eq_zero _ _ _ List.not_mem_nil, GatherDims.offCoord_eq_zero _ _ _ (by decide)]
    unfold GatherDims.start
    rw [dif_pos (by decide)]
    have hsi : gather_S18x2048x2048_S2048x2_S18x2048_0_12_n_n_12_1_1811.siIdx (ix2 t b)
        ⟨List.idxOf (2 : Fin 3) gather_S18x2048x2048_S2048x2_S18x2048_0_12_n_n_12_1_1811.startIndexMap,
          List.idxOf_lt_length_iff.2 (by decide)⟩ = ix2 b (1 : Fin 2) := by
      funext c; refine Fin.ext ?_
      match c with
      | ⟨0, _⟩ => rfl
      | ⟨1, _⟩ => rfl
    rw [hsi, ref_idx_snd, toInt_ofNat_of_lt hb, Int.toNat_natCast]
    exact Nat.min_eq_left hb'
  unfold val_main_v8 Host.gather
  congr 1
  funext a
  refine Fin.ext ?_
  match a with
  | ⟨0, _⟩ => exact h0
  | ⟨1, _⟩ => exact h1
  | ⟨2, _⟩ => exact h2

/-- The diagonal entry of the log-softmax at (t, q). -/
theorem ref_diag (t : Fin 18) (q : Fin 2048) :
    val_main_v8 (F := Ideal) x0 x1 x2 x3 (ix2 t q) = CpcSpec.diag x0 x1 x2 x3 t q := by
  rw [ref_gather, ref_logSoftmax]
  rfl

/-- The reference's first result is the specification's loss: the sum from the zero word over all (t, q) of the
    diagonal entries, over the word of −36864. -/
theorem ref_nce :
    val_main_v10 (F := Ideal) x0 x1 x2 x3 = fun _ => CpcSpec.nce x0 x1 x2 x3 := by
  funext i
  rw [val_main_v10_apply, val_main_v9_apply, val_main_cst_apply, val_main_cst_0_apply, sum_idx2]
  simp only [ref_diag, Ideal.hostDivf_def, Ideal.ofBits_def, Ideal.ofBits_zero_f32, zero_add]
  rfl

end Diag

end Cert.RefValue

end
-- ==== Proof.lean ====
/-
  The claim: the three programs run to the end without a fault and leave their arguments as launched; the idealized kernel is
  the kernel's own text read over the extended reals (nothing was rewritten); and the idealized kernel and the idealized
  reference, run from memories that agree on the ten arguments, end with the same two results.

  Both results are proved equal to one specification (CpcSpec): the contrastive loss — for each of the 18 time steps the
  scores of every query sample against every key sample's linear prediction, the diagonal of the rows' log-softmax, summed
  and divided by −36864 — and the projection head — a linear layer, batch normalisation with the biased batch variance, the
  leaky rectifier, a second linear layer. The kernel computes the loss 256 query rows at a time, keeping a time step's
  prediction and a running sum in scratch memory across the 8 blocks of the step and picking the diagonal out of each block
  of scores with a mask; the reference computes whole [18, 2048, 2048] arrays and gathers the diagonal. Over the extended
  reals the two are the same sums in another grouping, which needs only that addition is commutative and associative; the
  format changes the kernel makes before its matrix products are the identity there. The head is the same operations in the
  same order on both sides.
-/
import proofs.«138056_j16037407883274_2_alg».proof.Defs
import proofs.«138056_j16037407883274_2_alg».proof.Proof.Gen.Kernel
import proofs.«138056_j16037407883274_2_alg».proof.Proof.Gen.KernelIdeal
import proofs.«138056_j16037407883274_2_alg».proof.Proof.Gen.ReferenceIdeal
import proofs.«138056_j16037407883274_2_alg».proof.Proof.Gen.Pre_finite_inputs
import proofs.«138056_j16037407883274_2_alg».proof.Proof.K.Run
import proofs.«138056_j16037407883274_2_alg».proof.Proof.KI.Run
import proofs.«138056_j16037407883274_2_alg».proof.Proof.KI.LossFinal
import proofs.«138056_j16037407883274_2_alg».proof.Proof.KI.HeadFinal
import proofs.«138056_j16037407883274_2_alg».proof.Proof.RefRunH
import proofs.«138056_j16037407883274_2_alg».proof.Proof.RefValue
import Idealize.ShloMosaic.Adequacy
import Idealize.ShloMosaic.Init

noncomputable section

namespace Cert.Proof

open Idealize.ShloMosaic Idealize.ShloMosaic.TcCoe Idealize.SL.Sem

/-- The kernel at the word level: its run over the four segments ends with every argument as launched. -/
theorem frame_p : Cert.frame_Kernel := fun m ρ _ => Cert.Kernel.Gen.frame m ρ
/-- The same for the kernel read over the extended reals. -/
theorem frame_pi : Cert.frame_KernelIdeal := fun m ρ _ => Cert.KernelIdeal.Gen.frame m ρ
/-- The reference is a straight line of host operations: its run with the two results dropped. -/
theorem frame_ri : Cert.frame_ReferenceIdeal := fun m ρ _ =>
  (θ_run Cert.ReferenceIdeal.defs _ _).mono (fun _ h c => (h c).2.2) (Cert.ReferenceIdeal.RunH.run (F := Ideal) m ρ)
/-- Nothing was rewritten when the kernel was idealized. -/
theorem preserves : Cert.preserves_Kernel_KernelIdeal := trivial

/-- Both programs end with the specification's loss and projection of the arguments. -/
theorem algebraic : Cert.algebraic_KernelIdeal_ReferenceIdeal := by
  intro m ρ m' ρ' _ hagree
  refine ⟨fun c => (fun _ => Cert.CpcSpec.nce (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    fun c => (fun i => Cert.CpcSpec.proj (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (i 0) (i 1)), ?_, ?_⟩
  · exact (θ_run Cert.KernelIdeal.defs _ _).mono (fun _ h c =>
      ⟨(h c _ (Cert.KernelIdeal.Gen.mem_uc Cert.KernelIdeal.main_v6 (by decide))).trans (Cert.KernelIdeal.Gen.kernel_nce m ρ c),
       (h c _ (Cert.KernelIdeal.Gen.mem_uc Cert.KernelIdeal.main_v7 (by decide))).trans (Cert.KernelIdeal.Gen.kernel_proj m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c),
       (h c _ (Cert.KernelIdeal.Gen.mem_uc Cert.KernelIdeal.main_arg8 (by decide))).trans (Cert.KernelIdeal.Gen.W4_main_arg8 m ρ c),
       (h c _ (Cert.KernelIdeal.Gen.mem_uc Cert.KernelIdeal.main_arg9 (by decide))).trans (Cert.KernelIdeal.Gen.W4_main_arg9 m ρ c)⟩)
      (Cert.KernelIdeal.Gen.run_all m ρ)
  · refine (θ_run Cert.ReferenceIdeal.defs _ _).mono (fun _ h c => ⟨(h c).1.trans ?_, (h c).2.1.trans ?_, (h c).2.2⟩)
      (Cert.ReferenceIdeal.RunH.run (F := Ideal) m' ρ')
    · rw [Cert.RefValue.ref_nce, (hagree c).1, (hagree c).2.1, (hagree c).2.2.1, (hagree c).2.2.2.1]
      rfl
    · rw [Cert.RefValue.ref_proj, (hagree c).2.1, (hagree c).2.2.2.2.1, (hagree c).2.2.2.2.2.1, (hagree c).2.2.2.2.2.2.1,
        (hagree c).2.2.2.2.2.2.2.1, (hagree c).2.2.2.2.2.2.2.2.1, (hagree c).2.2.2.2.2.2.2.2.2]
      rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
